-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v121)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v121) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x24 : Shape := ⟨2, ![8192, 24]⟩
abbrev S1000000x1 : Shape := ⟨2, ![1000000, 1]⟩
abbrev S1000000x16 : Shape := ⟨2, ![1000000, 16]⟩
abbrev S1 : Shape := ⟨1, ![1]⟩
abbrev S276x32x64 : Shape := ⟨3, ![276, 32, 64]⟩
abbrev S276x64 : Shape := ⟨2, ![276, 64]⟩
abbrev S276x64x1 : Shape := ⟨3, ![276, 64, 1]⟩
abbrev S276x1 : Shape := ⟨2, ![276, 1]⟩
abbrev S_ : Shape := ⟨0, ![]⟩

class Facts : Prop where
  bcast_S_S1000000x1 : S_.BroadcastsInDim S1000000x1 (![] : Fin 0 → Fin S1000000x1.rank)
  reducesTo_S1000000x1_S_d0_1 : S1000000x1.ReducesTo [0, 1] S_
  h_S_ : 0 < S_.numel
  bcast_S_S1000000x16 : S_.BroadcastsInDim S1000000x16 (![] : Fin 0 → Fin S1000000x16.rank)
  reducesTo_S1000000x16_S_d0_1 : S1000000x16.ReducesTo [0, 1] S_
  bcast_S_S1 : S_.BroadcastsInDim S1 (![] : Fin 0 → Fin S1.rank)
  reducesTo_S1_S_d0 : S1.ReducesTo [0] S_
  bcast_S_S276x32x64 : S_.BroadcastsInDim S276x32x64 (![] : Fin 0 → Fin S276x32x64.rank)
  reducesTo_S276x32x64_S_d0_1_2 : S276x32x64.ReducesTo [0, 1, 2] S_
  bcast_S_S276x64 : S_.BroadcastsInDim S276x64 (![] : Fin 0 → Fin S276x64.rank)
  reducesTo_S276x64_S_d0_1 : S276x64.ReducesTo [0, 1] S_
  bcast_S_S276x64x1 : S_.BroadcastsInDim S276x64x1 (![] : Fin 0 → Fin S276x64x1.rank)
  reducesTo_S276x64x1_S_d0_1_2 : S276x64x1.ReducesTo [0, 1, 2] S_
  bcast_S_S276x1 : S_.BroadcastsInDim S276x1 (![] : Fin 0 → Fin S276x1.rank)
  reducesTo_S276x1_S_d0_1 : S276x1.ReducesTo [0, 1] S_

variable [Facts]

def fn_part1 {F : FTy → Type} [FloatOps F] (main_arg5 : FVec F S276x64 .f32) (main_arg6 : FVec F S276x64x1 .f32) (main_arg7 : FVec F S276x1 .f32) (main_v13 : IVec S_ 1) (main_v16 : IVec S276x32x64 1) : IVec S_ 1 :=
  let main_c_5 : IVec S_ 1 := constantI S_ 1 1#1
  let main_v17 : IVec S_ 1 := (fun x v => Host.reduce IntOp.andi x v reducesTo_S276x32x64_S_d0_1_2 h_S_) main_v16 main_c_5
  let main_v18 : IVec S_ 1 := andi main_v13 main_v17
  let main_v19 : FVec F S276x64 .f32 := Host.absf main_arg5
  let main_cst_6 : FVec F S_ .f32 := constant S_ .f32 0x7F800000#32
  let main_v20 : FVec F S276x64 .f32 := broadcastInDim S276x64 ![] bcast_S_S276x64 main_cst_6
  let main_v21 : IVec S276x64 1 := cmpf .olt main_v19 main_v20
  let main_c_7 : IVec S_ 1 := constantI S_ 1 1#1
  let main_v22 : IVec S_ 1 := (fun x v => Host.reduce IntOp.andi x v reducesTo_S276x64_S_d0_1 h_S_) main_v21 main_c_7
  let main_v23 : IVec S_ 1 := andi main_v18 main_v22
  let main_v24 : FVec F S276x64x1 .f32 := Host.absf main_arg6
  let main_cst_8 : FVec F S_ .f32 := constant S_ .f32 0x7F800000#32
  let main_v25 : FVec F S276x64x1 .f32 := broadcastInDim S276x64x1 ![] bcast_S_S276x64x1 main_cst_8
  let main_v26 : IVec S276x64x1 1 := cmpf .olt main_v24 main_v25
  let main_c_9 : IVec S_ 1 := constantI S_ 1 1#1
  let main_v27 : IVec S_ 1 := (fun x v => Host.reduce IntOp.andi x v reducesTo_S276x64x1_S_d0_1_2 h_S_) main_v26 main_c_9
  let main_v28 : IVec S_ 1 := andi main_v23 main_v27
  let main_v29 : FVec F S276x1 .f32 := Host.absf main_arg7
  let main_cst_10 : FVec F S_ .f32 := constant S_ .f32 0x7F800000#32
  let main_v30 : FVec F S276x1 .f32 := broadcastInDim S276x1 ![] bcast_S_S276x1 main_cst_10
  let main_v31 : IVec S276x1 1 := cmpf .olt main_v29 main_v30
  let main_c_11 : IVec S_ 1 := constantI S_ 1 1#1
  let main_v32 : IVec S_ 1 := (fun x v => Host.reduce IntOp.andi x v reducesTo_S276x1_S_d0_1 h_S_) main_v31 main_c_11
  let main_v33 : IVec S_ 1 := andi main_v28 main_v32
  main_v33

def fn {F : FTy → Type} [FloatOps F] (main_arg0 : IVec S8192x24 32) (main_arg1 : FVec F S1000000x1 .f32) (main_arg2 : FVec F S1000000x16 .f32) (main_arg3 : FVec F S1 .f32) (main_arg4 : FVec F S276x32x64 .f32) (main_arg5 : FVec F S276x64 .f32) (main_arg6 : FVec F S276x64x1 .f32) (main_arg7 : FVec F S276x1 .f32) : IVec S_ 1 :=
  let main_v0 : FVec F S1000000x1 .f32 := Host.absf main_arg1
  let main_cst : FVec F S_ .f32 := constant S_ .f32 0x7F800000#32
  let main_v1 : FVec F S1000000x1 .f32 := broadcastInDim S1000000x1 ![] bcast_S_S1000000x1 main_cst
  let main_v2 : IVec S1000000x1 1 := cmpf .olt main_v0 main_v1
  let main_c : IVec S_ 1 := constantI S_ 1 1#1
  let main_v3 : IVec S_ 1 := (fun x v => Host.reduce IntOp.andi x v reducesTo_S1000000x1_S_d0_1 h_S_) main_v2 main_c
  let main_v4 : FVec F S1000000x16 .f32 := Host.absf main_arg2
  let main_cst_0 : FVec F S_ .f32 := constant S_ .f32 0x7F800000#32
  let main_v5 : FVec F S1000000x16 .f32 := broadcastInDim S1000000x16 ![] bcast_S_S1000000x16 main_cst_0
  let main_v6 : IVec S1000000x16 1 := cmpf .olt main_v4 main_v5
  let main_c_1 : IVec S_ 1 := constantI S_ 1 1#1
  let main_v7 : IVec S_ 1 := (fun x v => Host.reduce IntOp.andi x v reducesTo_S1000000x16_S_d0_1 h_S_) main_v6 main_c_1
  let main_v8 : IVec S_ 1 := andi main_v3 main_v7
  let main_v9 : FVec F S1 .f32 := Host.absf main_arg3
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S276x32x64 .f32 := Host.absf main_arg4
  let main_cst_4 : FVec F S_ .f32 := constant S_ .f32 0x7F800000#32
  let main_v15 : FVec F S276x32x64 .f32 := broadcastInDim S276x32x64 ![] bcast_S_S276x32x64 main_cst_4
  let main_v16 : IVec S276x32x64 1 := cmpf .olt main_v14 main_v15
  fn_part1 (F := F) main_arg5 main_arg6 main_arg7 main_v13 main_v16
-- ==== Kernel.lean ====
abbrev S8192x24 : Shape := ⟨2, ![8192, 24]⟩
abbrev S1000000x1 : Shape := ⟨2, ![1000000, 1]⟩
abbrev S1000000x16 : Shape := ⟨2, ![1000000, 16]⟩
abbrev S1 : Shape := ⟨1, ![1]⟩
abbrev S276x32x64 : Shape := ⟨3, ![276, 32, 64]⟩
abbrev S276x64 : Shape := ⟨2, ![276, 64]⟩
abbrev S276x64x1 : Shape := ⟨3, ![276, 64, 1]⟩
abbrev S276x1 : Shape := ⟨2, ![276, 1]⟩
abbrev S276 : Shape := ⟨1, ![276]⟩
abbrev S_ : Shape := ⟨0, ![]⟩
abbrev S8192x24x1 : Shape := ⟨3, ![8192, 24, 1]⟩
abbrev S8192 : Shape := ⟨1, ![8192]⟩
abbrev S8192x24x16 : Shape := ⟨3, ![8192, 24, 16]⟩
abbrev S8192x276x16 : Shape := ⟨3, ![8192, 276, 16]⟩
abbrev S8192x276x32 : Shape := ⟨3, ![8192, 276, 32]⟩
abbrev S8192x23x12x32 : Shape := ⟨4, ![8192, 23, 12, 32]⟩
abbrev S23x8192x12x32 : Shape := ⟨4, ![23, 8192, 12, 32]⟩
abbrev S23x8192x384 : Shape := ⟨3, ![23, 8192, 384]⟩
abbrev S23x12x32x64 : Shape := ⟨4, ![23, 12, 32, 64]⟩
abbrev S23x384x768 : Shape := ⟨3, ![23, 384, 768]⟩
abbrev S23x1x32x64 : Shape := ⟨4, ![23, 1, 32, 64]⟩
abbrev S23x32x64 : Shape := ⟨3, ![23, 32, 64]⟩
abbrev S2 : Shape := ⟨1, ![2]⟩
abbrev S23x1x768 : Shape := ⟨3, ![23, 1, 768]⟩
abbrev S1x2048x384 : Shape := ⟨3, ![1, 2048, 384]⟩
abbrev S1x384x768 : Shape := ⟨3, ![1, 384, 768]⟩
abbrev S1x1x768 : Shape := ⟨3, ![1, 1, 768]⟩
abbrev S2048 : Shape := ⟨1, ![2048]⟩
abbrev S2048x384 : Shape := ⟨2, ![2048, 384]⟩
abbrev S384x768 : Shape := ⟨2, ![384, 768]⟩
abbrev S768 : Shape := ⟨1, ![768]⟩
abbrev S2048x768 : Shape := ⟨2, ![2048, 768]⟩
abbrev S1x768 : Shape := ⟨2, ![1, 768]⟩

abbrev nBuf : Space → Nat
  | .hbm => 169
  | .vmem => 10
  | .smem => 0
  | _ => 0

abbrev hbmTy0_0 (i : Nat) : BufTy := match i % 128 with
  | 0 => ⟨S8192x24, .i32⟩
  | 1 => ⟨S1000000x1, .f32⟩
  | 2 => ⟨S1000000x16, .f32⟩
  | 3 => ⟨S1, .f32⟩
  | 4 => ⟨S276x32x64, .f32⟩
  | 5 => ⟨S276x64, .f32⟩
  | 6 => ⟨S276x64x1, .f32⟩
  | 7 => ⟨S276x1, .f32⟩
  | 8 => ⟨S276, .i32⟩
  | 9 => ⟨S276, .i1⟩
  | 10 => ⟨S276, .i32⟩
  | 11 => ⟨S276, .i1⟩
  | 12 => ⟨S_, .i32⟩
  | 13 => ⟨S8192x24, .i32⟩
  | 14 => ⟨S8192x24, .i1⟩
  | 15 => ⟨S_, .i32⟩
  | 16 => ⟨S8192x24, .i32⟩
  | 17 => ⟨S8192x24, .i32⟩
  | 18 => ⟨S8192x24, .i32⟩
  | 19 => ⟨S8192x24x1, .i32⟩
  | 20 => ⟨S8192x24x1, .f32⟩
  | 21 => ⟨S_, .f32⟩
  | 22 => ⟨S8192, .f32⟩
  | 23 => ⟨S_, .i32⟩
  | 24 => ⟨S8192x24, .i32⟩
  | 25 => ⟨S8192x24, .i1⟩
  | 26 => ⟨S_, .i32⟩
  | 27 => ⟨S8192x24, .i32⟩
  | 28 => ⟨S8192x24, .i32⟩
  | 29 => ⟨S8192x24, .i32⟩
  | 30 => ⟨S8192x24x1, .i32⟩
  | 31 => ⟨S8192x24x16, .f32⟩
  | 32 => ⟨S8192x24x16, .bf16⟩
  | 33 => ⟨S_, .i32⟩
  | 34 => ⟨S276, .i32⟩
  | 35 => ⟨S276, .i32⟩
  | 36 => ⟨S276, .i32⟩
  | 37 => ⟨S276x1, .i32⟩
  | 38 => ⟨S8192x276x16, .bf16⟩
  | 39 => ⟨S_, .i32⟩
  | 40 => ⟨S276, .i32⟩
  | 41 => ⟨S276, .i32⟩
  | 42 => ⟨S276, .i32⟩
  | 43 => ⟨S276x1, .i32⟩
  | 44 => ⟨S8192x276x16, .bf16⟩
  | 45 => ⟨S8192x276x32, .bf16⟩
  | 46 => ⟨S8192x23x12x32, .bf16⟩
  | 47 => ⟨S23x8192x12x32, .bf16⟩
  | 48 => ⟨S23x8192x384, .bf16⟩
  | 49 => ⟨S276x32x64, .bf16⟩
  | 50 => ⟨S23x12x32x64, .bf16⟩
  | 51 => ⟨S_, .bf16⟩
  | 52 => ⟨S23x384x768, .bf16⟩
  | 53 => ⟨S23x1x32x64, .bf16⟩
  | 54 => ⟨S23x32x64, .bf16⟩
  | 55 => ⟨S_, .i32⟩
  | 56 => ⟨S1, .i32⟩
  | 57 => ⟨S_, .i32⟩
  | 58 => ⟨S1, .i32⟩
  | 59 => ⟨S2, .i32⟩
  | 60 => ⟨S23x384x768, .bf16⟩
  | 61 => ⟨S23x1x32x64, .bf16⟩
  | 62 => ⟨S23x32x64, .bf16⟩
  | 63 => ⟨S_, .i32⟩
  | 64 => ⟨S1, .i32⟩
  | 65 => ⟨S_, .i32⟩
  | 66 => ⟨S1, .i32⟩
  | 67 => ⟨S2, .i32⟩
  | 68 => ⟨S23x384x768, .bf16⟩
  | 69 => ⟨S23x1x32x64, .bf16⟩
  | 70 => ⟨S23x32x64, .bf16⟩
  | 71 => ⟨S_, .i32⟩
  | 72 => ⟨S1, .i32⟩
  | 73 => ⟨S_, .i32⟩
  | 74 => ⟨S1, .i32⟩
  | 75 => ⟨S2, .i32⟩
  | 76 => ⟨S23x384x768, .bf16⟩
  | 77 => ⟨S23x1x32x64, .bf16⟩
  | 78 => ⟨S23x32x64, .bf16⟩
  | 79 => ⟨S_, .i32⟩
  | 80 => ⟨S1, .i32⟩
  | 81 => ⟨S_, .i32⟩
  | 82 => ⟨S1, .i32⟩
  | 83 => ⟨S2, .i32⟩
  | 84 => ⟨S23x384x768, .bf16⟩
  | 85 => ⟨S23x1x32x64, .bf16⟩
  | 86 => ⟨S23x32x64, .bf16⟩
  | 87 => ⟨S_, .i32⟩
  | 88 => ⟨S1, .i32⟩
  | 89 => ⟨S_, .i32⟩
  | 90 => ⟨S1, .i32⟩
  | 91 => ⟨S2, .i32⟩
  | 92 => ⟨S23x384x768, .bf16⟩
  | 93 => ⟨S23x1x32x64, .bf16⟩
  | 94 => ⟨S23x32x64, .bf16⟩
  | 95 => ⟨S_, .i32⟩
  | 96 => ⟨S1, .i32⟩
  | 97 => ⟨S_, .i32⟩
  | 98 => ⟨S1, .i32⟩
  | 99 => ⟨S2, .i32⟩
  | 100 => ⟨S23x384x768, .bf16⟩
  | 101 => ⟨S23x1x32x64, .bf16⟩
  | 102 => ⟨S23x32x64, .bf16⟩
  | 103 => ⟨S_, .i32⟩
  | 104 => ⟨S1, .i32⟩
  | 105 => ⟨S_, .i32⟩
  | 106 => ⟨S1, .i32⟩
  | 107 => ⟨S2, .i32⟩
  | 108 => ⟨S23x384x768, .bf16⟩
  | 109 => ⟨S23x1x32x64, .bf16⟩
  | 110 => ⟨S23x32x64, .bf16⟩
  | 111 => ⟨S_, .i32⟩
  | 112 => ⟨S1, .i32⟩
  | 113 => ⟨S_, .i32⟩
  | 114 => ⟨S1, .i32⟩
  | 115 => ⟨S2, .i32⟩
  | 116 => ⟨S23x384x768, .bf16⟩
  | 117 => ⟨S23x1x32x64, .bf16⟩
  | 118 => ⟨S23x32x64, .bf16⟩
  | 119 => ⟨S_, .i32⟩
  | 120 => ⟨S1, .i32⟩
  | 121 => ⟨S_, .i32⟩
  | 122 => ⟨S1, .i32⟩
  | 123 => ⟨S2, .i32⟩
  | 124 => ⟨S23x384x768, .bf16⟩
  | 125 => ⟨S23x1x32x64, .bf16⟩
  | 126 => ⟨S23x32x64, .bf16⟩
  | 127 => ⟨S_, .i32⟩
  | _ => ⟨S8192x24, .i32⟩

abbrev hbmTy0_1 (i : Nat) : BufTy := match i % 128 with
  | 0 => ⟨S1, .i32⟩
  | 1 => ⟨S_, .i32⟩
  | 2 => ⟨S1, .i32⟩
  | 3 => ⟨S2, .i32⟩
  | 4 => ⟨S23x384x768, .bf16⟩
  | 5 => ⟨S23x1x32x64, .bf16⟩
  | 6 => ⟨S23x32x64, .bf16⟩
  | 7 => ⟨S_, .i32⟩
  | 8 => ⟨S1, .i32⟩
  | 9 => ⟨S_, .i32⟩
  | 10 => ⟨S1, .i32⟩
  | 11 => ⟨S2, .i32⟩
  | 12 => ⟨S23x384x768, .bf16⟩
  | 13 => ⟨S23x1x32x64, .bf16⟩
  | 14 => ⟨S23x32x64, .bf16⟩
  | 15 => ⟨S_, .i32⟩
  | 16 => ⟨S1, .i32⟩
  | 17 => ⟨S_, .i32⟩
  | 18 => ⟨S1, .i32⟩
  | 19 => ⟨S2, .i32⟩
  | 20 => ⟨S23x384x768, .bf16⟩
  | 21 => ⟨S23x1x768, .f32⟩
  | 22 => ⟨S276x64, .f32⟩
  | 23 => ⟨S23x1x768, .f32⟩
  | 24 => ⟨S8192, .f32⟩
  | 25 => ⟨S_, .f32⟩
  | 26 => ⟨S_, .f32⟩
  | 27 => ⟨S8192, .f32⟩
  | 28 => ⟨S8192, .f32⟩
  | 29 => ⟨S8192, .f32⟩
  | 30 => ⟨S_, .f32⟩
  | 31 => ⟨S8192, .f32⟩
  | 32 => ⟨S8192, .f32⟩
  | 33 => ⟨S8192, .f32⟩
  | 34 => ⟨S8192, .f32⟩
  | 35 => ⟨S_, .f32⟩
  | 36 => ⟨S8192, .f32⟩
  | 37 => ⟨S8192, .f32⟩
  | 38 => ⟨S_, .f32⟩
  | 39 => ⟨S8192, .f32⟩
  | 40 => ⟨S8192, .f32⟩
  | _ => ⟨S8192x24, .i32⟩

abbrev hbmTy (i : Nat) : BufTy := match i / 128 with
  | 0 => hbmTy0_0 i
  | 1 => hbmTy0_1 i
  | _ => ⟨S8192x24, .i32⟩

abbrev bufTy : (tb : Table) → Fin (tcTables nBuf tb) → BufTy
  | .hbm, ⟨i, _⟩ => hbmTy i
  | .local _ .vmem, ⟨0, _⟩ => ⟨S1x2048x384, .bf16⟩
  | .local _ .vmem, ⟨1, _⟩ => ⟨S1x2048x384, .bf16⟩
  | .local _ .vmem, ⟨2, _⟩ => ⟨S1x384x768, .bf16⟩
  | .local _ .vmem, ⟨3, _⟩ => ⟨S1x384x768, .bf16⟩
  | .local _ .vmem, ⟨4, _⟩ => ⟨S1x1x768, .f32⟩
  | .local _ .vmem, ⟨5, _⟩ => ⟨S1x1x768, .f32⟩
  | .local _ .vmem, ⟨6, _⟩ => ⟨S1x1x768, .f32⟩
  | .local _ .vmem, ⟨7, _⟩ => ⟨S1x1x768, .f32⟩
  | .local _ .vmem, ⟨8, _⟩ => ⟨S2048, .f32⟩
  | .local _ .vmem, ⟨9, _⟩ => ⟨S2048, .f32⟩
  | _, _ => ⟨S8192x24, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_c_0 : Ref sig .tc := ⟨.hbm, 9, rfl⟩
abbrev main_c_1 : Ref sig .tc := ⟨.hbm, 10, rfl⟩
abbrev main_c_2 : Ref sig .tc := ⟨.hbm, 11, rfl⟩
abbrev main_c_3 : Ref sig .tc := ⟨.hbm, 12, rfl⟩
abbrev main_v0 : Ref sig .tc := ⟨.hbm, 13, rfl⟩
abbrev main_v1 : Ref sig .tc := ⟨.hbm, 14, rfl⟩
abbrev main_c_4 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_c_5 : Ref sig .tc := ⟨.hbm, 23, rfl⟩
abbrev main_v8 : Ref sig .tc := ⟨.hbm, 24, rfl⟩
abbrev main_v9 : Ref sig .tc := ⟨.hbm, 25, rfl⟩
abbrev main_c_6 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_c_7 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c_8 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_9 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_10 : Ref sig .tc := ⟨.hbm, 55, rfl⟩
abbrev main_v35 : Ref sig .tc := ⟨.hbm, 56, rfl⟩
abbrev main_c_11 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_c_12 : Ref sig .tc := ⟨.hbm, 63, rfl⟩
abbrev main_v41 : Ref sig .tc := ⟨.hbm, 64, rfl⟩
abbrev main_c_13 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_c_14 : Ref sig .tc := ⟨.hbm, 71, rfl⟩
abbrev main_v47 : Ref sig .tc := ⟨.hbm, 72, rfl⟩
abbrev main_c_15 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_c_16 : Ref sig .tc := ⟨.hbm, 79, rfl⟩
abbrev main_v53 : Ref sig .tc := ⟨.hbm, 80, rfl⟩
abbrev main_c_17 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_c_18 : Ref sig .tc := ⟨.hbm, 87, rfl⟩
abbrev main_v59 : Ref sig .tc := ⟨.hbm, 88, rfl⟩
abbrev main_c_19 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_c_20 : Ref sig .tc := ⟨.hbm, 95, rfl⟩
abbrev main_v65 : Ref sig .tc := ⟨.hbm, 96, rfl⟩
abbrev main_c_21 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_c_22 : Ref sig .tc := ⟨.hbm, 103, rfl⟩
abbrev main_v71 : Ref sig .tc := ⟨.hbm, 104, rfl⟩
abbrev main_c_23 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_c_24 : Ref sig .tc := ⟨.hbm, 111, rfl⟩
abbrev main_v77 : Ref sig .tc := ⟨.hbm, 112, rfl⟩
abbrev main_c_25 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_c_26 : Ref sig .tc := ⟨.hbm, 119, rfl⟩
abbrev main_v83 : Ref sig .tc := ⟨.hbm, 120, rfl⟩
abbrev main_c_27 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_c_28 : Ref sig .tc := ⟨.hbm, 127, rfl⟩
abbrev main_v89 : Ref sig .tc := ⟨.hbm, 128, rfl⟩
abbrev main_c_29 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_c_30 : Ref sig .tc := ⟨.hbm, 135, rfl⟩
abbrev main_v95 : Ref sig .tc := ⟨.hbm, 136, rfl⟩
abbrev main_c_31 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_c_32 : Ref sig .tc := ⟨.hbm, 143, rfl⟩
abbrev main_v101 : Ref sig .tc := ⟨.hbm, 144, rfl⟩
abbrev main_c_33 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_cst_34 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_cst_35 : Ref sig .tc := ⟨.hbm, 163, rfl⟩
abbrev main_v118 : Ref sig .tc := ⟨.hbm, 164, rfl⟩
abbrev main_v119 : Ref sig .tc := ⟨.hbm, 165, rfl⟩
abbrev main_cst_36 : Ref sig .tc := ⟨.hbm, 166, rfl⟩
abbrev main_v120 : Ref sig .tc := ⟨.hbm, 167, rfl⟩
abbrev main_v121 : Ref sig .tc := ⟨.hbm, 168, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 23], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage0_0 : Fin 2 → Memref sig .tc .vmem S1x2048x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x384x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bcast_S_S8192x24 : S_.BroadcastsInDim S8192x24 (![] : Fin 0 → Fin S8192x24.rank)
  bcast_S8192x24_S8192x24x1_0_1 : S8192x24.BroadcastsInDim S8192x24x1 (![0, 1] : Fin 2 → Fin S8192x24x1.rank)
  reducesTo_S8192x24x1_S8192_d1_2 : S8192x24x1.ReducesTo [1, 2] S8192
  h_S_ : 0 < S_.numel
  bitsLt_bf16_f32 : FTy.bits .bf16 < FTy.bits .f32
  bcast_S_S276 : S_.BroadcastsInDim S276 (![] : Fin 0 → Fin S276.rank)
  bcast_S276_S276x1_0 : S276.BroadcastsInDim S276x1 (![0] : Fin 1 → Fin S276x1.rank)
  concatenates_S8192x276x16_S8192x276x16_S8192x276x32_d2 : Shape.Concatenates [S8192x276x16, S8192x276x16] S8192x276x32 2
  shapeCasts_S8192x276x32_S8192x23x12x32 : S8192x276x32.ShapeCasts S8192x23x12x32
  transposes_S8192x23x12x32_S23x8192x12x32_1_0_2_3 : S8192x23x12x32.Transposes [1, 0, 2, 3] S23x8192x12x32
  shapeCasts_S23x8192x12x32_S23x8192x384 : S23x8192x12x32.ShapeCasts S23x8192x384
  shapeCasts_S276x32x64_S23x12x32x64 : S276x32x64.ShapeCasts S23x12x32x64
  bcast_S_S23x384x768 : S_.BroadcastsInDim S23x384x768 (![] : Fin 0 → Fin S23x384x768.rank)
  slices_S23x12x32x64_S23x1x32x64_0_0_0_0 : S23x12x32x64.Slices ![0, 0, 0, 0] S23x1x32x64
  shapeCasts_S23x1x32x64_S23x32x64 : S23x1x32x64.ShapeCasts S23x32x64
  bcast_S_S1 : S_.BroadcastsInDim S1 (![] : Fin 0 → Fin S1.rank)
  concatenates_S1_S1_S2_d0 : Shape.Concatenates [S1, S1] S2 0
  slices_S23x12x32x64_S23x1x32x64_0_1_0_0 : S23x12x32x64.Slices ![0, 1, 0, 0] S23x1x32x64
  slices_S23x12x32x64_S23x1x32x64_0_2_0_0 : S23x12x32x64.Slices ![0, 2, 0, 0] S23x1x32x64
  slices_S23x12x32x64_S23x1x32x64_0_3_0_0 : S23x12x32x64.Slices ![0, 3, 0, 0] S23x1x32x64
  slices_S23x12x32x64_S23x1x32x64_0_4_0_0 : S23x12x32x64.Slices ![0, 4, 0, 0] S23x1x32x64
  slices_S23x12x32x64_S23x1x32x64_0_5_0_0 : S23x12x32x64.Slices ![0, 5, 0, 0] S23x1x32x64
  slices_S23x12x32x64_S23x1x32x64_0_6_0_0 : S23x12x32x64.Slices ![0, 6, 0, 0] S23x1x32x64
  slices_S23x12x32x64_S23x1x32x64_0_7_0_0 : S23x12x32x64.Slices ![0, 7, 0, 0] S23x1x32x64
  slices_S23x12x32x64_S23x1x32x64_0_8_0_0 : S23x12x32x64.Slices ![0, 8, 0, 0] S23x1x32x64
  slices_S23x12x32x64_S23x1x32x64_0_9_0_0 : S23x12x32x64.Slices ![0, 9, 0, 0] S23x1x32x64
  slices_S23x12x32x64_S23x1x32x64_0_10_0_0 : S23x12x32x64.Slices ![0, 10, 0, 0] S23x1x32x64
  slices_S23x12x32x64_S23x1x32x64_0_11_0_0 : S23x12x32x64.Slices ![0, 11, 0, 0] S23x1x32x64
  shapeCasts_S276x64_S23x1x768 : S276x64.ShapeCasts S23x1x768
  shapeCasts_S276x64x1_S276x64 : S276x64x1.ShapeCasts S276x64
  inb_S2048_S2048_0 : ∀ a, (![0] : Fin 1 → Nat) a + S2048.size a ≤ S2048.size a
  h_S2048 : 0 < S2048.numel
  inb_S1x2048x384_S1x2048x384_0_0_0 : ∀ a, (![0, 0, 0] : Fin 3 → Nat) a + S1x2048x384.size a ≤ S1x2048x384.size a
  h_S1x2048x384 : 0 < S1x2048x384.numel
  shapeCasts_S1x2048x384_S2048x384 : S1x2048x384.ShapeCasts S2048x384
  inb_S1x384x768_S1x384x768_0_0_0 : ∀ a, (![0, 0, 0] : Fin 3 → Nat) a + S1x384x768.size a ≤ S1x384x768.size a
  h_S1x384x768 : 0 < S1x384x768.numel
  shapeCasts_S1x384x768_S384x768 : S1x384x768.ShapeCasts S384x768
  inb_S1x1x768_S1x1x768_0_0_0 : ∀ a, (![0, 0, 0] : Fin 3 → Nat) a + S1x1x768.size a ≤ S1x1x768.size a
  h_S1x1x768 : 0 < S1x1x768.numel
  shapeCasts_S1x1x768_S768 : S1x1x768.ShapeCasts S768
  shapeCasts_S768_S1x768 : S768.ShapeCasts S1x768
  broadcasts_S1x768_S2048x768 : S1x768.Broadcasts S2048x768
  reduces_S2048x768_S2048 : S2048x768.Reduces [1] S2048
  shapeCasts_S2048_S2048 : S2048.ShapeCasts S2048
  reducesTo_S276x1_S_d0_1 : S276x1.ReducesTo [0, 1] S_
  bcast_S_S8192 : S_.BroadcastsInDim S8192 (![] : Fin 0 → Fin S8192.rank)
  shapeCasts_S1_S_ : S1.ShapeCasts S_
  gather_S1000000x1_S8192x24x1_S8192x24x1_2_0_n_n_0_2_11_wf : GatherDims.WF S1000000x1 S8192x24x1 S8192x24x1 [2] [0] [] [0] [] 2 ![1, 1]
  gather_S1000000x16_S8192x24x1_S8192x24x16_2_0_n_n_0_2_116_wf : GatherDims.WF S1000000x16 S8192x24x1 S8192x24x16 [2] [0] [] [0] [] 2 ![1, 16]
  gather_S8192x24x16_S276x1_S8192x276x16_02_1_n_n_1_1_8192116_wf : GatherDims.WF S8192x24x16 S276x1 S8192x276x16 [0, 2] [1] [] [1] [] 1 ![8192, 1, 16]
  scatter_S23x384x768_S2_S23x32x64_012_n_12_0_wf : ScatterDims.WF S23x384x768 S2 S23x32x64 [0, 1, 2] [] [1, 2] 0
  dot_S2048x384_S384x768_S2048x768_1_0_0_1_n_n_wf : DotDims.WF S2048x384 S384x768 S2048x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x384.size a ≤ S23x8192x384.size a
  hwx0_0 : ∀ i : grid0.Coords, EltTy.bits .bf16 = 32 ∨ (Rect.block (s := S23x8192x384) S1x2048x384.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x384x768.size a ≤ S23x384x768.size a
  hwx0_1 : ∀ i : grid0.Coords, EltTy.bits .bf16 = 32 ∨ (Rect.block (s := S23x384x768) S1x384x768.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x768.size a ≤ S23x1x768.size a
  hwx0_2 : ∀ i : grid0.Coords, EltTy.bits .f32 = 32 ∨ (Rect.block (s := S23x1x768) S1x1x768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x768.size a ≤ S23x1x768.size a
  hwx0_3 : ∀ i : grid0.Coords, EltTy.bits .f32 = 32 ∨ (Rect.block (s := S23x1x768) S1x1x768.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048.size a ≤ S8192.size a
  hwx0_4 : ∀ i : grid0.Coords, EltTy.bits .f32 = 32 ∨ (Rect.block (s := S8192) S2048.size (cc0_transform_4 i) (hinb0_4 i)).WholeWords (EltTy.packing .f32)

variable [Facts₀]

def gather_S1000000x1_S8192x24x1_S8192x24x1_2_0_n_n_0_2_11 : GatherDims S1000000x1 S8192x24x1 S8192x24x1 where
  offsetDims := [2]
  collapsedSliceDims := [0]
  operandBatchingDims := []
  startIndicesBatchingDims := []
  startIndexMap := [0]
  indexVectorDim := 2
  sliceSizes := ![1, 1]
  wf := gather_S1000000x1_S8192x24x1_S8192x24x1_2_0_n_n_0_2_11_wf
def gather_S1000000x16_S8192x24x1_S8192x24x16_2_0_n_n_0_2_116 : GatherDims S1000000x16 S8192x24x1 S8192x24x16 where
  offsetDims := [2]
  collapsedSliceDims := [0]
  operandBatchingDims := []
  startIndicesBatchingDims := []
  startIndexMap := [0]
  indexVectorDim := 2
  sliceSizes := ![1, 16]
  wf := gather_S1000000x16_S8192x24x1_S8192x24x16_2_0_n_n_0_2_116_wf
def gather_S8192x24x16_S276x1_S8192x276x16_02_1_n_n_1_1_8192116 : GatherDims S8192x24x16 S276x1 S8192x276x16 where
  offsetDims := [0, 2]
  collapsedSliceDims := [1]
  operandBatchingDims := []
  startIndicesBatchingDims := []
  startIndexMap := [1]
  indexVectorDim := 1
  sliceSizes := ![8192, 1, 16]
  wf := gather_S8192x24x16_S276x1_S8192x276x16_02_1_n_n_1_1_8192116_wf
def scatter_S23x384x768_S2_S23x32x64_012_n_12_0 : ScatterDims S23x384x768 S2 S23x32x64 where
  updateWindowDims := [0, 1, 2]
  insertedWindowDims := []
  scatterDimsToOperandDims := [1, 2]
  indexVectorDim := 0
  wf := scatter_S23x384x768_S2_S23x32x64_012_n_12_0_wf
def dot_S2048x384_S384x768_S2048x768_1_0_0_1_n_n : DotDims S2048x384 S384x768 S2048x768 where
  lhsContracting := [1]
  rhsContracting := [0]
  lhsNonContracting := [0]
  rhsNonContracting := [1]
  lhsBatch := []
  rhsBatch := []
  wf := dot_S2048x384_S384x768_S2048x768_1_0_0_1_n_n_wf

abbrev win0_0 : Pipeline.Window sig grid0 :=
  Pipeline.Window.ofSpec (Memref.whole main_v29) S1x2048x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v104) S1x384x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v105) S1x1x768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v107) S1x1x768.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v108) S2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x24 : Shape := ⟨2, ![8192, 24]⟩
abbrev S1000000x1 : Shape := ⟨2, ![1000000, 1]⟩
abbrev S1000000x16 : Shape := ⟨2, ![1000000, 16]⟩
abbrev S1 : Shape := ⟨1, ![1]⟩
abbrev S276x32x64 : Shape := ⟨3, ![276, 32, 64]⟩
abbrev S276x64 : Shape := ⟨2, ![276, 64]⟩
abbrev S276x64x1 : Shape := ⟨3, ![276, 64, 1]⟩
abbrev S276x1 : Shape := ⟨2, ![276, 1]⟩
abbrev S276 : Shape := ⟨1, ![276]⟩
abbrev S_ : Shape := ⟨0, ![]⟩
abbrev S8192x24x1 : Shape := ⟨3, ![8192, 24, 1]⟩
abbrev S8192 : Shape := ⟨1, ![8192]⟩
abbrev S8192x24x16 : Shape := ⟨3, ![8192, 24, 16]⟩
abbrev S8192x276x16 : Shape := ⟨3, ![8192, 276, 16]⟩
abbrev S8192x276x32 : Shape := ⟨3, ![8192, 276, 32]⟩
abbrev S276x8192x32 : Shape := ⟨3, ![276, 8192, 32]⟩
abbrev S276x8192x64 : Shape := ⟨3, ![276, 8192, 64]⟩
abbrev S276x1x64 : Shape := ⟨3, ![276, 1, 64]⟩
abbrev S276x8192x1 : Shape := ⟨3, ![276, 8192, 1]⟩
abbrev S276x1x1 : Shape := ⟨3, ![276, 1, 1]⟩

abbrev nBuf : Space → Nat
  | .hbm => 75
  | .vmem => 0
  | .smem => 0
  | _ => 0

abbrev bufTy : (tb : Table) → Fin (tcTables nBuf tb) → BufTy
  | .hbm, ⟨0, _⟩ => ⟨S8192x24, .i32⟩
  | .hbm, ⟨1, _⟩ => ⟨S1000000x1, .f32⟩
  | .hbm, ⟨2, _⟩ => ⟨S1000000x16, .f32⟩
  | .hbm, ⟨3, _⟩ => ⟨S1, .f32⟩
  | .hbm, ⟨4, _⟩ => ⟨S276x32x64, .f32⟩
  | .hbm, ⟨5, _⟩ => ⟨S276x64, .f32⟩
  | .hbm, ⟨6, _⟩ => ⟨S276x64x1, .f32⟩
  | .hbm, ⟨7, _⟩ => ⟨S276x1, .f32⟩
  | .hbm, ⟨8, _⟩ => ⟨S276, .i32⟩
  | .hbm, ⟨9, _⟩ => ⟨S276, .i32⟩
  | .hbm, ⟨10, _⟩ => ⟨S_, .i32⟩
  | .hbm, ⟨11, _⟩ => ⟨S8192x24, .i32⟩
  | .hbm, ⟨12, _⟩ => ⟨S8192x24, .i1⟩
  | .hbm, ⟨13, _⟩ => ⟨S_, .i32⟩
  | .hbm, ⟨14, _⟩ => ⟨S8192x24, .i32⟩
  | .hbm, ⟨15, _⟩ => ⟨S8192x24, .i32⟩
  | .hbm, ⟨16, _⟩ => ⟨S8192x24, .i32⟩
  | .hbm, ⟨17, _⟩ => ⟨S8192x24x1, .i32⟩
  | .hbm, ⟨18, _⟩ => ⟨S8192x24x1, .f32⟩
  | .hbm, ⟨19, _⟩ => ⟨S_, .f32⟩
  | .hbm, ⟨20, _⟩ => ⟨S8192, .f32⟩
  | .hbm, ⟨21, _⟩ => ⟨S_, .i32⟩
  | .hbm, ⟨22, _⟩ => ⟨S8192x24, .i32⟩
  | .hbm, ⟨23, _⟩ => ⟨S8192x24, .i1⟩
  | .hbm, ⟨24, _⟩ => ⟨S_, .i32⟩
  | .hbm, ⟨25, _⟩ => ⟨S8192x24, .i32⟩
  | .hbm, ⟨26, _⟩ => ⟨S8192x24, .i32⟩
  | .hbm, ⟨27, _⟩ => ⟨S8192x24, .i32⟩
  | .hbm, ⟨28, _⟩ => ⟨S8192x24x1, .i32⟩
  | .hbm, ⟨29, _⟩ => ⟨S8192x24x16, .f32⟩
  | .hbm, ⟨30, _⟩ => ⟨S_, .i32⟩
  | .hbm, ⟨31, _⟩ => ⟨S276, .i32⟩
  | .hbm, ⟨32, _⟩ => ⟨S276, .i1⟩
  | .hbm, ⟨33, _⟩ => ⟨S_, .i32⟩
  | .hbm, ⟨34, _⟩ => ⟨S276, .i32⟩
  | .hbm, ⟨35, _⟩ => ⟨S276, .i32⟩
  | .hbm, ⟨36, _⟩ => ⟨S276, .i32⟩
  | .hbm, ⟨37, _⟩ => ⟨S276x1, .i32⟩
  | .hbm, ⟨38, _⟩ => ⟨S8192x276x16, .f32⟩
  | .hbm, ⟨39, _⟩ => ⟨S_, .i32⟩
  | .hbm, ⟨40, _⟩ => ⟨S276, .i32⟩
  | .hbm, ⟨41, _⟩ => ⟨S276, .i1⟩
  | .hbm, ⟨42, _⟩ => ⟨S_, .i32⟩
  | .hbm, ⟨43, _⟩ => ⟨S276, .i32⟩
  | .hbm, ⟨44, _⟩ => ⟨S276, .i32⟩
  | .hbm, ⟨45, _⟩ => ⟨S276, .i32⟩
  | .hbm, ⟨46, _⟩ => ⟨S276x1, .i32⟩
  | .hbm, ⟨47, _⟩ => ⟨S8192x276x16, .f32⟩
  | .hbm, ⟨48, _⟩ => ⟨S8192x276x32, .f32⟩
  | .hbm, ⟨49, _⟩ => ⟨S276x8192x32, .f32⟩
  | .hbm, ⟨50, _⟩ => ⟨S276x8192x64, .f32⟩
  | .hbm, ⟨51, _⟩ => ⟨S276x1x64, .f32⟩
  | .hbm, ⟨52, _⟩ => ⟨S276x8192x64, .f32⟩
  | .hbm, ⟨53, _⟩ => ⟨S276x8192x64, .f32⟩
  | .hbm, ⟨54, _⟩ => ⟨S_, .f32⟩
  | .hbm, ⟨55, _⟩ => ⟨S276x8192x64, .f32⟩
  | .hbm, ⟨56, _⟩ => ⟨S276x8192x64, .f32⟩
  | .hbm, ⟨57, _⟩ => ⟨S276x8192x1, .f32⟩
  | .hbm, ⟨58, _⟩ => ⟨S276x1x1, .f32⟩
  | .hbm, ⟨59, _⟩ => ⟨S276x8192x1, .f32⟩
  | .hbm, ⟨60, _⟩ => ⟨S276x8192x1, .f32⟩
  | .hbm, ⟨61, _⟩ => ⟨S_, .f32⟩
  | .hbm, ⟨62, _⟩ => ⟨S8192, .f32⟩
  | .hbm, ⟨63, _⟩ => ⟨S8192, .f32⟩
  | .hbm, ⟨64, _⟩ => ⟨S_, .f32⟩
  | .hbm, ⟨65, _⟩ => ⟨S8192, .f32⟩
  | .hbm, ⟨66, _⟩ => ⟨S8192, .f32⟩
  | .hbm, ⟨67, _⟩ => ⟨S8192, .f32⟩
  | .hbm, ⟨68, _⟩ => ⟨S8192, .f32⟩
  | .hbm, ⟨69, _⟩ => ⟨S_, .f32⟩
  | .hbm, ⟨70, _⟩ => ⟨S8192, .f32⟩
  | .hbm, ⟨71, _⟩ => ⟨S8192, .f32⟩
  | .hbm, ⟨72, _⟩ => ⟨S_, .f32⟩
  | .hbm, ⟨73, _⟩ => ⟨S8192, .f32⟩
  | .hbm, ⟨74, _⟩ => ⟨S8192, .f32⟩
  | _, _ => ⟨S8192x24, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_c_0 : Ref sig .tc := ⟨.hbm, 9, rfl⟩
abbrev main_c_1 : Ref sig .tc := ⟨.hbm, 10, rfl⟩
abbrev main_v0 : Ref sig .tc := ⟨.hbm, 11, rfl⟩
abbrev main_v1 : Ref sig .tc := ⟨.hbm, 12, rfl⟩
abbrev main_c_2 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_c_3 : Ref sig .tc := ⟨.hbm, 21, rfl⟩
abbrev main_v8 : Ref sig .tc := ⟨.hbm, 22, rfl⟩
abbrev main_v9 : Ref sig .tc := ⟨.hbm, 23, rfl⟩
abbrev main_c_4 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c_5 : Ref sig .tc := ⟨.hbm, 30, rfl⟩
abbrev main_v15 : Ref sig .tc := ⟨.hbm, 31, rfl⟩
abbrev main_v16 : Ref sig .tc := ⟨.hbm, 32, rfl⟩
abbrev main_c_6 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_7 : Ref sig .tc := ⟨.hbm, 39, rfl⟩
abbrev main_v22 : Ref sig .tc := ⟨.hbm, 40, rfl⟩
abbrev main_v23 : Ref sig .tc := ⟨.hbm, 41, rfl⟩
abbrev main_c_8 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_call0_cst : Ref sig .tc := ⟨.hbm, 54, rfl⟩
abbrev main_call0_v0 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_9 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_10 : Ref sig .tc := ⟨.hbm, 69, rfl⟩
abbrev main_v47 : Ref sig .tc := ⟨.hbm, 70, rfl⟩
abbrev main_v48 : Ref sig .tc := ⟨.hbm, 71, rfl⟩
abbrev main_cst_11 : Ref sig .tc := ⟨.hbm, 72, rfl⟩
abbrev main_v49 : Ref sig .tc := ⟨.hbm, 73, rfl⟩
abbrev main_v50 : Ref sig .tc := ⟨.hbm, 74, rfl⟩

abbrev nD : Nat := 1
abbrev τ : Topo := Topo.v7x

variable {F : FTy → Type} [FloatOps F]

class Facts₀ : Prop where
  bcast_S_S8192x24 : S_.BroadcastsInDim S8192x24 (![] : Fin 0 → Fin S8192x24.rank)
  bcast_S8192x24_S8192x24x1_0_1 : S8192x24.BroadcastsInDim S8192x24x1 (![0, 1] : Fin 2 → Fin S8192x24x1.rank)
  reducesTo_S8192x24x1_S8192_d1_2 : S8192x24x1.ReducesTo [1, 2] S8192
  h_S_ : 0 < S_.numel
  bcast_S_S276 : S_.BroadcastsInDim S276 (![] : Fin 0 → Fin S276.rank)
  bcast_S276_S276x1_0 : S276.BroadcastsInDim S276x1 (![0] : Fin 1 → Fin S276x1.rank)
  concatenates_S8192x276x16_S8192x276x16_S8192x276x32_d2 : Shape.Concatenates [S8192x276x16, S8192x276x16] S8192x276x32 2
  transposes_S8192x276x32_S276x8192x32_1_0_2 : S8192x276x32.Transposes [1, 0, 2] S276x8192x32
  bcast_S276x64_S276x1x64_0_2 : S276x64.BroadcastsInDim S276x1x64 (![0, 2] : Fin 2 → Fin S276x1x64.rank)
  bcast_S276x1x64_S276x8192x64_0_1_2 : S276x1x64.BroadcastsInDim S276x8192x64 (![0, 1, 2] : Fin 3 → Fin S276x8192x64.rank)
  bcast_S_S276x8192x64 : S_.BroadcastsInDim S276x8192x64 (![] : Fin 0 → Fin S276x8192x64.rank)
  bcast_S276x1_S276x1x1_0_2 : S276x1.BroadcastsInDim S276x1x1 (![0, 2] : Fin 2 → Fin S276x1x1.rank)
  bcast_S276x1x1_S276x8192x1_0_1_2 : S276x1x1.BroadcastsInDim S276x8192x1 (![0, 1, 2] : Fin 3 → Fin S276x8192x1.rank)
  reducesTo_S276x8192x1_S8192_d0_2 : S276x8192x1.ReducesTo [0, 2] S8192
  shapeCasts_S1_S_ : S1.ShapeCasts S_
  bcast_S_S8192 : S_.BroadcastsInDim S8192 (![] : Fin 0 → Fin S8192.rank)
  gather_S1000000x1_S8192x24x1_S8192x24x1_2_0_n_n_0_2_11_wf : GatherDims.WF S1000000x1 S8192x24x1 S8192x24x1 [2] [0] [] [0] [] 2 ![1, 1]
  gather_S1000000x16_S8192x24x1_S8192x24x16_2_0_n_n_0_2_116_wf : GatherDims.WF S1000000x16 S8192x24x1 S8192x24x16 [2] [0] [] [0] [] 2 ![1, 16]
  gather_S8192x24x16_S276x1_S8192x276x16_02_1_n_n_1_1_8192116_wf : GatherDims.WF S8192x24x16 S276x1 S8192x276x16 [0, 2] [1] [] [1] [] 1 ![8192, 1, 16]
  dot_S276x8192x32_S276x32x64_S276x8192x64_2_1_1_2_0_0_wf : DotDims.WF S276x8192x32 S276x32x64 S276x8192x64 [2] [1] [1] [2] [0] [0]
  dot_S276x8192x64_S276x64x1_S276x8192x1_2_1_1_2_0_0_wf : DotDims.WF S276x8192x64 S276x64x1 S276x8192x1 [2] [1] [1] [2] [0] [0]

variable [Facts₀]

def gather_S1000000x1_S8192x24x1_S8192x24x1_2_0_n_n_0_2_11 : GatherDims S1000000x1 S8192x24x1 S8192x24x1 where
  offsetDims := [2]
  collapsedSliceDims := [0]
  operandBatchingDims := []
  startIndicesBatchingDims := []
  startIndexMap := [0]
  indexVectorDim := 2
  sliceSizes := ![1, 1]
  wf := gather_S1000000x1_S8192x24x1_S8192x24x1_2_0_n_n_0_2_11_wf
def gather_S1000000x16_S8192x24x1_S8192x24x16_2_0_n_n_0_2_116 : GatherDims S1000000x16 S8192x24x1 S8192x24x16 where
  offsetDims := [2]
  collapsedSliceDims := [0]
  operandBatchingDims := []
  startIndicesBatchingDims := []
  startIndexMap := [0]
  indexVectorDim := 2
  sliceSizes := ![1, 16]
  wf := gather_S1000000x16_S8192x24x1_S8192x24x16_2_0_n_n_0_2_116_wf
def gather_S8192x24x16_S276x1_S8192x276x16_02_1_n_n_1_1_8192116 : GatherDims S8192x24x16 S276x1 S8192x276x16 where
  offsetDims := [0, 2]
  collapsedSliceDims := [1]
  operandBatchingDims := []
  startIndicesBatchingDims := []
  startIndexMap := [1]
  indexVectorDim := 1
  sliceSizes := ![8192, 1, 16]
  wf := gather_S8192x24x16_S276x1_S8192x276x16_02_1_n_n_1_1_8192116_wf
def dot_S276x8192x32_S276x32x64_S276x8192x64_2_1_1_2_0_0 : DotDims S276x8192x32 S276x32x64 S276x8192x64 where
  lhsContracting := [2]
  rhsContracting := [1]
  lhsNonContracting := [1]
  rhsNonContracting := [2]
  lhsBatch := [0]
  rhsBatch := [0]
  wf := dot_S276x8192x32_S276x32x64_S276x8192x64_2_1_1_2_0_0_wf
def dot_S276x8192x64_S276x64x1_S276x8192x1_2_1_1_2_0_0 : DotDims S276x8192x64 S276x64x1 S276x8192x1 where
  lhsContracting := [2]
  rhsContracting := [1]
  lhsNonContracting := [1]
  rhsNonContracting := [2]
  lhsBatch := [0]
  rhsBatch := [0]
  wf := dot_S276x8192x64_S276x64x1_S276x8192x1_2_1_1_2_0_0_wf

class Facts : Prop extends Facts₀ where

variable [Facts]
-- ==== Proof.LibPlainDot.lean ====
/-
  A plain matrix product read entry by entry, at the extended reals.

  Both the tiled unit's `tpu.matmul` into a zero accumulator and the host's `dot_general` are, at the ideal
  values, the sum over the dot's contraction index of the operands' products. The contraction index is a
  one-axis multi-index whose shape is computed from the dimension numbers; for the plain product of an
  `M × K` matrix with a `K × N` one (contract the left operand's columns against the right operand's
  rows, no batch axis) that index is just a number below `K`, and entry `(p, q)` of the product is
  `∑ k < K, l (p, k) · r (k, q)` — for every `M`, `K`, `N`, so a block of rows and the whole array are
  read by one and the same lemma.
-/
import Idealize.ShloMosaic.PureOps.Ideal.Laws
import Idealize.ShloMosaic.Lib.ValueIdx

noncomputable section

namespace Cert.PlainDot

open Idealize.ShloMosaic Idealize.ShloMosaic.ValueIdx

/-- The dimension numbers of a plain product: the left operand's axis 1 contracted against the right
    operand's axis 0, rows from the left, columns from the right, no batch axis. -/
structure IsPlain {M K N : Nat} (d : DotDims ⟨2, ![M, K]⟩ ⟨2, ![K, N]⟩ ⟨2, ![M, N]⟩) : Prop where
  lhsContracting : d.lhsContracting = [1]
  rhsContracting : d.rhsContracting = [0]
  lhsNonContracting : d.lhsNonContracting = [0]
  rhsNonContracting : d.rhsNonContracting = [1]
  lhsBatch : d.lhsBatch = []
  rhsBatch : d.rhsBatch = []

variable {M K N : Nat}

/-- The sum over the contraction multi-index of a plain product, at entry `(p, q)`, is the sum over
    `k < K` of `l (p, k) · r (k, q)`: the one-axis contraction index is re-indexed by its coordinate, and
    the operand indices the dimension numbers compute are `(p, k)` and `(k, q)`. -/
theorem sum_contr (d : DotDims ⟨2, ![M, K]⟩ ⟨2, ![K, N]⟩ ⟨2, ![M, N]⟩) (h : IsPlain d)
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  obtain ⟨h1, h2, h3, h4, h5, h6⟩ := h
  simp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have hlc : d.lhsContracting = [1] := by subst hd; rfl
  have hrc : d.rhsContracting = [0] := by subst hd; rfl
  have hrank : d.contr.rank = 1 := by subst hd; rfl
  have hsize : d.contr.size ⟨0, by omega⟩ = K := by subst hd; rfl
  rw [← Equiv.sum_comp (contrEquiv1 d K hrank hsize).symm]
  refine Finset.sum_congr rfl fun k _ => ?_
  have hk := contrEquiv1_symm_val d K hrank hsize k
  have el : d.lhsIdx (ix2 p q) ((contrEquiv1 d K hrank hsize).symm k) = ix2 p k := funext fun a => Fin.ext (by
    match a with
    | ⟨0, _⟩ =>
      subst hd
      unfold DotDims.lhsIdx
      split
      · rename_i hb; exact absurd hb List.not_mem_nil
      · split
        · rfl
        · rename_i hn; exact absurd (List.mem_singleton.mpr (Fin.ext rfl)) hn
    | ⟨1, _⟩ => exact (d.lhsIdx_val_of_single hlc _ _).trans hk)
  have er : d.rhsIdx (ix2 p q) ((contrEquiv1 d K hrank hsize).symm k) = ix2 k q := funext fun a => Fin.ext (by
    match a with
    | ⟨0, _⟩ => exact (d.rhsIdx_val_of_single hrc _ _).trans hk
    | ⟨1, _⟩ =>
      subst hd
      unfold DotDims.rhsIdx
      split
      · rename_i hb; exact absurd hb List.not_mem_nil
      · split
        · rfl
        · rename_i hn; exact absurd (List.mem_singleton.mpr (Fin.ext rfl)) hn)
  rw [el, er]

/-- A `tpu.matmul` of a plain product into the zero accumulator, read at entry `(p, q)`. -/
theorem matmul_zero_apply (d : DotDims ⟨2, ![M, K]⟩ ⟨2, ![K, N]⟩ ⟨2, ![M, N]⟩) (h : IsPlain d) (prec : Option ContractPrecision)
    (l : FVec Ideal ⟨2, ![M, K]⟩ .f32) (r : FVec Ideal ⟨2, ![K, N]⟩ .f32) (p : Fin M) (q : Fin N) :
    matmul d prec l r (constant ⟨2, ![M, N]⟩ .f32 0x00000000#32) (ix2 p q) = ∑ k : Fin K, l (ix2 p k) * r (ix2 k q) :=
  (Ideal.matmul_constant_zero_apply d prec l r (ix2 p q)).trans (sum_contr d h l r p q)

/-- The host's `dot_general` of a plain product, read at entry `(p, q)`: the same sum. -/
theorem dotGeneral_apply (d : DotDims ⟨2, ![M, K]⟩ ⟨2, ![K, N]⟩ ⟨2, ![M, N]⟩) (h : IsPlain d) (prec : Option ContractPrecision)
    (l : FVec Ideal ⟨2, ![M, K]⟩ .f32) (r : FVec Ideal ⟨2, ![K, N]⟩ .f32) (p : Fin M) (q : Fin N) :
    Host.dotGeneral d prec l r (ix2 p q) = ∑ k : Fin K, l (ix2 p k) * r (ix2 k q) :=
  (Ideal.dotGeneral_apply d prec .single l r (ix2 p q)).trans (sum_contr d h l r p q)

end Cert.PlainDot

end
-- ==== Proof.KernelBody.lean ====
/-
  What one grid step of the kernel leaves in its output block.

  The kernel's grid is 4 batch tiles × 23 pair groups, the group axis innermost. At a step the body reads a
  [1, 2048, 384] block of grouped pair rows, a [1, 384, 768] block-diagonal weight block, a [1, 1, 768] bias row and a
  [1, 1, 768] output-weight row, and updates a 2048-long block of partial logits that stays in place over the 23
  steps of a batch tile: at the first group it stores zeros and then adds, at the others it adds onto what the
  step before left. What it adds to row `y` is

      ∑ n < 768, relu (∑ k < 384, x[0, y, k] · w[0, k, n] + b1[0, 0, n]) · w2[0, 0, n]   (`contrib`).

  First the two control cases' stored values are read back as the body's arithmetic applied to the loaded blocks
  (`out_A`, `out_B`, at any float instance); then that arithmetic is read at a row on the extended reals (`pay_apply`).
-/
import proofs.«167772_j31679678775363_2_alg».proof.Proof.Gen.KernelIdeal.Frame
import proofs.«167772_j31679678775363_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.ShloMosaic.ValueIdx Idealize.SL.Sem

namespace Cert.KernelIdeal.BodyValue

open Cert.KernelIdeal Cert.KernelIdeal.Gen

section AnyFloat

variable {F : FTy → Type} [FloatOps F]

/-- The zero offsets of a whole-buffer access, rank 1 and rank 3. -/
theorem hz1 : (![0] : Fin 1 → Nat) = fun _ => 0 := funext fun a => by fin_cases a; rfl
theorem hz3 : (![0, 0, 0] : Fin 3 → Nat) = fun _ => 0 := funext fun a => by fin_cases a <;> rfl

/-- A later group's step: the output block holding `xo`, the body leaves the body's arithmetic of the four loaded
    blocks and `xo` — its one store covers the block, and its loads read the whole staging buffers. -/
theorem out_B (c : Dev nD) (i : grid0.Coords) (a2 : Memref sig .tc .vmem S1x2048x384 .bf16) (h2 : a2.IsWhole)
    (a3 : Memref sig .tc .vmem S1x384x768 .bf16) (h3 : a3.IsWhole) (a4 : Memref sig .tc .vmem S1x1x768 .f32) (h4 : a4.IsWhole)
    (a5 : Memref sig .tc .vmem S1x1x768 .f32) (h5 : a5.IsWhole) (a6 : Memref sig .tc .vmem S2048 .f32) (h6 : a6.IsWhole)
    (hc : ¬cond0_0 i) (x0 : Vec F S1x2048x384 .bf16) (x1 : Vec F S1x384x768 .bf16) (x2 : Vec F S1x1x768 .f32)
    (x3 : Vec F S1x1x768 .f32) (xo : Vec F S2048 .f32) :
    out0_B_4 c i a2 h2 a3 h3 a4 h4 a5 h5 a6 h6 hc x0 x1 x2 x3 xo = k0_pay2 x0 x1 x2 x3 xo := by
  unfold out0_B_4
  rw [View.read_writes_eq_canon _ _ _ (cover0_B_4 c i a2 h2 a3 h3 a4 h4 a5 h5 a6 h6 hc x0 x1 x2 x3 xo)]
  unfold kernelRun0_B
  dsimp only
  rw [View.canon_unit_zero hz1]
  simp only [View.readAt_eq_ld, h2.read_unread, h3.read_unread, h4.read_unread, h5.read_unread, h6.read_unread,
    View.ld_unit_zero (S := S1x2048x384) hz3, View.ld_unit_zero (S := S1x384x768) hz3,
    View.ld_unit_zero (S := S1x1x768) hz3, View.ld_unit_zero (S := S2048) hz1]

/-- The first group's step: the body stores the zero block, reads it back, and leaves the body's arithmetic of the
    four loaded blocks and the zero block. -/
theorem out_A (c : Dev nD) (i : grid0.Coords) (a2 : Memref sig .tc .vmem S1x2048x384 .bf16) (h2 : a2.IsWhole)
    (a3 : Memref sig .tc .vmem S1x384x768 .bf16) (h3 : a3.IsWhole) (a4 : Memref sig .tc .vmem S1x1x768 .f32) (h4 : a4.IsWhole)
    (a5 : Memref sig .tc .vmem S1x1x768 .f32) (h5 : a5.IsWhole) (a6 : Memref sig .tc .vmem S2048 .f32) (h6 : a6.IsWhole)
    (hc : cond0_0 i) (x0 : Vec F S1x2048x384 .bf16) (x1 : Vec F S1x384x768 .bf16) (x2 : Vec F S1x1x768 .f32)
    (x3 : Vec F S1x1x768 .f32) :
    out0_A_4 c i a2 h2 a3 h3 a4 h4 a5 h5 a6 h6 hc x0 x1 x2 x3 = k0_pay2 x0 x1 x2 x3 (k0_pay1 (F := F)) := by
  unfold out0_A_4
  rw [View.read_writes_eq_canon _ _ _ (cover0_A_4 c i a2 h2 a3 h3 a4 h4 a5 h5 a6 h6 hc x0 x1 x2 x3)]
  unfold kernelRun0_A
  dsimp only
  sl_unfold_words
  rw [View.canon_cons_unit_zero (S := S2048) hz1, View.readCov_unit_zero (S := S2048) _ hz1]
  simp only [View.readAt_eq_ld, h2.read_unread, h3.read_unread, h4.read_unread, h5.read_unread,
    View.ld_unit_zero (S := S1x2048x384) hz3, View.ld_unit_zero (S := S1x384x768) hz3,
    View.ld_unit_zero (S := S1x1x768) hz3, View.ld_unit_zero (S := S2048) hz1]

end AnyFloat

/-! ## The body's arithmetic on the extended reals, row by row -/

/-- What one step adds to row `y` of its block. -/
def contrib (x0 : S1x2048x384.Idx → EReal) (x1 : S1x384x768.Idx → EReal) (x2 x3 : S1x1x768.Idx → EReal) (y : Fin 2048) : EReal :=
  ∑ n : Fin 768, max ((∑ k : Fin 384, x0 (ix3 (0 : Fin 1) y k) * x1 (ix3 (0 : Fin 1) k n)) + x2 (ix3 (0 : Fin 1) (0 : Fin 1) n)) 0
    * x3 (ix3 (0 : Fin 1) (0 : Fin 1) n)

/-- The kernel's product is a plain rows-times-columns product: the left operand's columns against the right operand's rows. -/
theorem plain : Cert.PlainDot.IsPlain dot_S2048x384_S384x768_S2048x768_1_0_0_1_n_n := ⟨rfl, rfl, rfl, rfl, rfl, rfl⟩

/-- A [1, 1, 768] row re-laid as a [768] vector. -/
theorem row_cast (x : S1x1x768.Idx → EReal) (n : Fin 768) :
    shapeCast S768 x shapeCasts_S1x1x768_S768 (ix1 n) = x (ix3 (0 : Fin 1) (0 : Fin 1) n) :=
  shapeCast_apply x _ _ _ (by
    rw [Shape.rowMajor_val_three, Shape.rowMajor_val_one]
    show (0 * 1 + 0) * 768 + n.val = n.val
    omega)

/-- The one-row operand spread over the 2048 rows, read at `(y, n)`. -/
theorem row_spread (x : S1x1x768.Idx → EReal) (y : Fin 2048) (n : Fin 768) :
    broadcastTo S2048x768 (shapeCast S1x768 (shapeCast S768 x shapeCasts_S1x1x768_S768) shapeCasts_S768_S1x768)
      broadcasts_S1x768_S2048x768 (ix2 y n) = x (ix3 (0 : Fin 1) (0 : Fin 1) n) :=
  (broadcastTo_1b_ab_apply _ _ y n).trans ((shapeCast_a_1a_apply _ _ (0 : Fin 1) n).trans (row_cast x n))

/-- Entry `(y, n)` of the hidden layer before the bias: the row of inputs against column `n` of the weights. -/
theorem hidden_apply (x0 : S1x2048x384.Idx → EReal) (x1 : S1x384x768.Idx → EReal) (y : Fin 2048) (n : Fin 768) :
    matmul (F := Ideal) dot_S2048x384_S384x768_S2048x768_1_0_0_1_n_n none
        (shapeCast S2048x384 x0 shapeCasts_S1x2048x384_S2048x384 : FVec Ideal S2048x384 .bf16)
        (shapeCast S384x768 x1 shapeCasts_S1x384x768_S384x768 : FVec Ideal S384x768 .bf16)
        (constant S2048x768 .f32 0x00000000#32) (ix2 y n)
      = ∑ k : Fin 384, x0 (ix3 (0 : Fin 1) y k) * x1 (ix3 (0 : Fin 1) k n) := by
  refine (Ideal.matmul_constant_zero_apply _ none _ _ (ix2 y n)).trans ?_
  refine (Cert.PlainDot.sum_contr _ plain _ _ y n).trans ?_
  exact Finset.sum_congr rfl fun k _ =>
    congrArg₂ (· * ·) (shapeCast_1ab_ab_apply x0 _ y k) (shapeCast_1ab_ab_apply x1 _ k n)

/-- The body's arithmetic read at row `y`: what the block held there, plus the step's contribution. -/
theorem pay_apply (x0 : Vec Ideal S1x2048x384 .bf16) (x1 : Vec Ideal S1x384x768 .bf16) (x2 x3 : Vec Ideal S1x1x768 .f32)
    (xo : Vec Ideal S2048 .f32) (y : Fin 2048) :
    k0_pay2 (F := Ideal) x0 x1 x2 x3 xo (ix1 y) = xo (ix1 y) + contrib x0 x1 x2 x3 y := by
  unfold k0_pay2
  dsimp only
  refine (addf_apply _ _ _).trans ?_
  refine congrArg₂ (· + ·) (congrFun (shapeCast_self xo _) _) ?_
  refine (Ideal.multiReduction_add_single _ 0x00000000#32 reduces_S2048x768_S2048 (.inl rfl) rfl (ix1 y)).trans ?_
  unfold contrib
  refine Finset.sum_congr rfl fun n _ => ?_
  have e : reduces_S2048x768_S2048.lift (ix1 y) n = ix2 y n :=
    funext fun a => Fin.ext (by match a with | ⟨0, _⟩ => rfl | ⟨1, _⟩ => rfl)
  refine (congrArg _ e).trans ?_
  refine (mulf_apply _ _ _).trans ?_
  refine congrArg₂ (· * ·) ?_ (row_spread x3 y n)
  refine (maximumf_apply _ _ _).trans ?_
  refine congrArg₂ max ?_ ?_
  · refine (addf_apply _ _ _).trans ?_
    exact congrArg₂ (· + ·) (hidden_apply x0 x1 y n) (row_spread x2 y n)
  · exact Ideal.ofBits_zero_f32

end Cert.KernelIdeal.BodyValue

end
-- ==== Proof.Idx.lean ====
/-
  Positions inside the grouped axes.

  The 276 field pairs are taken in 23 groups of 12; inside a group the 12 pairs' 32 input coordinates lie
  side by side on one axis of length 384 and their 64 hidden units on one axis of length 768. Pair `gi` of group `g`
  is pair `12 g + gi` of the whole list; its input coordinate `k` sits at `32 gi + k`, its hidden unit `h` at
  `64 gi + h`. Every position of a grouped axis is of this form exactly once.
-/
import Mathlib.Algebra.BigOperators.Fin
import Mathlib.Logic.Equiv.Fin.Basic
import Mathlib.Tactic

namespace Cert.Mlp

/-- Input coordinate `k` of pair `gi` of a group, on the group's axis of length 384. -/
def j384 (gi : Fin 12) (k : Fin 32) : Fin 384 := ⟨32 * gi.val + k.val, by have := gi.isLt; have := k.isLt; omega⟩
/-- Hidden unit `h` of pair `gi` of a group, on the group's axis of length 768. -/
def j768 (gi : Fin 12) (h : Fin 64) : Fin 768 := ⟨64 * gi.val + h.val, by have := gi.isLt; have := h.isLt; omega⟩
/-- Pair `gi` of group `g`, in the list of all 276 pairs. -/
def j276 (g : Fin 23) (gi : Fin 12) : Fin 276 := ⟨12 * g.val + gi.val, by have := g.isLt; have := gi.isLt; omega⟩

@[simp] theorem j384_val (gi : Fin 12) (k : Fin 32) : (j384 gi k).val = 32 * gi.val + k.val := rfl
@[simp] theorem j768_val (gi : Fin 12) (h : Fin 64) : (j768 gi h).val = 64 * gi.val + h.val := rfl
@[simp] theorem j276_val (g : Fin 23) (gi : Fin 12) : (j276 g gi).val = 12 * g.val + gi.val := rfl

/-- A sum over `a * b` consecutive positions is the sum over the `a` blocks of each block's `b` positions. -/
theorem sum_blocks {M : Type*} [AddCommMonoid M] {a b : ℕ} (f : Fin (a * b) → M) :
    ∑ t, f t = ∑ x : Fin a, ∑ y : Fin b, f (finProdFinEquiv (x, y)) :=
  ((Equiv.sum_comp finProdFinEquiv f).symm).trans (Fintype.sum_prod_type _)

/-- A sum over the 384 grouped input coordinates is the sum over the pairs of the sum over each pair's 32. -/
theorem sum_j384 {M : Type*} [AddCommMonoid M] (f : Fin 384 → M) : ∑ t, f t = ∑ gi : Fin 12, ∑ k : Fin 32, f (j384 gi k) := by
  refine (sum_blocks (a := 12) (b := 32) f).trans ?_
  refine Finset.sum_congr rfl fun gi _ => Finset.sum_congr rfl fun k _ => congrArg f (Fin.ext ?_)
  show k.val + 32 * gi.val = 32 * gi.val + k.val
  omega

/-- A sum over the 768 grouped hidden units is the sum over the pairs of the sum over each pair's 64. -/
theorem sum_j768 {M : Type*} [AddCommMonoid M] (f : Fin 768 → M) : ∑ t, f t = ∑ gi : Fin 12, ∑ h : Fin 64, f (j768 gi h) := by
  refine (sum_blocks (a := 12) (b := 64) f).trans ?_
  refine Finset.sum_congr rfl fun gi _ => Finset.sum_congr rfl fun h _ => congrArg f (Fin.ext ?_)
  show h.val + 64 * gi.val = 64 * gi.val + h.val
  omega

/-- A sum over all 276 pairs is the sum over the groups of the sum over each group's 12. -/
theorem sum_j276 {M : Type*} [AddCommMonoid M] (f : Fin 276 → M) : ∑ t, f t = ∑ g : Fin 23, ∑ gi : Fin 12, f (j276 g gi) := by
  refine (sum_blocks (a := 23) (b := 12) f).trans ?_
  refine Finset.sum_congr rfl fun g _ => Finset.sum_congr rfl fun gi _ => congrArg f (Fin.ext ?_)
  show gi.val + 12 * g.val = 12 * g.val + gi.val
  omega

/-- Two positions of the 384-axis coincide only when both the pair and the coordinate do. -/
theorem j384_inj {gi gj : Fin 12} {k l : Fin 32} (h : j384 gi k = j384 gj l) : gi = gj ∧ k = l := by
  have := congrArg Fin.val h
  simp only [j384_val] at this
  have := gi.isLt; have := gj.isLt; have := k.isLt; have := l.isLt
  exact ⟨Fin.ext (by omega), Fin.ext (by omega)⟩

end Cert.Mlp
-- ==== Proof.Regroup.lean ====
/-
  Regrouping the pair sums.

  The 276 field pairs are handled in 23 groups of 12. Inside a group the 12 pairs' input rows (32 numbers each) lie
  side by side as one row of 384 numbers, and the 12 pairs' 32 × 64 weight matrices are the diagonal blocks of one
  384 × 768 matrix whose other entries are zero. Column `64 gi + h` of that matrix meets only the rows
  `32 gi + k` of the same pair with non-zero entries, so the row-times-matrix product at that column is just pair
  `gi`'s own product at hidden unit `h`: the off-diagonal terms are `x * 0 = 0` (true on the extended reals for
  every `x`, infinite or not). Adding the bias, taking the positive part, multiplying by the second weight and
  summing the 768 columns of each of the 23 groups is therefore the same as summing, over all 276 pairs, each pair's
  64 hidden units.

  The file also records that adding 23 numbers one after the other onto zero gives their sum.
-/
import proofs.«167772_j31679678775363_2_alg».proof.Proof.Idx
import Mathlib.Data.EReal.Operations

namespace Cert.Mlp

/-- One column of a block-diagonal product. Let `x` be a row of 384 numbers and `w` a column of 384 numbers. If on
block `gi` the row is `p` and the column is `w1`, and the column is zero on every other block, then
`∑ t < 384, x t * w t = ∑ k < 32, p k * w1 k`: the sum over 384 splits into 12 blocks of 32, the blocks other than
`gi` are sums of `x * 0 = 0`, and block `gi` is the sum on the right term by term. -/
theorem blockdiag_col (x w : Fin 384 → EReal) (gi : Fin 12) (p w1 : Fin 32 → EReal)
    (hx : ∀ k, x (j384 gi k) = p k)
    (hd : ∀ k, w (j384 gi k) = w1 k)
    (ho : ∀ gj k, gj ≠ gi → w (j384 gj k) = 0) :
    ∑ t : Fin 384, x t * w t = ∑ k : Fin 32, p k * w1 k := by
  -- split the 384 positions into the 12 blocks
  refine (sum_j384 fun t => x t * w t).trans ?_
  -- only block `gi` contributes
  refine (Finset.sum_eq_single gi ?_ ?_).trans ?_
  · intro gj _ hne
    refine Finset.sum_eq_zero fun k _ => ?_
    show x (j384 gj k) * w (j384 gj k) = 0
    rw [ho gj k hne, mul_zero]
  · intro hnot
    exact absurd (Finset.mem_univ gi) hnot
  · refine Finset.sum_congr rfl fun k _ => ?_
    show x (j384 gi k) * w (j384 gi k) = p k * w1 k
    rw [hx k, hd k]

/-- The grouped double sum is the sum over all pairs. `X g` is group `g`'s row of 384 inputs (pair `12 g + gi`'s
32 inputs at positions `32 gi + k`), `Wbd g` its 384 × 768 matrix with pair `12 g + gi`'s 32 × 64 matrix as
diagonal block `gi` and zeros off the diagonal blocks, `b1r g` and `w2r g` the 12 pairs' bias rows and second
weight rows laid side by side. Then
`∑ g < 23, ∑ n < 768, max (∑ k < 384, X g k * Wbd g k n + b1r g n) 0 * w2r g n`
equals `∑ p < 276, ∑ h < 64, max (∑ k < 32, P p k * W1 p k h + B1 p h) 0 * W2 p h`. -/
theorem grouped_eq_pairs
    (P : Fin 276 → Fin 32 → EReal) (W1 : Fin 276 → Fin 32 → Fin 64 → EReal) (B1 : Fin 276 → Fin 64 → EReal) (W2 : Fin 276 → Fin 64 → EReal)
    (X : Fin 23 → Fin 384 → EReal) (Wbd : Fin 23 → Fin 384 → Fin 768 → EReal) (b1r w2r : Fin 23 → Fin 768 → EReal)
    (hX : ∀ g gi k, X g (j384 gi k) = P (j276 g gi) k)
    (hWd : ∀ g gi k h, Wbd g (j384 gi k) (j768 gi h) = W1 (j276 g gi) k h)
    (hWo : ∀ g gi gj k h, gi ≠ gj → Wbd g (j384 gi k) (j768 gj h) = 0)
    (hb : ∀ g gi h, b1r g (j768 gi h) = B1 (j276 g gi) h)
    (hw : ∀ g gi h, w2r g (j768 gi h) = W2 (j276 g gi) h) :
    ∑ g : Fin 23, ∑ n : Fin 768, max (∑ k : Fin 384, X g k * Wbd g k n + b1r g n) 0 * w2r g n
      = ∑ p : Fin 276, ∑ h : Fin 64, max (∑ k : Fin 32, P p k * W1 p k h + B1 p h) 0 * W2 p h := by
  -- the 276 pairs on the right, group by group
  refine Eq.trans ?_ (sum_j276 fun p => ∑ h : Fin 64, max (∑ k : Fin 32, P p k * W1 p k h + B1 p h) 0 * W2 p h).symm
  refine Finset.sum_congr rfl fun g _ => ?_
  -- the 768 columns of group `g` on the left, pair by pair
  refine (sum_j768 fun n => max (∑ k : Fin 384, X g k * Wbd g k n + b1r g n) 0 * w2r g n).trans ?_
  refine Finset.sum_congr rfl fun gi _ => Finset.sum_congr rfl fun h _ => ?_
  show max (∑ k : Fin 384, X g k * Wbd g k (j768 gi h) + b1r g (j768 gi h)) 0 * w2r g (j768 gi h)
      = max (∑ k : Fin 32, P (j276 g gi) k * W1 (j276 g gi) k h + B1 (j276 g gi) h) 0 * W2 (j276 g gi) h
  -- column `64 gi + h` of the block-diagonal product is pair `gi`'s own product
  have hcol : ∑ k : Fin 384, X g k * Wbd g k (j768 gi h) = ∑ k : Fin 32, P (j276 g gi) k * W1 (j276 g gi) k h :=
    blockdiag_col (X g) (fun t => Wbd g t (j768 gi h)) gi (P (j276 g gi)) (fun k => W1 (j276 g gi) k h)
      (fun k => hX g gi k) (fun k => hWd g gi k h) (fun gj k hne => hWo g gj gi k h hne)
  rw [hcol, hb g gi h, hw g gi h]

/-- Partial sums added one after the other onto zero: what an accumulator holds after step n. -/
noncomputable def accum (c : ℕ → EReal) : ℕ → EReal
  | 0 => 0 + c 0
  | n + 1 => accum c n + c (n + 1)

/-- After step `n` the accumulator holds `c 0 + … + c n`. By induction: at step 0 it holds `0 + c 0 = c 0`, and
step `n + 1` adds `c (n + 1)` to the sum of the first `n + 1` terms. -/
theorem accum_eq_sum (c : ℕ → EReal) (n : ℕ) : accum c n = ∑ i ∈ Finset.range (n + 1), c i := by
  induction n with
  | zero =>
    show 0 + c 0 = ∑ i ∈ Finset.range 1, c i
    rw [Finset.sum_range_one, zero_add]
  | succ n ih =>
    show accum c n + c (n + 1) = ∑ i ∈ Finset.range (n + 1 + 1), c i
    rw [ih, Finset.sum_range_succ c (n + 1)]

/-- After the 23 steps 0, …, 22 the accumulator holds the sum of the 23 terms. -/
theorem accum_22 (c : ℕ → EReal) : accum c 22 = ∑ g : Fin 23, c g.val :=
  (accum_eq_sum c 22).trans (Fin.sum_univ_eq_sum_range c 23).symm

end Cert.Mlp
-- ==== Proof.KernelSteps.lean ====
/-
  The 92 grid steps, added up.

  Point `t` of the grid is batch tile `t / 23`, pair group `t % 23`. Its input blocks are, of the four arrays the
  call reads, rows `2048 (t / 23) … + 2047` of group `t % 23`'s pair rows, and group `t % 23`'s weight block, bias
  row and output-weight row (`blk0_read` … `blk3_read`, for any contents of the arrays). The output block of a batch
  tile stays in place over the tile's 23 steps: the first step stores zero and adds its contribution, every later
  step adds its own onto what the step before left, so after group `g` the block holds the ordered partial sum of
  the contributions of groups `0 … g` (`outsAt_apply`, by induction on the point). The block is written back after
  group 22 only; the four batch tiles' blocks tile the result array, which therefore holds at row
  `2048 bt + y` the sum over the 23 groups of their contributions to that row (`final`).
-/
import proofs.«167772_j31679678775363_2_alg».proof.Proof.KernelBody
import proofs.«167772_j31679678775363_2_alg».proof.Proof.Regroup

noncomputable section

open Idealize.ShloMosaic Idealize.ShloMosaic.TcCoe Idealize.ShloMosaic.ValueIdx Idealize.SL.Sem
open Idealize.ShloMosaic.Pipeline (Dat)

namespace Cert.KernelIdeal.StepValue

open Cert.KernelIdeal Cert.KernelIdeal.Gen Cert.KernelIdeal.BodyValue Cert.Mlp

variable (m : (ℓ : Loc nD τ sig) → Buf (Elt Ideal) ℓ) (c : Dev nD)

/-! ## Which blocks a point reads -/

/-- The printed index maps, decided once over the 92 grid points: point `t` is batch tile `t / 23`, group `t % 23`. -/
theorem idx_facts : ∀ t : Fin cfg0.N,
    win0_0.index t (0 : Fin 3) = t.val % 23 ∧ win0_0.index t (1 : Fin 3) = t.val / 23 ∧ win0_0.index t (2 : Fin 3) = 0
    ∧ win0_1.index t (0 : Fin 3) = t.val % 23 ∧ win0_1.index t (1 : Fin 3) = 0 ∧ win0_1.index t (2 : Fin 3) = 0
    ∧ win0_2.index t (0 : Fin 3) = t.val % 23 ∧ win0_2.index t (1 : Fin 3) = 0 ∧ win0_2.index t (2 : Fin 3) = 0
    ∧ win0_3.index t (0 : Fin 3) = t.val % 23 ∧ win0_3.index t (1 : Fin 3) = 0 ∧ win0_3.index t (2 : Fin 3) = 0
    ∧ win0_4.index t (0 : Fin 1) = t.val / 23 :=
  (by decide +kernel : ∀ t : Fin grid0.N, _)

/-- Entry `(0, y, k)` of the pair-row block at point `t` is entry `(t % 23, 2048 (t / 23) + y, k)` of the array. -/
theorem blk0_read (A : Buf (Elt Ideal) ((c : Thread nD τ).loc (Pipeline.arrRef spec0 0))) (t : Fin cfg0.N) (y : Fin 2048)
    (k : Fin 384) (g : Fin 23) (b : Fin 8192) (hg : g.val = t.val % 23) (hb : b.val = 2048 * (t.val / 23) + y.val) :
    (((cfg0.win 0).blk t).view.read (Elt Ideal) A : S1x2048x384.Idx → EReal) (ix3 (0 : Fin 1) y k)
      = (A : S23x8192x384.Idx → EReal) (ix3 g b k) := by
  obtain ⟨e0, e1, e2, -⟩ := idx_facts t
  rw [View.read_apply]
  refine congrArg A (funext fun a => Fin.ext ?_)
  match a with
  | ⟨0, _⟩ => show win0_0.index t (0 : Fin 3) * 1 + 1 * 0 = g.val; omega
  | ⟨1, _⟩ => show win0_0.index t (1 : Fin 3) * 2048 + 1 * y.val = b.val; omega
  | ⟨2, _⟩ => show win0_0.index t (2 : Fin 3) * 384 + 1 * k.val = k.val; omega

/-- Entry `(0, k, n)` of the weight block at point `t` is entry `(t % 23, k, n)` of the array. -/
theorem blk1_read (A : Buf (Elt Ideal) ((c : Thread nD τ).loc (Pipeline.arrRef spec0 1))) (t : Fin cfg0.N) (k : Fin 384)
    (n : Fin 768) (g : Fin 23) (hg : g.val = t.val % 23) :
    (((cfg0.win 1).blk t).view.read (Elt Ideal) A : S1x384x768.Idx → EReal) (ix3 (0 : Fin 1) k n)
      = (A : S23x384x768.Idx → EReal) (ix3 g k n) := by
  obtain ⟨-, -, -, e0, e1, e2, -⟩ := idx_facts t
  rw [View.read_apply]
  refine congrArg A (funext fun a => Fin.ext ?_)
  match a with
  | ⟨0, _⟩ => show win0_1.index t (0 : Fin 3) * 1 + 1 * 0 = g.val; omega
  | ⟨1, _⟩ => show win0_1.index t (1 : Fin 3) * 384 + 1 * k.val = k.val; omega
  | ⟨2, _⟩ => show win0_1.index t (2 : Fin 3) * 768 + 1 * n.val = n.val; omega

/-- Entry `(0, 0, n)` of the bias-row block at point `t` is entry `(t % 23, 0, n)` of the array. -/
theorem blk2_read (A : Buf (Elt Ideal) ((c : Thread nD τ).loc (Pipeline.arrRef spec0 2))) (t : Fin cfg0.N) (n : Fin 768)
    (g : Fin 23) (hg : g.val = t.val % 23) :
    (((cfg0.win 2).blk t).view.read (Elt Ideal) A : S1x1x768.Idx → EReal) (ix3 (0 : Fin 1) (0 : Fin 1) n)
      = (A : S23x1x768.Idx → EReal) (ix3 g (0 : Fin 1) n) := by
  obtain ⟨-, -, -, -, -, -, e0, e1, e2, -⟩ := idx_facts t
  rw [View.read_apply]
  refine congrArg A (funext fun a => Fin.ext ?_)
  match a with
  | ⟨0, _⟩ => show win0_2.index t (0 : Fin 3) * 1 + 1 * 0 = g.val; omega
  | ⟨1, _⟩ => show win0_2.index t (1 : Fin 3) * 1 + 1 * 0 = 0; omega
  | ⟨2, _⟩ => show win0_2.index t (2 : Fin 3) * 768 + 1 * n.val = n.val; omega

/-- Entry `(0, 0, n)` of the output-weight-row block at point `t` is entry `(t % 23, 0, n)` of the array. -/
theorem blk3_read (A : Buf (Elt Ideal) ((c : Thread nD τ).loc (Pipeline.arrRef spec0 3))) (t : Fin cfg0.N) (n : Fin 768)
    (g : Fin 23) (hg : g.val = t.val % 23) :
    (((cfg0.win 3).blk t).view.read (Elt Ideal) A : S1x1x768.Idx → EReal) (ix3 (0 : Fin 1) (0 : Fin 1) n)
      = (A : S23x1x768.Idx → EReal) (ix3 g (0 : Fin 1) n) := by
  obtain ⟨-, -, -, -, -, -, -, -, -, e0, e1, e2, -⟩ := idx_facts t
  rw [View.read_apply]
  refine congrArg A (funext fun a => Fin.ext ?_)
  match a with
  | ⟨0, _⟩ => show win0_3.index t (0 : Fin 3) * 1 + 1 * 0 = g.val; omega
  | ⟨1, _⟩ => show win0_3.index t (1 : Fin 3) * 1 + 1 * 0 = 0; omega
  | ⟨2, _⟩ => show win0_3.index t (2 : Fin 3) * 768 + 1 * n.val = n.val; omega

/-! ## The running sum of a batch tile's output block -/

/-- What the step at point `t` adds to row `y` of its output block (zero beyond the grid). -/
def stepAdd (t : ℕ) (y : Fin 2048) : EReal :=
  if h : t < cfg0.N then contrib (iblk m c 0 ⟨t, h⟩) (iblk m c 1 ⟨t, h⟩) (iblk m c 2 ⟨t, h⟩) (iblk m c 3 ⟨t, h⟩) y else 0

/-- At a point of the grid the step's addition is the contribution of that point's four input blocks. -/
theorem stepAdd_eq (t : Fin cfg0.N) (y : Fin 2048) :
    stepAdd m c t.val y = contrib (iblk m c 0 t) (iblk m c 1 t) (iblk m c 2 t) (iblk m c 3 t) y :=
  dif_pos t.isLt

/-- The zero block the first group's step stores reads `0` everywhere. -/
theorem zero_block (y : Fin 2048) : k0_pay1 (F := Ideal) (ix1 y) = 0 := Ideal.ofBits_zero_f32

/-- After the step at point `n` — group `n % 23` of batch tile `n / 23` — row `y` of the output block holds the
    contributions of the tile's groups `0 … n % 23`, added one after the other onto zero. -/
theorem outsAt_apply : ∀ (n : ℕ) (hn : n < cfg0.N) (y : Fin 2048),
    outsAt0 m c n hn (ix1 y) = accum (fun j => stepAdd m c (23 * (n / 23) + j) y) (n % 23)
  | 0, hn, y => by
    rw [outsAt0_A m c ⟨0, hn⟩ rfl, out_A, pay_apply, zero_block]
    exact congrArg (0 + ·) (stepAdd_eq m c ⟨0, hn⟩ y).symm
  | n + 1, hn, y => by
    by_cases h0 : (n + 1) % 23 = 0
    · rw [outsAt0_A m c ⟨n + 1, hn⟩ h0, out_A, pay_apply, zero_block, h0]
      have e : 23 * ((n + 1) / 23) + 0 = n + 1 := by omega
      show 0 + _ = 0 + stepAdd m c (23 * ((n + 1) / 23) + 0) y
      rw [e]
      exact congrArg (0 + ·) (stepAdd_eq m c ⟨n + 1, hn⟩ y).symm
    · rw [outsAt0_B m c ⟨n + 1, hn⟩ h0, out_B, pay_apply]
      have h1 : (n + 1) % 23 = n % 23 + 1 := by omega
      have h2 : (n + 1) / 23 = n / 23 := by omega
      have e : 23 * (n / 23) + (n % 23 + 1) = n + 1 := by omega
      rw [h1, h2]
      show outsAt0 m c n _ (ix1 y) + _ = accum _ (n % 23) + stepAdd m c (23 * (n / 23) + (n % 23 + 1)) y
      rw [outsAt_apply n (Nat.lt_of_succ_lt hn) y, e]
      exact congrArg (_ + ·) (stepAdd_eq m c ⟨n + 1, hn⟩ y).symm

/-! ## The result array -/

/-- Row `r` of the result: the sum over the 23 groups of their contributions to row `r % 2048` of batch tile `r / 2048`. -/
def total (i : S8192.Idx) : EReal :=
  ∑ g : Fin 23, stepAdd m c (23 * ((i 0).val / 2048) + g.val) ⟨(i 0).val % 2048, Nat.mod_lt _ (by decide)⟩

/-- What a write-back writes: the points that write back are the last groups', and their block is the tile's rows of `total`. -/
theorem flushed_eq (t : Fin cfg0.N) (hf : (cfg0.win 4).flush t = true) :
    (dats m 0 c).flushed 4 t = ((cfg0.win 4).blk t).view.read (Elt Ideal) (total m c) := by
  have h22 : t.val % 23 = 22 := (flush0_4 t).mp hf
  obtain ⟨-, -, -, -, -, -, -, -, -, -, -, -, e4⟩ := idx_facts t
  show (cfg0.win 4).cut (grid0.coords t) ((dats m 0 c).after 4 t) = _
  rw [after0_4]
  funext j
  obtain ⟨y, rfl⟩ : ∃ y : Fin 2048, j = ix1 y := ⟨j 0, eq_ix1 j⟩
  rw [View.read_apply]
  show outsAt0 m c t.val t.isLt (ix1 y) = total m c (((cfg0.win 4).blk t).view.emb (ix1 y))
  rw [outsAt_apply, h22, accum_22]
  unfold total
  have hemb : ((((cfg0.win 4).blk t).view.emb (ix1 y)) 0).val = win0_4.index t (0 : Fin 1) * 2048 + 1 * y.val := rfl
  have hy := y.isLt
  have hd : ((((cfg0.win 4).blk t).view.emb (ix1 y)) 0).val / 2048 = t.val / 23 := by rw [hemb, e4]; omega
  have hm : ((((cfg0.win 4).blk t).view.emb (ix1 y)) 0).val % 2048 = y.val := by rw [hemb, e4]; omega
  refine Finset.sum_congr rfl fun g _ => ?_
  have ey : (⟨((((cfg0.win 4).blk t).view.emb (ix1 y)) 0).val % 2048, Nat.mod_lt _ (by decide)⟩ : Fin 2048) = y := Fin.ext hm
  rw [hd, ey]

/-- An index of the result lies in point `t`'s block iff it lies in the block's range of rows. -/
theorem mem_blk (t : Fin cfg0.N) (i : S8192.Idx) :
    i ∈ ((cfg0.win 4).blk t).view.set ↔ ∀ a : Fin 1, win0_4.index t a * S2048.size a ≤ (i a).val ∧ (i a).val < win0_4.index t a * S2048.size a + S2048.size a := by
  show i ∈ ((View.whole main_v108).slice (win0_4.rect t)).set ↔ _
  rw [View.set_slice_whole, Rect.mem_set_unit]
  exact Iff.rfl

/-- Every row of the result is in the block some last-group point writes back: row `r` in batch tile `r / 2048`'s. -/
theorem cover (i : S8192.Idx) : ∃ t : Fin cfg0.N, (cfg0.win 4).flush t = true ∧ i ∈ ((cfg0.win 4).blk t).view.set := by
  have hi : (i 0).val < 8192 := (i 0).isLt
  have hN : cfg0.N = 92 := N_0
  refine ⟨⟨23 * ((i 0).val / 2048) + 22, by rw [hN]; omega⟩, (flush0_4 _).mpr (by show (23 * ((i 0).val / 2048) + 22) % 23 = 22; omega), ?_⟩
  rw [mem_blk]
  intro a
  obtain ⟨-, -, -, -, -, -, -, -, -, -, -, -, e4⟩ := idx_facts ⟨23 * ((i 0).val / 2048) + 22, by rw [hN]; omega⟩
  match a with
  | ⟨0, _⟩ =>
    show win0_4.index _ (0 : Fin 1) * 2048 ≤ (i 0).val ∧ (i 0).val < win0_4.index _ (0 : Fin 1) * 2048 + 2048
    rw [e4]
    show (23 * ((i 0).val / 2048) + 22) / 23 * 2048 ≤ (i 0).val ∧ (i 0).val < (23 * ((i 0).val / 2048) + 22) / 23 * 2048 + 2048
    omega

/-- The result array after the call: `total`. -/
theorem final : (dats m 0 c).arrAt 4 cfg0.N = total m c :=
  (dats m 0 c).arrAt_eq_of_cover 4 (total m c) (flushed_eq m c) (cover)

end Cert.KernelIdeal.StepValue

end
-- ==== Proof.Terms.lean ====
/-
  The values both programs share, and the layer they both compute.

  Both programs look the 24 field ids of a batch row up in the two embedding tables in the same way: a negative id
  is wrapped by the table's length, the linear table's 24 entries are summed (`lin`), and the 16-wide factor rows of
  the 276 field pairs (i, j), i < j, are laid side by side as one 32-wide row per pair (`prods`). Nothing in the
  proof opens these two values: they are the same function of the same arguments on both sides.

  On top of them both programs compute, for batch row `b`,

      sigmoid ( lin b  +  ∑ over the 276 pairs p of ( ∑ h < 64, relu (∑ k < 32, prods b p k · W1 p k h + b1 p h) · W2 p h )
                       +  ∑ p, b2 p  +  bias ),

  and differ only in how the sums are grouped.
-/
import proofs.«167772_j31679678775363_2_alg».proof.Proof.Gen.KernelIdeal
import proofs.«167772_j31679678775363_2_alg».proof.Proof.Idx
import Idealize.ShloMosaic.PureOps.Ideal.Laws
import Idealize.ShloMosaic.Lib.ValueIdx

noncomputable section

namespace Cert.Mlp

open Idealize.ShloMosaic Idealize.ShloMosaic.ValueIdx Cert.KernelIdeal Cert.KernelIdeal.Facts₀ Cert.KernelIdeal.Facts

/-- The field ids as start indices of a row gather: a negative id wrapped by the table's length, one index per row. -/
def rowIdx (inputs : IVec S8192x24 32) : IVec S8192x24x1 32 :=
  broadcastInDim S8192x24x1 ![0, 1] bcast_S8192x24_S8192x24x1_0_1
    (select (cmpi .slt inputs (broadcastInDim S8192x24 ![] bcast_S_S8192x24 (constantI S_ 32 0#32)))
      (addi inputs (broadcastInDim S8192x24 ![] bcast_S_S8192x24 (constantI S_ 32 1000000#32))) inputs)

/-- The linear term: the 24 looked-up entries of the one-column table, summed from zero. -/
def lin (inputs : IVec S8192x24 32) (w : FVec Ideal S1000000x1 .f32) : FVec Ideal S8192 .f32 :=
  Host.reduceAdd (Host.gather gather_S1000000x1_S8192x24x1_S8192x24x1_2_0_n_n_0_2_11 w (rowIdx inputs))
    (constant (F := Ideal) S_ .f32 0x00000000#32) reducesTo_S8192x24x1_S8192_d1_2 h_S_

/-- The looked-up factor rows, [batch, field, 16]. -/
def emb (inputs : IVec S8192x24 32) (v : FVec Ideal S1000000x16 .f32) : S8192x24x16.Idx → EReal :=
  Host.gather gather_S1000000x16_S8192x24x1_S8192x24x16_2_0_n_n_0_2_116 v (rowIdx inputs)

/-- The factor rows of the fields a list of 276 field numbers names, [batch, pair, 16]. -/
def pick (c : IVec S276 32) (xv : S8192x24x16.Idx → EReal) : S8192x276x16.Idx → EReal :=
  Host.gather gather_S8192x24x16_S276x1_S8192x276x16_02_1_n_n_1_1_8192116 xv
    (broadcastInDim S276x1 ![0] bcast_S276_S276x1_0 c)

/-- The first fields of the 276 pairs, and the second ones. -/
def firsts : IVec S276 32 := fun i => lit0 (S276.rowMajor i)
def seconds : IVec S276 32 := fun i => lit1 (S276.rowMajor i)

/-- The pairs' rows: for each pair the first field's factors, then the second field's, [batch, pair, 32]. -/
def prods (inputs : IVec S8192x24 32) (v : FVec Ideal S1000000x16 .f32) : S8192x276x32.Idx → EReal :=
  concatenate S8192x276x32 2 [⟨S8192x276x16, pick firsts (emb inputs v)⟩, ⟨S8192x276x16, pick seconds (emb inputs v)⟩]
    concatenates_S8192x276x16_S8192x276x16_S8192x276x32_d2

/-- One pair's contribution to a batch row: its hidden layer (32 → 64, relu) against its output weights. -/
def pairOut (P : S8192x276x32.Idx → EReal) (W1 : S276x32x64.Idx → EReal) (B1 : S276x64.Idx → EReal)
    (W2 : S276x64x1.Idx → EReal) (b : Fin 8192) (p : Fin 276) : EReal :=
  ∑ h : Fin 64, max (∑ k : Fin 32, P (ix3 b p k) * W1 (ix3 p k h) + B1 (ix2 p h)) 0 * W2 (ix3 p h (0 : Fin 1))

/-- All pairs' contributions to a batch row. -/
def pairSum (P : S8192x276x32.Idx → EReal) (W1 : S276x32x64.Idx → EReal) (B1 : S276x64.Idx → EReal)
    (W2 : S276x64x1.Idx → EReal) (b : Fin 8192) : EReal :=
  ∑ p : Fin 276, pairOut P W1 B1 W2 b p

/-- The output biases' total. -/
def biasSum (B2 : S276x1.Idx → EReal) : EReal := ∑ p : Fin 276, B2 (ix2 p (0 : Fin 1))

/-- The last steps both programs share: add the scalar bias to every logit and apply the logistic function,
    written as the host writes it, `1 / (1 + exp (-z))`. -/
def finish (z : FVec Ideal S8192 .f32) (bias : FVec Ideal S1 .f32) : FVec Ideal S8192 .f32 :=
  Host.divf (F := Ideal) (broadcastInDim S8192 ![] bcast_S_S8192 (constant (F := Ideal) S_ .f32 0x3F800000#32))
    (addf (broadcastInDim S8192 ![] bcast_S_S8192 (constant (F := Ideal) S_ .f32 0x3F800000#32))
      (Host.exp (F := Ideal) (Host.negf (F := Ideal)
        (addf z (broadcastInDim S8192 ![] bcast_S_S8192 (shapeCast S_ bias shapeCasts_S1_S_))))))

/-- The logits before the scalar bias: linear term, pairs, output biases. -/
def logits (L : FVec Ideal S8192 .f32) (P : S8192x276x32.Idx → EReal) (W1 : S276x32x64.Idx → EReal)
    (B1 : S276x64.Idx → EReal) (W2 : S276x64x1.Idx → EReal) (B2 : S276x1.Idx → EReal) : FVec Ideal S8192 .f32 :=
  fun j => L j + (pairSum P W1 B1 W2 (j 0) + biasSum B2)

/-- What both programs return. -/
def result (inputs : IVec S8192x24 32) (w : FVec Ideal S1000000x1 .f32) (v : FVec Ideal S1000000x16 .f32)
    (bias : FVec Ideal S1 .f32) (W1 : FVec Ideal S276x32x64 .f32) (B1 : FVec Ideal S276x64 .f32)
    (W2 : FVec Ideal S276x64x1 .f32) (B2 : FVec Ideal S276x1 .f32) : FVec Ideal S8192 .f32 :=
  finish (logits (lin inputs w) (prods inputs v) W1 B1 W2 B2) bias

end Cert.Mlp

end
-- ==== Proof.KernelValue.lean ====
/-
  The call's result is the sum over all pairs.

  Row `r = 2048 bt + y` of the call's result is the sum over the 23 groups of the step contributions
  (KernelSteps.lean); the contribution of group `g` reads rows of the four arrays the host code prepared
  (`stepAdd_read`). When those arrays are the grouped pair rows, the block-diagonal weights, and the grouped bias and
  output-weight rows of per-pair data, the grouped double sum is the sum over the 276 pairs of each pair's own
  contribution (Regroup.lean), `pairSum`.
-/
import proofs.«167772_j31679678775363_2_alg».proof.Proof.KernelSteps
import proofs.«167772_j31679678775363_2_alg».proof.Proof.Terms

noncomputable section

open Idealize.ShloMosaic Idealize.ShloMosaic.TcCoe Idealize.ShloMosaic.ValueIdx Idealize.SL.Sem
open Idealize.ShloMosaic.Pipeline (Dat)

namespace Cert.KernelIdeal.StepValue

open Cert.KernelIdeal Cert.KernelIdeal.Gen Cert.KernelIdeal.BodyValue Cert.Mlp

variable (m : (ℓ : Loc nD τ sig) → Buf (Elt Ideal) ℓ) (c : Dev nD)

/-! The four arrays the call reads, as the host code before the call leaves them. -/

/-- The pair rows by group: [group, batch row, 384 grouped input coordinates]. -/
def pairRows : S23x8192x384.Idx → EReal := V m c main_v29
/-- The first-layer weights by group: [group, 384 grouped input coordinates, 768 grouped hidden units]. -/
def groupW : S23x384x768.Idx → EReal := V m c main_v104
/-- The first-layer biases by group: [group, 1, 768 grouped hidden units]. -/
def groupB1 : S23x1x768.Idx → EReal := V m c main_v105
/-- The output weights by group: [group, 1, 768 grouped hidden units]. -/
def groupW2 : S23x1x768.Idx → EReal := V m c main_v107

/-- The contribution of the step at point `t` — group `g = t % 23`, rows `b = 2048 (t / 23) + y` — to row `y` of its
    block, in terms of the four arrays the call reads. -/
theorem stepAdd_read (t : Fin cfg0.N) (y : Fin 2048) (g : Fin 23) (b : Fin 8192) (hg : g.val = t.val % 23)
    (hb : b.val = 2048 * (t.val / 23) + y.val) :
    stepAdd m c t.val y
      = ∑ n : Fin 768, max ((∑ k : Fin 384, pairRows m c (ix3 g b k)
            * groupW m c (ix3 g k n))
          + groupB1 m c (ix3 g (0 : Fin 1) n)) 0
        * groupW2 m c (ix3 g (0 : Fin 1) n) := by
  rw [stepAdd_eq]
  unfold contrib
  refine Finset.sum_congr rfl fun n _ => ?_
  refine congrArg₂ (· * ·) (congrArg (max · 0) (congrArg₂ (· + ·)
    (Finset.sum_congr rfl fun k _ => congrArg₂ (· * ·) ?_ ?_) ?_)) ?_
  · exact blk0_read c (V m c (Pipeline.arrRef spec0 0)) t y k g b hg hb
  · exact blk1_read c (V m c (Pipeline.arrRef spec0 1)) t k n g hg
  · exact blk2_read c (V m c (Pipeline.arrRef spec0 2)) t n g hg
  · exact blk3_read c (V m c (Pipeline.arrRef spec0 3)) t n g hg

/-- Row `b` of the call's result is the sum over all 276 pairs of the pairs' contributions, when the four arrays the
    call reads hold the grouped forms of the per-pair data `P`, `W1`, `B1`, `W2`. -/
theorem total_eq_of (P : S8192x276x32.Idx → EReal) (W1 : S276x32x64.Idx → EReal) (B1 : S276x64.Idx → EReal)
    (W2 : S276x64x1.Idx → EReal)
    (hX : ∀ (g : Fin 23) (b : Fin 8192) (gi : Fin 12) (k : Fin 32),
      pairRows m c (ix3 g b (j384 gi k)) = P (ix3 b (j276 g gi) k))
    (hWd : ∀ (g : Fin 23) (gi : Fin 12) (k : Fin 32) (h : Fin 64),
      groupW m c (ix3 g (j384 gi k) (j768 gi h)) = W1 (ix3 (j276 g gi) k h))
    (hWo : ∀ (g : Fin 23) (gi gj : Fin 12) (k : Fin 32) (h : Fin 64), gi ≠ gj →
      groupW m c (ix3 g (j384 gi k) (j768 gj h)) = 0)
    (hb1 : ∀ (g : Fin 23) (gi : Fin 12) (h : Fin 64),
      groupB1 m c (ix3 g (0 : Fin 1) (j768 gi h)) = B1 (ix2 (j276 g gi) h))
    (hw2 : ∀ (g : Fin 23) (gi : Fin 12) (h : Fin 64),
      groupW2 m c (ix3 g (0 : Fin 1) (j768 gi h)) = W2 (ix3 (j276 g gi) h (0 : Fin 1)))
    (b : Fin 8192) : total m c (ix1 b) = pairSum P W1 B1 W2 b := by
  have hb := b.isLt
  have hN : cfg0.N = 92 := N_0
  unfold total
  show ∑ g : Fin 23, stepAdd m c (23 * (b.val / 2048) + g.val) ⟨b.val % 2048, Nat.mod_lt _ (by decide)⟩ = _
  have hstep : ∀ g : Fin 23, stepAdd m c (23 * (b.val / 2048) + g.val) ⟨b.val % 2048, Nat.mod_lt _ (by decide)⟩
      = ∑ n : Fin 768, max ((∑ k : Fin 384, pairRows m c (ix3 g b k)
            * groupW m c (ix3 g k n))
          + groupB1 m c (ix3 g (0 : Fin 1) n)) 0
        * groupW2 m c (ix3 g (0 : Fin 1) n) := fun g =>
    stepAdd_read m c ⟨23 * (b.val / 2048) + g.val, by have := g.isLt; rw [hN]; omega⟩ ⟨b.val % 2048, Nat.mod_lt _ (by decide)⟩ g b
      (by have := g.isLt; show g.val = (23 * (b.val / 2048) + g.val) % 23; omega)
      (by have := g.isLt; show b.val = 2048 * ((23 * (b.val / 2048) + g.val) / 23) + b.val % 2048; omega)
  rw [Finset.sum_congr rfl fun g _ => hstep g]
  exact grouped_eq_pairs (fun p k => P (ix3 b p k)) (fun p k h => W1 (ix3 p k h)) (fun p h => B1 (ix2 p h))
    (fun p h => W2 (ix3 p h (0 : Fin 1)))
    (fun g k => pairRows m c (ix3 g b k))
    (fun g k n => groupW m c (ix3 g k n))
    (fun g n => groupB1 m c (ix3 g (0 : Fin 1) n))
    (fun g n => groupW2 m c (ix3 g (0 : Fin 1) n))
    (fun g gi k => hX g b gi k) hWd hWo hb1 hw2

end Cert.KernelIdeal.StepValue

end
-- ==== Proof.HostTail.lean ====
/-
  Two small readings of the host operations that end the kernel program.

  After the 23 groups have been accumulated the kernel program adds, on the host, the total of the 276 output biases
  to every logit. The total is a sum over BOTH axes of the 276 × 1 bias array into a scalar, started from zero: it is
  the sum over the 276 pairs of the bias at (p, 0). The scalar is then copied to all 8192 batch rows: read at any row
  it is the scalar itself.
-/
import proofs.«167772_j31679678775363_2_alg».proof.Proof.Terms
import Idealize.ShloMosaic.PureOps.Ideal.Laws
import Idealize.ShloMosaic.Lib.ValueIdx
import Idealize.ShloMosaic.Lib.IdealHost
import Idealize.ShloMosaic.Lib.Pipeline.Value

noncomputable section

namespace Cert.KernelIdeal.Tail

open Idealize.ShloMosaic Idealize.ShloMosaic.ValueIdx Cert.KernelIdeal Cert.KernelIdeal.Gen Cert.Mlp

/-- The host's sum of the 276 × 1 output biases over both axes, started from the constant zero, is the biases' total
`∑ p < 276, B2 (p, 0)`. The result has rank 0, so every source index reduces to its one index and the host's sum is
the initial value plus the sum over all indices (p, u); the initial value is the pattern of +0.0, the extended real 0;
the sum over the index set is the double sum over p and u, and the unit axis contributes its one term u = 0. -/
theorem bias_total (B2 : FVec Ideal S276x1 .f32) (j : S_.Idx) :
    Host.reduceAdd (F := Ideal) B2 (constant (F := Ideal) S_ .f32 0x00000000#32) reducesTo_S276x1_S_d0_1 h_S_ j = biasSum B2 := by
  show Ideal.hostReduceAdd reducesTo_S276x1_S_d0_1 B2 (Ideal.ofBits .f32 0x00000000#32) j = ∑ p : Fin 276, B2 (ix2 p (0 : Fin 1))
  -- a result of rank 0 has no axis, so the condition "every result axis has size one" is empty
  rw [Ideal.hostReduceAdd_total reducesTo_S276x1_S_d0_1 (fun a => a.elim0) B2 _ j, Ideal.ofBits_zero_f32, zero_add, sum_idx2]
  exact Finset.sum_congr rfl fun p _ => Fin.sum_univ_one fun u : Fin 1 => B2 (ix2 p u)

/-- A scalar copied to the 8192 batch rows reads, at every row, the scalar. -/
theorem scalar_spread (z : FVec Ideal S_ .f32) (j : S8192.Idx) : broadcastInDim S8192 ![] bcast_S_S8192 z j = z ix0 :=
  broadcastInDim_scalar_apply bcast_S_S8192 z j

end Cert.KernelIdeal.Tail

end
-- ==== Proof.KernelTail.lean ====
/-
  The end of the kernel program, read back as mathematics.

  After the kernel has run, the program finishes on the host with sixteen tensor operations. They take
  three things that are already there — the linear term `l` (one number per batch row), the kernel's
  result `ps` (one number per batch row: the pairs' contributions without their output biases) and the
  276 × 1 array `B2` of output biases — and the scalar bias, and compute

      1 / (1 + exp (-( l b + ps b + ∑ p, B2 p 0 + bias )))        for each of the 8192 batch rows b.

  The biases are added as ONE number: the host sums the 276 of them into a scalar and copies it to
  every row. This file unwinds the sixteen operations into that formula (`tail_fold`, `finish_sum`),
  and says where each of the four inputs comes from when the operations run after the kernel
  (`tail_eq`): the kernel's result from the kernel's output array as its last write-back leaves it,
  the other three from what the host operations BEFORE the kernel left, which the kernel does not touch.
-/
import proofs.«167772_j31679678775363_2_alg».proof.Proof.Gen.KernelIdeal.Frame
import proofs.«167772_j31679678775363_2_alg».proof.Proof.Terms
import proofs.«167772_j31679678775363_2_alg».proof.Proof.HostTail
import Idealize.ShloMosaic.Lib.Pipeline.Value
import Idealize.ShloMosaic.Lib.StableHlo.Run
import Idealize.ShloMosaic.Lib.ValueIdx

noncomputable section

namespace Cert.KernelIdeal.TailValue

open Idealize.ShloMosaic Idealize.ShloMosaic.TcCoe Idealize.ShloMosaic.ValueIdx Idealize.SL.Sem Cert.KernelIdeal
  Cert.KernelIdeal.Gen Cert.Mlp

/-- The sixteen operations, unwound from the last to the first. The result buffer is written by the
    division `1 / ·`; its operand by `1 + ·`; that one's by the exponential, the negation, and three
    additions, whose leaves are the linear term's buffer, the kernel's result buffer, the copy to all rows
    of the sum of the output biases' buffer, and the copy to all rows of the scalar bias. Every buffer in
    between is replaced by the function that wrote it applied to its operands; what is left mentions the
    contents `W` the operations started from at those four buffers only, and is `finish` of the logits
    `l + ps + (the biases' sum, copied)` by definition of `finish`. -/
theorem tail_fold (W : Valuation τ sig (Elt Ideal)) :
    StableHlo.after (hostOps1 (F := Ideal)) W (main_v121 : DevRef τ sig)
      = finish
          (addf (addf (W (main_v7 : DevRef τ sig)) (W (main_v108 : DevRef τ sig)))
            (broadcastInDim S8192 ![] bcast_S_S8192
              (Host.reduceAdd (F := Ideal) (W (main_arg7 : DevRef τ sig)) (constant (F := Ideal) S_ .f32 0x00000000#32)
                reducesTo_S276x1_S_d0_1 h_S_)))
          (W (main_arg3 : DevRef τ sig)) := by
  after_results
  rfl

/-- The logits, row by row. A sum of tensors is the sum at every index; the scalar copied to all rows
    reads, at row `j`, the scalar; and the scalar is the host's sum of the 276 × 1 biases over both axes
    from zero, which is `∑ p, B2 p 0`. So the tensor `l + ps + copy (sum B2)` is, at row `j`,
    `l j + ps j + ∑ p, B2 p 0`. -/
theorem finish_sum (l ps : FVec Ideal S8192 .f32) (B2 : FVec Ideal S276x1 .f32) (bias : FVec Ideal S1 .f32) :
    finish
        (addf (addf l ps)
          (broadcastInDim S8192 ![] bcast_S_S8192
            (Host.reduceAdd (F := Ideal) B2 (constant (F := Ideal) S_ .f32 0x00000000#32) reducesTo_S276x1_S_d0_1 h_S_)))
        bias
      = finish (fun j => l j + ps j + biasSum B2) bias := by
  refine congrArg (finish · bias) (funext fun j => ?_)
  rw [addf_apply, addf_apply, Tail.scalar_spread, Tail.bias_total]

/-- The two together, with the four inputs named: if the operations start from contents `W` that hold
    `l`, `ps`, `B2` and `bias` at the four buffers they read, they end with the result buffer at
    `finish (fun j => l j + ps j + ∑ p, B2 p 0) bias`. -/
theorem tail_read (W : Valuation τ sig (Elt Ideal)) (l ps : FVec Ideal S8192 .f32) (B2 : FVec Ideal S276x1 .f32)
    (bias : FVec Ideal S1 .f32) (hl : W (main_v7 : DevRef τ sig) = l) (hps : W (main_v108 : DevRef τ sig) = ps)
    (hB2 : W (main_arg7 : DevRef τ sig) = B2) (hbias : W (main_arg3 : DevRef τ sig) = bias) :
    StableHlo.after (hostOps1 (F := Ideal)) W (main_v121 : DevRef τ sig)
      = finish (fun j => l j + ps j + biasSum B2) bias := by
  subst hl hps hB2 hbias
  exact (tail_fold W).trans (finish_sum _ _ _ _)

variable (m : (ℓ : Loc nD τ sig) → Buf (Elt Ideal) ℓ) (c : Dev nD)

/-- What the program's result buffer holds at the end. The host operations after the kernel start from
    these contents: the kernel's five arrays as the kernel leaves them, every other buffer as the host
    operations before the kernel left it. Of the four buffers the sixteen operations read, one is an
    array of the kernel — its output, the fifth array, which holds what the last of the kernel's
    write-backs leaves, here called `ps` —, and three are not: the linear term's buffer, here called `l`,
    and the two argument buffers of the output biases and the scalar bias, which moreover no earlier
    operation writes, so that they still hold the program's arguments. -/
theorem tail_eq_of (l ps : FVec Ideal S8192 .f32) (hl : V m c main_v7 = l)
    (hps : (dats (F := Ideal) m 0 c).arrAt 4 cfg0.N = ps) :
    Pipeline.afterTail₀ cfgs (dats (F := Ideal) m) 0 (V0 m) [hostOps1] c main_v121
      = finish (fun j => l j + ps j + biasSum (m ((c : Thread nD τ).loc main_arg7))) (m ((c : Thread nD τ).loc main_arg3)) := by
  unfold Pipeline.afterTail₀
  refine tail_read _ l ps _ _ ?_ ?_ ?_ ?_
  · exact (Pipeline.withArrays_of_ne _ c (V0 m c) _ main_v7
      (by exact (by decide : ∀ w, Pipeline.arrRef spec0 w ≠ main_v7))).trans hl
  · exact (Pipeline.withArrays_arr spec0 launch0.win.arr_inj c _ _ 4).trans hps
  · exact (Pipeline.withArrays_of_ne _ c (V0 m c) _ main_arg7
      (by exact (by decide : ∀ w, Pipeline.arrRef spec0 w ≠ main_arg7))).trans (V_main_arg7 m c)
  · exact (Pipeline.withArrays_of_ne _ c (V0 m c) _ main_arg3
      (by exact (by decide : ∀ w, Pipeline.arrRef spec0 w ≠ main_arg3))).trans (V_main_arg3 m c)

end Cert.KernelIdeal.TailValue

end
-- ==== Proof.HostPrefix.lean ====
/-
  What the kernel program's host code hands to the pallas_call.

  Before the call the host code looks the field ids up in the two embedding tables, lays the 276 pairs' rows out in
  23 groups of 12, places the pairs' first-layer weights on the diagonal blocks of one [384, 768] matrix per group,
  and reshapes the first layer's biases and the second layer's weights to one row of 768 per group. This file reads
  all of those arrays but the block matrices (they are read in HostPrefixW.lean) in terms of the launch arguments:

    * the linear term is the shared `lin`;
    * the regrouped rows at (g, b, 32 gi + k) are the shared `prods` at (b, 12 g + gi, k);
    * the regrouped biases and output weights at (g, 0, 64 gi + h) are the arguments at pair 12 g + gi, unit h.

  Each array is one fold of the host operations over the launch memory; the fold is opened once per array, and the
  re-layings (reshape, transpose, reshape) are then read at an index by their row-major positions.
-/
import proofs.«167772_j31679678775363_2_alg».proof.Proof.Gen.KernelIdeal.Frame
import proofs.«167772_j31679678775363_2_alg».proof.Proof.Terms
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.HostValue

open Idealize.ShloMosaic Idealize.ShloMosaic.TcCoe Idealize.ShloMosaic.ValueIdx Idealize.SL.Sem Cert.KernelIdeal Cert.KernelIdeal.Gen Cert.Mlp

variable (m : (ℓ : Loc nD τ sig) → Buf (Elt Ideal) ℓ) (c : Dev nD)

/-! ## Re-layings read at an index -/

/-- The pairs' rows regrouped: splitting the pair axis 276 = 23 · 12, bringing the group in front of the batch and merging
    a group's 12 pairs with their 32 coordinates into one axis of 384, read at group `g`, row `b`, position `32 gi + k`,
    is the original array at row `b`, pair `12 g + gi`, coordinate `k`. -/
theorem regroup_apply {α : Type} (P : S8192x276x32.Idx → α) (g : Fin 23) (b : Fin 8192) (gi : Fin 12) (k : Fin 32) :
    shapeCast S23x8192x384
        (transpose S23x8192x12x32 [1, 0, 2, 3] (shapeCast S8192x23x12x32 P shapeCasts_S8192x276x32_S8192x23x12x32)
          transposes_S8192x23x12x32_S23x8192x12x32_1_0_2_3)
        shapeCasts_S23x8192x12x32_S23x8192x384 (ix3 g b (j384 gi k))
      = P (ix3 b (j276 g gi) k) := by
  -- the merged axis: position 32 gi + k of 384 is coordinates (gi, k) of 12 × 32
  refine (shapeCast_apply _ _ (ix3 g b (j384 gi k)) (ix4 g b gi k) ?_).trans ?_
  · rw [Shape.rowMajor_val_four, Shape.rowMajor_val_three]
    show ((g.val * 8192 + b.val) * 12 + gi.val) * 32 + k.val = (g.val * 8192 + b.val) * 384 + (32 * gi.val + k.val)
    omega
  -- the transpose exchanges the first two coordinates
  refine (transpose_apply _ _ _ (ix4 g b gi k) (ix4 b g gi k) ?_).trans ?_
  · intro a
    match a with
    | ⟨0, _⟩ => rfl
    | ⟨1, _⟩ => rfl
    | ⟨2, _⟩ => rfl
    | ⟨3, _⟩ => rfl
  -- the split axis: coordinates (g, gi) of 23 × 12 are position 12 g + gi of 276
  refine shapeCast_apply _ _ (ix4 b g gi k) (ix3 b (j276 g gi) k) ?_
  rw [Shape.rowMajor_val_four, Shape.rowMajor_val_three]
  show (b.val * 276 + (12 * g.val + gi.val)) * 32 + k.val = ((b.val * 23 + g.val) * 12 + gi.val) * 32 + k.val
  omega

/-- A [276, 64] array laid out as [23, 1, 768], read at group `g`, position `64 gi + h`: the entry of pair `12 g + gi`,
    unit `h`. -/
theorem group768_apply {α : Type} (B : S276x64.Idx → α) (g : Fin 23) (gi : Fin 12) (h : Fin 64) :
    shapeCast S23x1x768 B shapeCasts_S276x64_S23x1x768 (ix3 g (0 : Fin 1) (j768 gi h)) = B (ix2 (j276 g gi) h) := by
  refine shapeCast_apply _ _ (ix3 g (0 : Fin 1) (j768 gi h)) (ix2 (j276 g gi) h) ?_
  rw [Shape.rowMajor_val_two, Shape.rowMajor_val_three]
  show (12 * g.val + gi.val) * 64 + h.val = (g.val * 1 + 0) * 768 + (64 * gi.val + h.val)
  omega

/-- Dropping the trailing unit axis of a [276, 64, 1] array keeps each entry. -/
theorem dropLast_apply {α : Type} (W : S276x64x1.Idx → α) (p : Fin 276) (h : Fin 64) :
    shapeCast S276x64 W shapeCasts_S276x64x1_S276x64 (ix2 p h) = W (ix3 p h (0 : Fin 1)) := by
  refine shapeCast_apply _ _ (ix2 p h) (ix3 p h (0 : Fin 1)) ?_
  rw [Shape.rowMajor_val_two, Shape.rowMajor_val_three]
  show (p.val * 64 + h.val) * 1 + 0 = p.val * 64 + h.val
  omega

/-! ## The kernel's pair rows are the shared ones -/

/-- A selection on the constant-false mask is its second alternative. -/
theorem select_false {α : Type} (a b : S276.Idx → α) : select (constantI S276 1 0#1) a b = b :=
  funext fun _ => select_zero _ _

/-- The pairs' rows as the kernel's host code writes them: the looked-up factor rows pass through a change of format
    (the identity on the extended reals), and each list of field numbers goes through a wrap of negative entries whose
    mask is constantly false. -/
def hostProds (inputs : IVec S8192x24 32) (v : FVec Ideal S1000000x16 .f32) : S8192x276x32.Idx → EReal :=
  concatenate S8192x276x32 2
    [⟨S8192x276x16, Host.gather gather_S8192x24x16_S276x1_S8192x276x16_02_1_n_n_1_1_8192116
        (truncf .bf16 (emb inputs v) bitsLt_bf16_f32 : FVec Ideal S8192x24x16 .bf16)
        (broadcastInDim S276x1 ![0] bcast_S276_S276x1_0
          (select (constantI S276 1 0#1)
            (addi firsts (broadcastInDim S276 ![] bcast_S_S276 (constantI S_ 32 24#32))) firsts))⟩,
     ⟨S8192x276x16, Host.gather gather_S8192x24x16_S276x1_S8192x276x16_02_1_n_n_1_1_8192116
        (truncf .bf16 (emb inputs v) bitsLt_bf16_f32 : FVec Ideal S8192x24x16 .bf16)
        (broadcastInDim S276x1 ![0] bcast_S276_S276x1_0
          (select (constantI S276 1 0#1)
            (addi seconds (broadcastInDim S276 ![] bcast_S_S276 (constantI S_ 32 24#32))) seconds))⟩]
    concatenates_S8192x276x16_S8192x276x16_S8192x276x32_d2

/-- They are the shared pair rows. -/
theorem hostProds_eq (inputs : IVec S8192x24 32) (v : FVec Ideal S1000000x16 .f32) :
    hostProds inputs v = prods inputs v := by
  unfold hostProds prods pick
  -- the two wraps select on a constantly false mask: they return the lists themselves
  rw [select_false, select_false]
  -- what is left differs by the change of format only, and on the extended reals that is the identity function
  rfl

/-! ## The arrays the call reads, as terms over the launch arguments

Each is the fold of the host operations read at one buffer: every operation's result at its own buffer is its
function applied to its operands' contents, and at any other buffer what was there before. -/

-- a fold over 144 operations recurses once per operation
set_option maxRecDepth 8000 in
set_option maxHeartbeats 4000000 in
/-- The linear term the call's result is later added to is the shared `lin` of the ids and the one-column table. -/
theorem V_v7 : (V m c main_v7 : S8192.Idx → EReal)
    = lin (m ((c : Thread nD τ).loc main_arg0)) (m ((c : Thread nD τ).loc main_arg1)) := by
  -- the buffer's contents are the fold of the 144 host operations over the launch memory, read at the buffer
  show StableHlo.after hostOps0 (fun b => m (c, b)) (Proc.devRef .tc main_v7) = _
  simp only [Gen.hostOps0]
  -- each operation's result at its own buffer is its function of its operands; no later operation writes this buffer
  after_results
  -- what is left is the term the program's statements %0 to %7 build over the two arguments: `lin` is written so
  rfl

set_option maxRecDepth 8000 in
set_option maxHeartbeats 4000000 in
/-- The regrouped pair rows: the host's pair rows, reshaped, transposed and reshaped (the fold is opened as above). -/
theorem V_v29 : (V m c main_v29 : S23x8192x384.Idx → EReal)
    = shapeCast S23x8192x384
        (transpose S23x8192x12x32 [1, 0, 2, 3]
          (shapeCast S8192x23x12x32
            (hostProds (m ((c : Thread nD τ).loc main_arg0)) (m ((c : Thread nD τ).loc main_arg2)))
            shapeCasts_S8192x276x32_S8192x23x12x32)
          transposes_S8192x23x12x32_S23x8192x12x32_1_0_2_3)
        shapeCasts_S23x8192x12x32_S23x8192x384 := by
  show StableHlo.after hostOps0 (fun b => m (c, b)) (Proc.devRef .tc main_v29) = _
  simp only [Gen.hostOps0]
  after_results
  rfl

set_option maxRecDepth 8000 in
set_option maxHeartbeats 4000000 in
/-- The regrouped first-layer biases: one reshape of the argument. -/
theorem V_v105 : (V m c main_v105 : S23x1x768.Idx → EReal)
    = shapeCast S23x1x768 (m ((c : Thread nD τ).loc main_arg5)) shapeCasts_S276x64_S23x1x768 := by
  show StableHlo.after hostOps0 (fun b => m (c, b)) (Proc.devRef .tc main_v105) = _
  simp only [Gen.hostOps0]
  after_results
  rfl

set_option maxRecDepth 8000 in
set_option maxHeartbeats 4000000 in
/-- The regrouped output weights: the argument's trailing unit axis dropped, then the same reshape. -/
theorem V_v107 : (V m c main_v107 : S23x1x768.Idx → EReal)
    = shapeCast S23x1x768
        (shapeCast S276x64 (m ((c : Thread nD τ).loc main_arg6)) shapeCasts_S276x64x1_S276x64)
        shapeCasts_S276x64_S23x1x768 := by
  show StableHlo.after hostOps0 (fun b => m (c, b)) (Proc.devRef .tc main_v107) = _
  simp only [Gen.hostOps0]
  after_results
  rfl

/-! ## Read at an index -/

/-- The regrouped pair rows at group `g`, batch row `b`, position `32 gi + k`: coordinate `k` of pair `12 g + gi` of
    row `b`. -/
theorem V_v29_apply (g : Fin 23) (b : Fin 8192) (gi : Fin 12) (k : Fin 32) :
    (V m c main_v29 : S23x8192x384.Idx → EReal) (ix3 g b (j384 gi k))
      = prods (m ((c : Thread nD τ).loc main_arg0)) (m ((c : Thread nD τ).loc main_arg2)) (ix3 b (j276 g gi) k) := by
  rw [V_v29, regroup_apply, hostProds_eq]

/-- The regrouped first-layer biases at group `g`, position `64 gi + h`: the bias of unit `h` of pair `12 g + gi`. -/
theorem V_v105_apply (g : Fin 23) (gi : Fin 12) (h : Fin 64) :
    (V m c main_v105 : S23x1x768.Idx → EReal) (ix3 g (0 : Fin 1) (j768 gi h))
      = (m ((c : Thread nD τ).loc main_arg5)) (ix2 (j276 g gi) h) := by
  rw [V_v105, group768_apply]

/-- The regrouped output weights at group `g`, position `64 gi + h`: the weight of unit `h` of pair `12 g + gi`. -/
theorem V_v107_apply (g : Fin 23) (gi : Fin 12) (h : Fin 64) :
    (V m c main_v107 : S23x1x768.Idx → EReal) (ix3 g (0 : Fin 1) (j768 gi h))
      = (m ((c : Thread nD τ).loc main_arg6)) (ix3 (j276 g gi) h (0 : Fin 1)) := by
  rw [V_v107, group768_apply, dropLast_apply]

end Cert.KernelIdeal.HostValue

end
-- ==== Proof.BlockDiagTerm.lean ====
/-
  The block-diagonal weight array, as the host builds it.

  The first layer's weights are one 32 × 64 matrix per field pair, 276 of them: `W1 p k h`. The kernel multiplies a
  whole group of 12 pairs at once: the 12 pairs' inputs lie side by side on an axis of length 384 = 12 · 32, their
  hidden units on an axis of length 768 = 12 · 64, and the group's weights are ONE 384 × 768 matrix that holds the 12
  pairs' matrices as blocks along its diagonal and zeros everywhere else. There are 23 groups, so the array is
  23 × 384 × 768.

  The host builds it in three moves:

  * the weights are re-laid as 23 × 12 × 32 × 64 (the pair axis 276 = 23 · 12 split in row-major order), `relaid`;
  * an array of zeros of the result's shape is made, `zeros`;
  * for each of the 12 positions `gi` inside a group, in turn, the slice of all groups' `gi`-th matrices
    (23 × 32 × 64) is written into the running array with its corner at row `32 · gi`, column `64 · gi` of every
    group (`blockStep`): a scatter of one window whose start is the pair (`32 · gi`, `64 · gi`).

  `wbd` is the twelve steps one after another, starting from the zeros. This file only names these terms; what their
  entries are is proved in BlockDiag.lean.
-/
import proofs.«167772_j31679678775363_2_alg».proof.Proof.Gen.KernelIdeal
import Idealize.ShloMosaic.PureOps.Ideal.Laws

noncomputable section

namespace Cert.Mlp

open Idealize.ShloMosaic Cert.KernelIdeal Cert.KernelIdeal.Facts₀ Cert.KernelIdeal.Facts

/-- The start of a scatter's one window: the two numbers `a` (for the row axis) and `b` (for the column axis) laid
    as a vector of length two. -/
def startPair (a b : BitVec 32) : IVec S2 32 :=
  concatenate S2 0 [⟨S1, broadcastInDim S1 ![] bcast_S_S1 (constantI S_ 32 a)⟩,
    ⟨S1, broadcastInDim S1 ![] bcast_S_S1 (constantI S_ 32 b)⟩] concatenates_S1_S1_S2_d0

/-- The weights re-laid by group: entry (g, gi, k, h) is the weight (k, h) of pair 12 g + gi. -/
def relaid (W1 : FVec Ideal S276x32x64 .f32) : FVec Ideal S23x12x32x64 .bf16 :=
  shapeCast S23x12x32x64 (truncf .bf16 W1 bitsLt_bf16_f32) shapeCasts_S276x32x64_S23x12x32x64

/-- The array the steps start from: zero everywhere. -/
def zeros : FVec Ideal S23x384x768 .bf16 :=
  broadcastInDim S23x384x768 ![] bcast_S_S23x384x768 (constant (F := Ideal) S_ .bf16 0x0000#16)

/-- One scatter step as a function of the running array `acc` and the re-laid weights `V`, for block number `gi`:
    the slice of `V` at position `gi` of the second axis, with that axis dropped, is written over `acc` as one window
    whose start on the row and column axes is (`a`, `b`). In the program `a` is `32 · gi` and `b` is `64 · gi`. -/
def blockStep (gi : ℕ) (hs : S23x12x32x64.Slices ![0, gi, 0, 0] S23x1x32x64) (a b : BitVec 32)
    (V : FVec Ideal S23x12x32x64 .bf16) (acc : FVec Ideal S23x384x768 .bf16) : FVec Ideal S23x384x768 .bf16 :=
  Host.scatter scatter_S23x384x768_S2_S23x32x64_012_n_12_0 (fun _ b => b) acc (startPair a b)
    (shapeCast S23x32x64 (extractStridedSlice S23x1x32x64 ![0, gi, 0, 0] V hs) shapeCasts_S23x1x32x64_S23x32x64)

/-- The block-diagonal weight array: the twelve steps, block 0 first, from the zeros. -/
def wbd (W1 : FVec Ideal S276x32x64 .f32) : S23x384x768.Idx → EReal :=
  blockStep 11 slices_S23x12x32x64_S23x1x32x64_0_11_0_0 352#32 704#32 (relaid W1) <|
  blockStep 10 slices_S23x12x32x64_S23x1x32x64_0_10_0_0 320#32 640#32 (relaid W1) <|
  blockStep 9 slices_S23x12x32x64_S23x1x32x64_0_9_0_0 288#32 576#32 (relaid W1) <|
  blockStep 8 slices_S23x12x32x64_S23x1x32x64_0_8_0_0 256#32 512#32 (relaid W1) <|
  blockStep 7 slices_S23x12x32x64_S23x1x32x64_0_7_0_0 224#32 448#32 (relaid W1) <|
  blockStep 6 slices_S23x12x32x64_S23x1x32x64_0_6_0_0 192#32 384#32 (relaid W1) <|
  blockStep 5 slices_S23x12x32x64_S23x1x32x64_0_5_0_0 160#32 320#32 (relaid W1) <|
  blockStep 4 slices_S23x12x32x64_S23x1x32x64_0_4_0_0 128#32 256#32 (relaid W1) <|
  blockStep 3 slices_S23x12x32x64_S23x1x32x64_0_3_0_0 96#32 192#32 (relaid W1) <|
  blockStep 2 slices_S23x12x32x64_S23x1x32x64_0_2_0_0 64#32 128#32 (relaid W1) <|
  blockStep 1 slices_S23x12x32x64_S23x1x32x64_0_1_0_0 32#32 64#32 (relaid W1) <|
  blockStep 0 slices_S23x12x32x64_S23x1x32x64_0_0_0_0 0#32 0#32 (relaid W1) zeros

end Cert.Mlp

end
-- ==== Proof.HostPrefixW.lean ====
/-
  The block-diagonal weight array the pallas_call reads is the term `wbd` of the first-layer weights.

  The host code changes the weights' format, re-lays them by group, makes an array of zeros and writes, for each of
  the 12 positions inside a group in turn, the slice of that position's matrices over the running array: a hundred of the
  host operations. Read at the buffer the call is given, the fold of the operations is literally those twelve steps
  from the zeros, which is how `wbd` is written.
-/
import proofs.«167772_j31679678775363_2_alg».proof.Proof.Gen.KernelIdeal.Frame
import proofs.«167772_j31679678775363_2_alg».proof.Proof.BlockDiagTerm
import Idealize.ShloMosaic.Lib.StableHlo.Run

noncomputable section

namespace Cert.KernelIdeal.HostValue

open Idealize.ShloMosaic Idealize.ShloMosaic.TcCoe Idealize.SL.Sem Cert.KernelIdeal Cert.KernelIdeal.Gen Cert.Mlp

variable (m : (ℓ : Loc nD τ sig) → Buf (Elt Ideal) ℓ) (c : Dev nD)

-- a fold over 144 operations recurses once per operation
set_option maxRecDepth 8000 in
set_option maxHeartbeats 40000000 in
/-- The block matrices the call reads are `wbd` of the first-layer weights: every operation's result at its own buffer
    is its function of its operands' contents, and the twelve scatters compose in the order `wbd` lists them. -/
theorem V_v104_eq : (V m c main_v104 : S23x384x768.Idx → EReal) = wbd (m ((c : Thread nD τ).loc main_arg4)) := by
  show StableHlo.after hostOps0 (fun b => m (c, b)) (Proc.devRef .tc main_v104) = _
  simp only [Gen.hostOps0]
  after_results_simp
  rfl

end Cert.KernelIdeal.HostValue

end
-- ==== Proof.LibScatterOnce.lean ====
/-
  A scatter read at one index of its result.

  The host's scatter folds a step over the update indices in row-major order: the step of update `j` replaces the
  entry at `j`'s result index (when that index is inside the operand) by the body applied to the entry and the
  update's value, and leaves every other entry alone. So the entry at an index `i` of the result depends only on the
  updates that land on `i`:

  * when no update lands on `i`, the entry is the operand's (`scatter_apply_of_miss`);
  * when exactly one update `j₀` lands on `i`, the entry is the body applied to the operand's entry and
    `j₀`'s value (`scatter_apply_of_once`) — whatever the body, and whatever the order of the updates.

  Both are instances of one fact about a left fold of functions (`foldl_apply_of_miss`, `foldl_apply_of_once`): a
  step that does not touch the entry at `i` can be dropped from the fold when the fold is read at `i`.
-/
import Idealize.ShloMosaic.PureOps

namespace Cert.ScatterOnce

open Idealize.ShloMosaic

/-! ## A left fold of functions, read at one argument -/

section Fold

variable {ι κ α : Type}

/-- If no step of the list changes the value at `i`, the fold read at `i` is the start read at `i`. -/
theorem foldl_apply_of_miss (step : (ι → α) → κ → (ι → α)) (i : ι) :
    ∀ (L : List κ) (r : ι → α), (∀ (r : ι → α) (n : κ), n ∈ L → step r n i = r i) → L.foldl step r i = r i
  | [], _, _ => rfl
  | a :: L, r, h => by
    rw [List.foldl_cons, foldl_apply_of_miss step i L (step r a) fun r n hn => h r n (List.mem_cons_of_mem a hn)]
    exact h r a List.mem_cons_self

/-- If one member `n₀` of a list without repeats changes the value at `i` by `F`, and no other member changes it, the
    fold read at `i` is `F` of the start read at `i`. -/
theorem foldl_apply_of_once (step : (ι → α) → κ → (ι → α)) (i : ι) (n₀ : κ) (F : α → α)
    (hhit : ∀ r : ι → α, step r n₀ i = F (r i)) :
    ∀ (L : List κ) (r : ι → α), L.Nodup → n₀ ∈ L →
      (∀ (r : ι → α) (n : κ), n ∈ L → n ≠ n₀ → step r n i = r i) → L.foldl step r i = F (r i)
  | [], _, _, hm, _ => absurd hm List.not_mem_nil
  | a :: L, r, hnd, hm, hother => by
    rw [List.foldl_cons]
    rw [List.nodup_cons] at hnd
    by_cases ha : a = n₀
    · subst ha
      rw [foldl_apply_of_miss step i L (step r a) fun r n hn =>
        hother r n (List.mem_cons_of_mem a hn) fun e => hnd.1 (e ▸ hn)]
      exact hhit r
    · have hm' : n₀ ∈ L := by
        rcases List.mem_cons.1 hm with e | e
        · exact absurd e.symm ha
        · exact e
      rw [foldl_apply_of_once step i n₀ F hhit L (step r a) hnd.2 hm' fun r n hn =>
        hother r n (List.mem_cons_of_mem a hn)]
      exact congrArg F (hother r a List.mem_cons_self ha)

end Fold

/-! ## The host's scatter -/

section Scatter

variable {α : Type} {s si u : Shape} {w : Nat}

/-- An index of the result that no update lands on keeps the operand's entry. -/
theorem scatter_apply_of_miss (d : ScatterDims s si u) (f : α → α → α) (x : s.Idx → α) (idx : IVec si w)
    (upd : u.Idx → α) (i : s.Idx) (hmiss : ∀ j : u.Idx, d.resultIdx? j idx ≠ some i) :
    Host.scatter d f x idx upd i = x i := by
  unfold Host.scatter
  refine foldl_apply_of_miss _ i _ x fun r n _ => ?_
  show (match d.resultIdx? (u.rowMajor.symm n) idx with
    | some i₀ => fun i' => if i' = i₀ then f (r i₀) (upd (u.rowMajor.symm n)) else r i'
    | none => r) i = r i
  generalize h : d.resultIdx? (u.rowMajor.symm n) idx = o
  cases o with
  | none => rfl
  | some i₀ =>
    have hne : i ≠ i₀ := fun e => hmiss _ (e ▸ h)
    exact if_neg hne

/-- An index of the result that exactly one update `j₀` lands on holds the body applied to the operand's entry and
    that update's value. -/
theorem scatter_apply_of_once (d : ScatterDims s si u) (f : α → α → α) (x : s.Idx → α) (idx : IVec si w)
    (upd : u.Idx → α) (i : s.Idx) (j₀ : u.Idx) (h₀ : d.resultIdx? j₀ idx = some i)
    (honce : ∀ j : u.Idx, d.resultIdx? j idx = some i → j = j₀) :
    Host.scatter d f x idx upd i = f (x i) (upd j₀) := by
  unfold Host.scatter
  refine foldl_apply_of_once _ i (u.rowMajor j₀) (fun a => f a (upd j₀)) (fun r => ?_) _ x
    (List.nodup_finRange _) (List.mem_finRange _) fun r n _ hn => ?_
  · show (match d.resultIdx? (u.rowMajor.symm (u.rowMajor j₀)) idx with
      | some i₀ => fun i' => if i' = i₀ then f (r i₀) (upd (u.rowMajor.symm (u.rowMajor j₀))) else r i'
      | none => r) i = f (r i) (upd j₀)
    rw [Equiv.symm_apply_apply, h₀]
    exact if_pos rfl
  · show (match d.resultIdx? (u.rowMajor.symm n) idx with
      | some i₀ => fun i' => if i' = i₀ then f (r i₀) (upd (u.rowMajor.symm n)) else r i'
      | none => r) i = r i
    generalize h : d.resultIdx? (u.rowMajor.symm n) idx = o
    cases o with
    | none => rfl
    | some i₀ =>
      have hne : i ≠ i₀ := fun e => hn (by
        have := honce _ (e ▸ h)
        rw [← this, Equiv.apply_symm_apply])
      exact if_neg hne

end Scatter

end Cert.ScatterOnce
-- ==== Proof.BlockDiagStep.lean ====
/-
  One scatter step of the block-diagonal weight array, read at one position.

  Step `t` of the twelve writes a 23 × 32 × 64 update into the 23 × 384 × 768 running array as ONE window whose
  start on the row and column axes is the pair (32 t, 64 t) and whose extent is the whole update. Update element
  (g, k, h) therefore lands on position (g, 32 t + k, 64 t + h) (`sd_resultIdx`): that is read off the scatter's
  dimension numbers, axis by axis — the start is 0 on the group axis and the start pair's entries on the other two,
  and the position inside the window is the update element's own coordinate.

  The map (g, k, h) ↦ (g, 32 t + k, 64 t + h) is one-to-one, and its image is block (t, t) of every group: rows
  32 t, …, 32 t + 31 against columns 64 t, …, 64 t + 63. So a position inside that block receives exactly one update
  element and holds it afterwards (`blockStep_hit`), and a position outside receives none and keeps what it held
  (`blockStep_miss`). Written with positions given as (block, offset) on both axes, the step writes at row block
  `gi`, column block `gj` exactly when `gi = gj = t` (`blockStep_block`).

  The update of step `t` is the slice at `t` of the re-laid weights with the unit axis dropped; at (g, k, h) it is
  the re-laid weights' entry (g, t, k, h) (`sliceAt`).
-/
import proofs.«167772_j31679678775363_2_alg».proof.Proof.BlockDiagTerm
import proofs.«167772_j31679678775363_2_alg».proof.Proof.Idx
import proofs.«167772_j31679678775363_2_alg».proof.Proof.LibScatterOnce
import Idealize.ShloMosaic.Lib.ValueIdx
import Idealize.ShloMosaic.Lib.Pipeline.Value

noncomputable section

namespace Cert.Mlp

open Idealize.ShloMosaic Idealize.ShloMosaic.ValueIdx Cert.KernelIdeal Cert.KernelIdeal.Facts₀ Cert.KernelIdeal.Facts

/-! ## The start of the window -/

/-- The first entry of the start pair. -/
theorem startPair_zero (a b : BitVec 32) : startPair a b (ix1 (0 : Fin 2)) = a := rfl
/-- The second entry of the start pair. -/
theorem startPair_one (a b : BitVec 32) : startPair a b (ix1 (1 : Fin 2)) = b := rfl

/-! ## Where one update element lands -/

/-- The scatter's dimension numbers: the update's three axes are window axes, none of the operand's axes is inserted,
    and the two entries of the start vector are the starts on the operand's axes 1 and 2. -/
abbrev sd := scatter_S23x384x768_S2_S23x32x64_012_n_12_0

/-- On the group axis the window starts at 0: that axis is not one the start vector names. -/
theorem sd_start_zero (j : S23x32x64.Idx) (ix : IVec S2 32) : sd.start j ix (0 : Fin 3) = 0 := rfl

/-- On the row axis the window starts at the start vector's first entry, read signed. -/
theorem sd_start_one (j : S23x32x64.Idx) (ix : IVec S2 32) :
    sd.start j ix (1 : Fin 3) = (ix (ix1 (0 : Fin 2))).toInt := by
  unfold ScatterDims.start
  rw [dif_pos (by decide)]
  refine congrArg (fun i => (ix i).toInt) (funext fun b => ?_)
  match b with | ⟨0, _⟩ => rfl

/-- On the column axis the window starts at the start vector's second entry, read signed. -/
theorem sd_start_two (j : S23x32x64.Idx) (ix : IVec S2 32) :
    sd.start j ix (2 : Fin 3) = (ix (ix1 (1 : Fin 2))).toInt := by
  unfold ScatterDims.start
  rw [dif_pos (by decide)]
  refine congrArg (fun i => (ix i).toInt) (funext fun b => ?_)
  match b with | ⟨0, _⟩ => rfl

/-- Inside the window the position on every axis is the update index's coordinate on that axis. -/
theorem sd_window (j : S23x32x64.Idx) (a : Fin 3) : sd.window j a = (j a).val := by
  match a with
  | ⟨0, _⟩ => rfl
  | ⟨1, _⟩ => rfl
  | ⟨2, _⟩ => rfl

/-- Where an update element lands: when the start vector's entries read signed are `A` and `B`, and the 32 × 64
    window at (`A`, `B`) lies inside the 384 × 768 matrix, update element (g, k, h) lands on (g, A + k, B + h). -/
theorem sd_resultIdx (ix : IVec S2 32) (A B : ℕ) (hA : (ix (ix1 (0 : Fin 2))).toInt = (A : ℤ))
    (hB : (ix (ix1 (1 : Fin 2))).toInt = (B : ℤ)) (hA32 : A + 32 ≤ 384) (hB64 : B + 64 ≤ 768)
    (g : Fin 23) (k : Fin 32) (h : Fin 64) :
    sd.resultIdx? (ix3 g k h) ix
      = some (ix3 g (⟨A + k.val, by have := k.isLt; omega⟩ : Fin 384) (⟨B + h.val, by have := h.isLt; omega⟩ : Fin 768)) := by
  have hk := k.isLt
  have hh := h.isLt
  have hg := g.isLt
  -- start plus window position, axis by axis
  have p0 : sd.start (ix3 g k h) ix (0 : Fin 3) + sd.window (ix3 g k h) (0 : Fin 3) = (g.val : ℤ) := by
    rw [sd_start_zero, sd_window]; exact zero_add _
  have p1 : sd.start (ix3 g k h) ix (1 : Fin 3) + sd.window (ix3 g k h) (1 : Fin 3) = ((A + k.val : ℕ) : ℤ) := by
    rw [sd_start_one, sd_window, hA]; exact (Nat.cast_add A k.val).symm
  have p2 : sd.start (ix3 g k h) ix (2 : Fin 3) + sd.window (ix3 g k h) (2 : Fin 3) = ((B + h.val : ℕ) : ℤ) := by
    rw [sd_start_two, sd_window, hB]; exact (Nat.cast_add B h.val).symm
  -- the landing position is inside the matrix on every axis
  have H : ∀ a : Fin 3, 0 ≤ sd.start (ix3 g k h) ix a + sd.window (ix3 g k h) a
      ∧ sd.start (ix3 g k h) ix a + sd.window (ix3 g k h) a < S23x384x768.size a := by
    intro a
    match a with
    | ⟨0, _⟩ =>
      show 0 ≤ sd.start (ix3 g k h) ix (0 : Fin 3) + sd.window (ix3 g k h) (0 : Fin 3)
        ∧ sd.start (ix3 g k h) ix (0 : Fin 3) + sd.window (ix3 g k h) (0 : Fin 3) < ((23 : ℕ) : ℤ)
      rw [p0]; omega
    | ⟨1, _⟩ =>
      show 0 ≤ sd.start (ix3 g k h) ix (1 : Fin 3) + sd.window (ix3 g k h) (1 : Fin 3)
        ∧ sd.start (ix3 g k h) ix (1 : Fin 3) + sd.window (ix3 g k h) (1 : Fin 3) < ((384 : ℕ) : ℤ)
      rw [p1]; omega
    | ⟨2, _⟩ =>
      show 0 ≤ sd.start (ix3 g k h) ix (2 : Fin 3) + sd.window (ix3 g k h) (2 : Fin 3)
        ∧ sd.start (ix3 g k h) ix (2 : Fin 3) + sd.window (ix3 g k h) (2 : Fin 3) < ((768 : ℕ) : ℤ)
      rw [p2]; omega
  unfold ScatterDims.resultIdx?
  rw [dif_pos H]
  refine congrArg some (funext fun a => Fin.ext ?_)
  match a with
  | ⟨0, _⟩ =>
    show (sd.start (ix3 g k h) ix (0 : Fin 3) + sd.window (ix3 g k h) (0 : Fin 3)).toNat = g.val
    rw [p0]; exact Int.toNat_natCast _
  | ⟨1, _⟩ =>
    show (sd.start (ix3 g k h) ix (1 : Fin 3) + sd.window (ix3 g k h) (1 : Fin 3)).toNat = A + k.val
    rw [p1]; exact Int.toNat_natCast _
  | ⟨2, _⟩ =>
    show (sd.start (ix3 g k h) ix (2 : Fin 3) + sd.window (ix3 g k h) (2 : Fin 3)).toNat = B + h.val
    rw [p2]; exact Int.toNat_natCast _

/-! ## What one step writes, and where -/

/-- The update of step `t`: the slice of the re-laid weights at position `t` of the second axis, with that axis
    dropped, read at (g, k, h), is the re-laid weights' entry (g, t, k, h). -/
theorem sliceAt (t : ℕ) (ht : t < 12) (hs : S23x12x32x64.Slices ![0, t, 0, 0] S23x1x32x64)
    (V : FVec Ideal S23x12x32x64 .bf16) (g : Fin 23) (k : Fin 32) (h : Fin 64) :
    shapeCast S23x32x64 (extractStridedSlice S23x1x32x64 ![0, t, 0, 0] V hs) shapeCasts_S23x1x32x64_S23x32x64 (ix3 g k h)
      = V (ix4 g (⟨t, ht⟩ : Fin 12) k h) := by
  -- dropping the unit axis: (g, k, h) of the 23 × 32 × 64 array is (g, 0, k, h) of the 23 × 1 × 32 × 64 one
  refine (shapeCast_apply _ _ (ix3 g k h) (ix4 g (0 : Fin 1) k h) ?_).trans ?_
  · rw [Shape.rowMajor_val_four, Shape.rowMajor_val_three]
    show ((g.val * 1 + 0) * 32 + k.val) * 64 + h.val = (g.val * 32 + k.val) * 64 + h.val
    rw [Nat.mul_one, Nat.add_zero]
  -- the slice starts at (0, t, 0, 0)
  · refine extractStridedSlice_apply _ V hs _ (ix4 g (⟨t, ht⟩ : Fin 12) k h) fun a => ?_
    match a with
    | ⟨0, _⟩ => exact (Nat.zero_add _).symm
    | ⟨1, _⟩ => rfl
    | ⟨2, _⟩ => exact (Nat.zero_add _).symm
    | ⟨3, _⟩ => exact (Nat.zero_add _).symm

/-- Step `t` read inside its own block: position (32 t + k, 64 t + h) of group g holds the re-laid weights' entry
    (g, t, k, h) afterwards, whatever the running array held. Exactly one update element lands there, (g, k, h). -/
theorem blockStep_hit (t : ℕ) (ht : t < 12) (hs : S23x12x32x64.Slices ![0, t, 0, 0] S23x1x32x64) (a b : BitVec 32)
    (ha : a.toInt = ((32 * t : ℕ) : ℤ)) (hb : b.toInt = ((64 * t : ℕ) : ℤ))
    (V : FVec Ideal S23x12x32x64 .bf16) (acc : FVec Ideal S23x384x768 .bf16) (g : Fin 23) (k : Fin 32) (h : Fin 64) :
    blockStep t hs a b V acc
        (ix3 g (⟨32 * t + k.val, by have := k.isLt; omega⟩ : Fin 384) (⟨64 * t + h.val, by have := h.isLt; omega⟩ : Fin 768))
      = V (ix4 g (⟨t, ht⟩ : Fin 12) k h) := by
  have land := sd_resultIdx (startPair a b) (32 * t) (64 * t) ha hb (by omega) (by omega)
  unfold blockStep
  refine (Cert.ScatterOnce.scatter_apply_of_once sd _ acc (startPair a b) _ _ (ix3 g k h) (land g k h) ?_).trans
    (sliceAt t ht hs V g k h)
  -- an update element that lands on the same position is the same element
  intro j hj
  obtain ⟨g', k', h', rfl⟩ : ∃ (g' : Fin 23) (k' : Fin 32) (h' : Fin 64), j = ix3 g' k' h' := ⟨j 0, j 1, j 2, eq_ix3 j⟩
  rw [land g' k' h'] at hj
  have e := Option.some.inj hj
  have e0 : g'.val = g.val := congrArg Fin.val (congrFun e (0 : Fin 3))
  have e1 : 32 * t + k'.val = 32 * t + k.val := congrArg Fin.val (congrFun e (1 : Fin 3))
  have e2 : 64 * t + h'.val = 64 * t + h.val := congrArg Fin.val (congrFun e (2 : Fin 3))
  have ek : k' = k := Fin.ext (by omega)
  have eh : h' = h := Fin.ext (by omega)
  rw [Fin.ext e0, ek, eh]

/-- Step `t` read outside its own block: a position whose row is not among the block's 32 rows, or whose column is not
    among its 64 columns, keeps what the running array held. No update element lands there. -/
theorem blockStep_miss (t : ℕ) (ht : t < 12) (hs : S23x12x32x64.Slices ![0, t, 0, 0] S23x1x32x64) (a b : BitVec 32)
    (ha : a.toInt = ((32 * t : ℕ) : ℤ)) (hb : b.toInt = ((64 * t : ℕ) : ℤ))
    (V : FVec Ideal S23x12x32x64 .bf16) (acc : FVec Ideal S23x384x768 .bf16) (g : Fin 23) (r : Fin 384) (c : Fin 768)
    (hout : ¬(32 * t ≤ r.val ∧ r.val < 32 * t + 32 ∧ 64 * t ≤ c.val ∧ c.val < 64 * t + 64)) :
    blockStep t hs a b V acc (ix3 g r c) = acc (ix3 g r c) := by
  have land := sd_resultIdx (startPair a b) (32 * t) (64 * t) ha hb (by omega) (by omega)
  unfold blockStep
  refine Cert.ScatterOnce.scatter_apply_of_miss sd _ acc (startPair a b) _ (ix3 g r c) fun j hj => hout ?_
  obtain ⟨g', k', h', rfl⟩ : ∃ (g' : Fin 23) (k' : Fin 32) (h' : Fin 64), j = ix3 g' k' h' := ⟨j 0, j 1, j 2, eq_ix3 j⟩
  rw [land g' k' h'] at hj
  have e := Option.some.inj hj
  have e1 : 32 * t + k'.val = r.val := congrArg Fin.val (congrFun e (1 : Fin 3))
  have e2 : 64 * t + h'.val = c.val := congrArg Fin.val (congrFun e (2 : Fin 3))
  have := k'.isLt
  have := h'.isLt
  omega

/-- Step `t` read at a position given by blocks: row `k` of row block `gi`, column `h` of column block `gj`. The step
    writes there exactly when both blocks are `t`, and then it writes the re-laid weights' entry (g, gi, k, h). -/
theorem blockStep_block (t : ℕ) (ht : t < 12) (hs : S23x12x32x64.Slices ![0, t, 0, 0] S23x1x32x64) (a b : BitVec 32)
    (ha : a.toInt = ((32 * t : ℕ) : ℤ)) (hb : b.toInt = ((64 * t : ℕ) : ℤ))
    (V : FVec Ideal S23x12x32x64 .bf16) (acc : FVec Ideal S23x384x768 .bf16)
    (g : Fin 23) (gi gj : Fin 12) (k : Fin 32) (h : Fin 64) :
    blockStep t hs a b V acc (ix3 g (j384 gi k) (j768 gj h))
      = if gi.val = t ∧ gj.val = t then V (ix4 g gi k h) else acc (ix3 g (j384 gi k) (j768 gj h)) := by
  by_cases hc : gi.val = t ∧ gj.val = t
  · rw [if_pos hc]
    have e1 : gi = ⟨t, ht⟩ := Fin.ext hc.1
    have e2 : gj = ⟨t, ht⟩ := Fin.ext hc.2
    rw [e1, e2]
    exact blockStep_hit t ht hs a b ha hb V acc g k h
  · rw [if_neg hc]
    refine blockStep_miss t ht hs a b ha hb V acc g _ _ fun hin => hc ?_
    rw [j384_val, j768_val] at hin
    have := k.isLt
    have := h.isLt
    constructor <;> omega

end Cert.Mlp

end
-- ==== Proof.BlockDiag.lean ====
/-
  The block-diagonal weight array, read at a position.

  Positions on the 384-axis are (row block `gi`, row `k`), on the 768-axis (column block `gj`, column `h`). Each of the
  twelve steps writes only inside its own diagonal block and leaves every other position alone (BlockDiagStep.lean),
  so reading the finished array at a position amounts to asking the steps, the last one first, whether the position is
  theirs (`wbd_chain`). On the diagonal (`gi = gj`) the step of that block says yes and gives the weight (k, h) of
  pair 12 g + gi (`wbd_diag`); off the diagonal no step does, and the entry is the 0 the array started from
  (`wbd_off`).
-/
import proofs.«167772_j31679678775363_2_alg».proof.Proof.BlockDiagStep

noncomputable section

namespace Cert.Mlp

open Idealize.ShloMosaic Idealize.ShloMosaic.ValueIdx Cert.KernelIdeal Cert.KernelIdeal.Facts₀ Cert.KernelIdeal.Facts
/-! ## The re-laid weights and the zero start -/

/-- The re-laid weights: entry (g, gi, k, h) is the weight (k, h) of pair 12 g + gi. Both arrays hold the same elements
    in row-major order, and the two positions are the same number: ((12 g + gi) · 32 + k) · 64 + h. -/
theorem relaidAt (W1 : FVec Ideal S276x32x64 .f32) (g : Fin 23) (gi : Fin 12) (k : Fin 32) (h : Fin 64) :
    relaid W1 (ix4 g gi k h) = W1 (ix3 (j276 g gi) k h) := by
  unfold relaid
  refine (shapeCast_apply _ _ (ix4 g gi k h) (ix3 (j276 g gi) k h) ?_).trans (truncf_apply _ _ _)
  rw [Shape.rowMajor_val_three, Shape.rowMajor_val_four]
  show ((12 * g.val + gi.val) * 32 + k.val) * 64 + h.val = ((g.val * 12 + gi.val) * 32 + k.val) * 64 + h.val
  rw [Nat.mul_comm 12 g.val]

/-- The start array is zero everywhere: the pattern of sixteen zero bits denotes the number 0. -/
theorem zeros_apply (i : S23x384x768.Idx) : zeros i = 0 := by
  show Ideal.ofBits .bf16 0x0000#16 = 0
  simp [Ideal.ofBits, Ideal.ieee]

/-! ## The twelve steps together -/

/-- The array read at row `k` of row block `gi`, column `h` of column block `gj`: each step, the last one first, either
    is the one of this block (both block numbers are the step's) and wrote the re-laid weights' entry, or left the
    position to the steps before it; under all twelve lies the zero start. -/
theorem wbd_chain (W1 : FVec Ideal S276x32x64 .f32) (g : Fin 23) (gi gj : Fin 12) (k : Fin 32) (h : Fin 64) :
    wbd W1 (ix3 g (j384 gi k) (j768 gj h)) =
      if gi.val = 11 ∧ gj.val = 11 then relaid W1 (ix4 g gi k h)
      else if gi.val = 10 ∧ gj.val = 10 then relaid W1 (ix4 g gi k h)
      else if gi.val = 9 ∧ gj.val = 9 then relaid W1 (ix4 g gi k h)
      else if gi.val = 8 ∧ gj.val = 8 then relaid W1 (ix4 g gi k h)
      else if gi.val = 7 ∧ gj.val = 7 then relaid W1 (ix4 g gi k h)
      else if gi.val = 6 ∧ gj.val = 6 then relaid W1 (ix4 g gi k h)
      else if gi.val = 5 ∧ gj.val = 5 then relaid W1 (ix4 g gi k h)
      else if gi.val = 4 ∧ gj.val = 4 then relaid W1 (ix4 g gi k h)
      else if gi.val = 3 ∧ gj.val = 3 then relaid W1 (ix4 g gi k h)
      else if gi.val = 2 ∧ gj.val = 2 then relaid W1 (ix4 g gi k h)
      else if gi.val = 1 ∧ gj.val = 1 then relaid W1 (ix4 g gi k h)
      else if gi.val = 0 ∧ gj.val = 0 then relaid W1 (ix4 g gi k h)
      else 0 := by
  unfold wbd
  rw [blockStep_block 11 (by decide) _ _ _ (by decide) (by decide),
    blockStep_block 10 (by decide) _ _ _ (by decide) (by decide),
    blockStep_block 9 (by decide) _ _ _ (by decide) (by decide),
    blockStep_block 8 (by decide) _ _ _ (by decide) (by decide),
    blockStep_block 7 (by decide) _ _ _ (by decide) (by decide),
    blockStep_block 6 (by decide) _ _ _ (by decide) (by decide),
    blockStep_block 5 (by decide) _ _ _ (by decide) (by decide),
    blockStep_block 4 (by decide) _ _ _ (by decide) (by decide),
    blockStep_block 3 (by decide) _ _ _ (by decide) (by decide),
    blockStep_block 2 (by decide) _ _ _ (by decide) (by decide),
    blockStep_block 1 (by decide) _ _ _ (by decide) (by decide),
    blockStep_block 0 (by decide) _ _ _ (by decide) (by decide),
    zeros_apply]

/-- One test of the chain on the diagonal, for a block number `n` known to be at most `t`: the test `n = t` gives `x`
    when it succeeds, and when it fails `n` is below `t`, which is what the tests after it may assume. -/
theorem ite_diag {α : Type} (n t : ℕ) (x y : α) (hn : n < t + 1) (hy : n < t → y = x) :
    (if n = t ∧ n = t then x else y) = x := by
  by_cases hc : n = t
  · exact if_pos ⟨hc, hc⟩
  · rw [if_neg fun c => hc c.1]
    exact hy (by omega)

/-- On the diagonal: row `k` of block `gi` against column `h` of the same block holds the weight (k, h) of pair
    12 g + gi. Every step's test, when it succeeds, gives that same entry. The block number is below 12; if the test
    for 11 fails it is below 11, and so on down: the twelve tests cannot all fail, for the block number is not below 0. -/
theorem wbd_diag (W1 : FVec Ideal S276x32x64 .f32) (g : Fin 23) (gi : Fin 12) (k : Fin 32) (h : Fin 64) :
    wbd W1 (ix3 g (j384 gi k) (j768 gi h)) = W1 (ix3 (j276 g gi) k h) := by
  refine ((wbd_chain W1 g gi gi k h).trans ?_).trans (relaidAt W1 g gi k h)
  refine ite_diag _ 11 _ _ gi.isLt fun h11 => ?_
  refine ite_diag _ 10 _ _ h11 fun h10 => ?_
  refine ite_diag _ 9 _ _ h10 fun h9 => ?_
  refine ite_diag _ 8 _ _ h9 fun h8 => ?_
  refine ite_diag _ 7 _ _ h8 fun h7 => ?_
  refine ite_diag _ 6 _ _ h7 fun h6 => ?_
  refine ite_diag _ 5 _ _ h6 fun h5 => ?_
  refine ite_diag _ 4 _ _ h5 fun h4 => ?_
  refine ite_diag _ 3 _ _ h4 fun h3 => ?_
  refine ite_diag _ 2 _ _ h3 fun h2 => ?_
  refine ite_diag _ 1 _ _ h2 fun h1 => ?_
  refine ite_diag _ 0 _ _ h1 fun h0 => ?_
  exact absurd h0 (Nat.not_lt_zero _)

/-- Off the diagonal: a row of block `gi` against a column of another block `gj` holds 0. A step writes only where
    the row block and the column block are both its own, so no test succeeds and the zero start remains. -/
theorem wbd_off (W1 : FVec Ideal S276x32x64 .f32) (g : Fin 23) (gi gj : Fin 12) (k : Fin 32) (h : Fin 64) (hne : gi ≠ gj) :
    wbd W1 (ix3 g (j384 gi k) (j768 gj h)) = 0 := by
  have no : ∀ t : ℕ, ¬(gi.val = t ∧ gj.val = t) := fun t c => hne (Fin.ext (c.1.trans c.2.symm))
  rw [wbd_chain, if_neg (no 11), if_neg (no 10), if_neg (no 9), if_neg (no 8), if_neg (no 7), if_neg (no 6), if_neg (no 5), if_neg (no 4), if_neg (no 3), if_neg (no 2), if_neg (no 1), if_neg (no 0)]

end Cert.Mlp

end
-- ==== Proof.KernelRun.lean ====
/-
  The kernel program's run, read: its result is the shared specification.

  The host code before the call prepares, from the arguments, the linear term `lin`, the grouped pair rows of `prods`,
  the block-diagonal form of `W1` and the grouped rows of `b1` and `W2`; the call sums the pairs' contributions over
  its 92 grid steps (`total`, which is `pairSum`); the host code after the call adds the linear term, the total of the
  output biases and the scalar bias and applies the logistic function. Row by row that is
  `(lin + pairSum) + biasSum`, the specification's `lin + (pairSum + biasSum)` re-associated — no other law is used,
  so nothing here needs the inputs to be finite.
-/
import proofs.«167772_j31679678775363_2_alg».proof.Proof.KernelValue
import proofs.«167772_j31679678775363_2_alg».proof.Proof.KernelTail
import proofs.«167772_j31679678775363_2_alg».proof.Proof.HostPrefix
import proofs.«167772_j31679678775363_2_alg».proof.Proof.HostPrefixW
import proofs.«167772_j31679678775363_2_alg».proof.Proof.BlockDiag

noncomputable section

open Idealize.ShloMosaic Idealize.ShloMosaic.TcCoe Idealize.ShloMosaic.ValueIdx Idealize.SL.Sem
open Idealize.ShloMosaic.Pipeline (Dat)

namespace Cert.KernelIdeal.Value

open Cert.KernelIdeal Cert.KernelIdeal.Gen Cert.Mlp

variable (m : (ℓ : Loc nD τ sig) → Buf (Elt Ideal) ℓ) (ρ : Dev nD → PrngReg)

/-- Row `b` of the call's result array is the sum over all pairs of their contributions to batch row `b`. -/
theorem call_result (c : Dev nD) (b : Fin 8192) :
    ((dats (F := Ideal) m 0 c).arrAt 4 cfg0.N : S8192.Idx → EReal) (ix1 b)
      = pairSum (prods (m ((c : Thread nD τ).loc main_arg0)) (m ((c : Thread nD τ).loc main_arg2)))
          (m ((c : Thread nD τ).loc main_arg4)) (m ((c : Thread nD τ).loc main_arg5)) (m ((c : Thread nD τ).loc main_arg6)) b :=
  (congrFun (StepValue.final m c) (ix1 b)).trans
    (StepValue.total_eq_of m c _ _ _ _
      (fun g b gi k => HostValue.V_v29_apply m c g b gi k)
      (fun g gi k h => (congrFun (HostValue.V_v104_eq m c) _).trans (wbd_diag _ g gi k h))
      (fun g gi gj k h hne => (congrFun (HostValue.V_v104_eq m c) _).trans (wbd_off _ g gi gj k h hne))
      (fun g gi h => HostValue.V_v105_apply m c g gi h)
      (fun g gi h => HostValue.V_v107_apply m c g gi h) b)

/-- What the program returns, as the host operations after the call leave it: the shared specification. -/
theorem result_eq (c : Dev nD) :
    Pipeline.afterTail₀ cfgs (dats (F := Ideal) m) 0 (V0 m) [hostOps1] c main_v121
      = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  refine (TailValue.tail_eq_of m c (lin (m ((c : Thread nD τ).loc main_arg0)) (m ((c : Thread nD τ).loc main_arg1)))
    (fun j => pairSum (prods (m ((c : Thread nD τ).loc main_arg0)) (m ((c : Thread nD τ).loc main_arg2)))
      (m ((c : Thread nD τ).loc main_arg4)) (m ((c : Thread nD τ).loc main_arg5)) (m ((c : Thread nD τ).loc main_arg6)) (j 0))
    (HostValue.V_v7 m c) (funext fun j => ?_)).trans ?_
  · obtain ⟨b, rfl⟩ : ∃ b : Fin 8192, j = ix1 b := ⟨j 0, eq_ix1 j⟩
    exact call_result m c b
  · unfold result logits
    exact congrArg (finish · (m ((c : Thread nD τ).loc main_arg3))) (funext fun j => add_assoc _ _ _)

/-- The run, read: every weakly fair execution ends with the result buffer at the specification of the launch
    arguments, and the arguments unchanged. -/
theorem run : θ_run defs (onTc (τ := τ) (main (F := Ideal))) ⟨m, fun _ => 0, ρ⟩ fun r => ∀ c : Dev nD,
      r.2.mem ((c.tc : Thread nD τ).loc main_v121)
          = result (m ((c : Thread nD τ).loc main_arg0)) (m ((c : Thread nD τ).loc main_arg1)) (m ((c : Thread nD τ).loc main_arg2))
              (m ((c : Thread nD τ).loc main_arg3)) (m ((c : Thread nD τ).loc main_arg4)) (m ((c : Thread nD τ).loc main_arg5))
              (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    ⟨((h c).2 main_v121 (Pipeline.mem_restRefs_of main_v121 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.KernelIdeal.Value

end
-- ==== Proof.RefTerm.lean ====
/-
  The reference program's result as one term over its arguments.

  The reference is a straight line of host operations; composing them, each with the program's own operands in
  the program's own order, gives one term in the argument buffers. It is written here in small named pieces:

    rowIdx, lin, emb   the field ids wrapped by the tables' length, the linear table's 24 entries summed,
                       the looked-up factor rows;
    wrap, pick, prods  the two lists of 276 field numbers (wrapped by 24 at run time, which changes none of them),
                       the rows they name, and the two laid side by side: one 32-wide row per pair;
    hidden, outs       per pair, the hidden layer (a batched product with the pair's 32 × 64 weights, its bias,
                       relu) and the output layer (a batched product with the pair's 64 × 1 weights, its bias);
    pairTotal          the sum of the output layer over the pairs;
    refTerm            linear term + pair total + scalar bias, through the logistic function 1 / (1 + exp (-z)).
-/
import proofs.«167772_j31679678775363_2_alg».proof.Proof.Gen.ReferenceIdeal
import Idealize.ShloMosaic.PureOps.Ideal

noncomputable section

namespace Cert.ReferenceIdeal.RefTerm

open Idealize.ShloMosaic Cert.ReferenceIdeal Cert.ReferenceIdeal.Facts₀ Cert.ReferenceIdeal.Facts

/-- The field ids as start indices of a row gather: a negative id wrapped by the table's length, one index per row. -/
def rowIdx (inputs : IVec S8192x24 32) : IVec S8192x24x1 32 :=
  broadcastInDim S8192x24x1 ![0, 1] bcast_S8192x24_S8192x24x1_0_1
    (select (cmpi .slt inputs (broadcastInDim S8192x24 ![] bcast_S_S8192x24 (constantI S_ 32 0#32)))
      (addi inputs (broadcastInDim S8192x24 ![] bcast_S_S8192x24 (constantI S_ 32 1000000#32))) inputs)

/-- The linear term: the 24 looked-up entries of the one-column table, summed from zero. -/
def lin (inputs : IVec S8192x24 32) (w : FVec Ideal S1000000x1 .f32) : FVec Ideal S8192 .f32 :=
  Host.reduceAdd (Host.gather gather_S1000000x1_S8192x24x1_S8192x24x1_2_0_n_n_0_2_11 w (rowIdx inputs))
    (constant (F := Ideal) S_ .f32 0x00000000#32) reducesTo_S8192x24x1_S8192_d1_2 h_S_

/-- The looked-up factor rows, [batch, field, 16]. -/
def emb (inputs : IVec S8192x24 32) (v : FVec Ideal S1000000x16 .f32) : FVec Ideal S8192x24x16 .f32 :=
  Host.gather gather_S1000000x16_S8192x24x1_S8192x24x16_2_0_n_n_0_2_116 v (rowIdx inputs)

/-- A list of 276 field numbers with the negative ones wrapped by the number of fields, 24. -/
def wrap (c : IVec S276 32) : IVec S276 32 :=
  select (cmpi .slt c (broadcastInDim S276 ![] bcast_S_S276 (constantI S_ 32 0#32)))
    (addi c (broadcastInDim S276 ![] bcast_S_S276 (constantI S_ 32 24#32))) c

/-- The factor rows of the fields a list of 276 field numbers names, [batch, pair, 16]. -/
def pick (c : IVec S276 32) (xv : FVec Ideal S8192x24x16 .f32) : FVec Ideal S8192x276x16 .f32 :=
  Host.gather gather_S8192x24x16_S276x1_S8192x276x16_02_1_n_n_1_1_8192116 xv
    (broadcastInDim S276x1 ![0] bcast_S276_S276x1_0 (wrap c))

/-- The first fields of the 276 pairs, and the second ones: the program's two literal lists. -/
def firsts : IVec S276 32 := fun i => lit0 (S276.rowMajor i)
def seconds : IVec S276 32 := fun i => lit1 (S276.rowMajor i)

/-- The pairs' rows: for each pair the first field's factors, then the second field's, [batch, pair, 32]. -/
def prods (inputs : IVec S8192x24 32) (v : FVec Ideal S1000000x16 .f32) : FVec Ideal S8192x276x32 .f32 :=
  concatenate S8192x276x32 2 [⟨S8192x276x16, pick firsts (emb inputs v)⟩, ⟨S8192x276x16, pick seconds (emb inputs v)⟩]
    concatenates_S8192x276x16_S8192x276x16_S8192x276x32_d2

/-- The hidden layer of every pair on every batch row, [pair, batch, 64]: the pairs' rows with the pair axis first,
    times the pair's 32 × 64 weights, plus the pair's bias, then relu (the maximum with 0). -/
def hidden (P : FVec Ideal S8192x276x32 .f32) (W1 : FVec Ideal S276x32x64 .f32) (B1 : FVec Ideal S276x64 .f32) :
    FVec Ideal S276x8192x64 .f32 :=
  maximumf
    (addf
      (Host.dotGeneral dot_S276x8192x32_S276x32x64_S276x8192x64_2_1_1_2_0_0 none
        (transpose S276x8192x32 [1, 0, 2] P transposes_S8192x276x32_S276x8192x32_1_0_2) W1)
      (broadcastInDim S276x8192x64 ![0, 1, 2] bcast_S276x1x64_S276x8192x64_0_1_2
        (broadcastInDim S276x1x64 ![0, 2] bcast_S276x64_S276x1x64_0_2 B1)))
    (broadcastInDim S276x8192x64 ![] bcast_S_S276x8192x64 (constant (F := Ideal) S_ .f32 0x00000000#32))

/-- The output layer of every pair on every batch row, [pair, batch, 1]: the hidden layer times the pair's 64 × 1
    weights, plus the pair's output bias. -/
def outs (H : FVec Ideal S276x8192x64 .f32) (W2 : FVec Ideal S276x64x1 .f32) (B2 : FVec Ideal S276x1 .f32) :
    FVec Ideal S276x8192x1 .f32 :=
  addf (Host.dotGeneral dot_S276x8192x64_S276x64x1_S276x8192x1_2_1_1_2_0_0 none H W2)
    (broadcastInDim S276x8192x1 ![0, 1, 2] bcast_S276x1x1_S276x8192x1_0_1_2
      (broadcastInDim S276x1x1 ![0, 2] bcast_S276x1_S276x1x1_0_2 B2))

/-- The output layer summed over the pairs (and its unit axis), from zero: one number per batch row. -/
def pairTotal (O : FVec Ideal S276x8192x1 .f32) : FVec Ideal S8192 .f32 :=
  Host.reduceAdd O (constant (F := Ideal) S_ .f32 0x00000000#32) reducesTo_S276x8192x1_S8192_d0_2 h_S_

/-- The reference's result: linear term plus pair total, plus the scalar bias, through the logistic function
    written as the host writes it, `1 / (1 + exp (-z))`. -/
def refTerm (inputs : IVec S8192x24 32) (w : FVec Ideal S1000000x1 .f32) (v : FVec Ideal S1000000x16 .f32)
    (bias : FVec Ideal S1 .f32) (W1 : FVec Ideal S276x32x64 .f32) (B1 : FVec Ideal S276x64 .f32)
    (W2 : FVec Ideal S276x64x1 .f32) (B2 : FVec Ideal S276x1 .f32) : FVec Ideal S8192 .f32 :=
  Host.divf (F := Ideal) (broadcastInDim S8192 ![] bcast_S_S8192 (constant (F := Ideal) S_ .f32 0x3F800000#32))
    (addf (broadcastInDim S8192 ![] bcast_S_S8192 (constant (F := Ideal) S_ .f32 0x3F800000#32))
      (Host.exp (F := Ideal) (Host.negf (F := Ideal)
        (addf (addf (lin inputs w) (pairTotal (outs (hidden (prods inputs v) W1 B1) W2 B2)))
          (broadcastInDim S8192 ![] bcast_S_S8192 (shapeCast S_ bias shapeCasts_S1_S_))))))

end Cert.ReferenceIdeal.RefTerm

end
-- ==== Proof.RefRun.lean ====
/-
  The reference function's run, read back as mathematics.

  The reference is a straight line of 67 tensor operations (three of them the body of the rectifier it
  calls, run over that call's own buffers): it wraps the ids, looks up a linear weight and a 16-number
  embedding per field, pairs the 24 fields in all 276 ways, sends each pair's 32 numbers through that
  pair's own two-layer perceptron (32 → 64, rectifier, 64 → 1), sums the 276 outputs, adds the linear
  term and a global bias, and applies the logistic function.

  This file lists the operations in program order (`ops`), shows that the program IS that list run in
  order (`main_eq`), and concludes (`run`) that every execution ends with the result buffer holding the
  operations' composed term of the eight argument buffers, the arguments themselves unchanged. What the
  composed term computes, index by index, is a separate matter and is not looked at here.
-/
import proofs.«167772_j31679678775363_2_alg».proof.Proof.Gen.ReferenceIdeal
import proofs.«167772_j31679678775363_2_alg».proof.Proof.RefTerm
import Idealize.ShloMosaic.Lib.StableHlo.Run
import Idealize.ShloMosaic.Lib.Tactic

noncomputable section

namespace Cert.ReferenceIdeal.RefRun

open Cert.ReferenceIdeal Cert.ReferenceIdeal.Gen Idealize.ShloMosaic Idealize.ShloMosaic.TcCoe Idealize.SL.Sem
  Idealize.ShloMosaic.StableHlo

variable {F : FTy → Type} [FloatOps F]

set_option maxHeartbeats 4000000 in
/-- The reference's 67 operations, in program order. Each names the buffers it reads, the buffer it
    writes, and the pure function from the former's contents to the latter's. -/
abbrev ops : List (HloOp τ sig (Elt F)) :=
  -- the two tables of the 276 unordered pairs of the 24 fields: pair `p`'s first field and its second
  ( StableHlo.nullary main_c (fun i => lit0 (S276.rowMajor i))
  :: StableHlo.nullary main_c_0 (fun i => lit1 (S276.rowMajor i))
  -- the ids with a negative one wrapped (`id < 0 ? id + 10⁶ : id`), as a column of row indices
  :: StableHlo.nullary main_c_1 (constantI S_ 32 0#32)
  :: StableHlo.unary main_c_1 main_v0 (broadcastInDim S8192x24 ![] bcast_S_S8192x24 : (⟨S_, .i32⟩ : BufTy).Contents (Elt F) → (⟨S8192x24, .i32⟩ : BufTy).Contents (Elt F))
  :: StableHlo.binary main_arg0 main_v0 main_v1 (cmpi .slt : (⟨S8192x24, .i32⟩ : BufTy).Contents (Elt F) → (⟨S8192x24, .i32⟩ : BufTy).Contents (Elt F) → (⟨S8192x24, .i1⟩ : BufTy).Contents (Elt F))
  :: StableHlo.nullary main_c_2 (constantI S_ 32 1000000#32)
  :: StableHlo.unary main_c_2 main_v2 (broadcastInDim S8192x24 ![] bcast_S_S8192x24 : (⟨S_, .i32⟩ : BufTy).Contents (Elt F) → (⟨S8192x24, .i32⟩ : BufTy).Contents (Elt F))
  :: StableHlo.binary main_arg0 main_v2 main_v3 (addi : (⟨S8192x24, .i32⟩ : BufTy).Contents (Elt F) → (⟨S8192x24, .i32⟩ : BufTy).Contents (Elt F) → (⟨S8192x24, .i32⟩ : BufTy).Contents (Elt F))
  :: StableHlo.ternary main_v1 main_v3 main_arg0 main_v4 (select : (⟨S8192x24, .i1⟩ : BufTy).Contents (Elt F) → (⟨S8192x24, .i32⟩ : BufTy).Contents (Elt F) → (⟨S8192x24, .i32⟩ : BufTy).Contents (Elt F) → (⟨S8192x24, .i32⟩ : BufTy).Contents (Elt F))
  :: StableHlo.unary main_v4 main_v5 (broadcastInDim S8192x24x1 ![0, 1] bcast_S8192x24_S8192x24x1_0_1 : (⟨S8192x24, .i32⟩ : BufTy).Contents (Elt F) → (⟨S8192x24x1, .i32⟩ : BufTy).Contents (Elt F))
  -- the linear term: row `id b f` of the 10⁶ × 1 table, summed over the 24 fields of sample `b`
  :: StableHlo.binary main_arg1 main_v5 main_v6 ((fun x i => Host.gather gather_S1000000x1_S8192x24x1_S8192x24x1_2_0_n_n_0_2_11 x i) : (⟨S1000000x1, .f32⟩ : BufTy).Contents (Elt F) → (⟨S8192x24x1, .i32⟩ : BufTy).Contents (Elt F) → (⟨S8192x24x1, .f32⟩ : BufTy).Contents (Elt F))
  :: StableHlo.nullary main_cst (constant S_ .f32 0x00000000#32)
  :: StableHlo.binary main_v6 main_cst main_v7 ((fun x v => Host.reduceAdd x v reducesTo_S8192x24x1_S8192_d1_2 h_S_) : (⟨S8192x24x1, .f32⟩ : BufTy).Contents (Elt F) → (⟨S_, .f32⟩ : BufTy).Contents (Elt F) → (⟨S8192, .f32⟩ : BufTy).Contents (Elt F))
  -- the same wrapped ids again, and the embeddings `emb b f · = table (id b f) ·` (16 numbers each)
  :: StableHlo.nullary main_c_3 (constantI S_ 32 0#32)
  :: StableHlo.unary main_c_3 main_v8 (broadcastInDim S8192x24 ![] bcast_S_S8192x24 : (⟨S_, .i32⟩ : BufTy).Contents (Elt F) → (⟨S8192x24, .i32⟩ : BufTy).Contents (Elt F))
  :: StableHlo.binary main_arg0 main_v8 main_v9 (cmpi .slt : (⟨S8192x24, .i32⟩ : BufTy).Contents (Elt F) → (⟨S8192x24, .i32⟩ : BufTy).Contents (Elt F) → (⟨S8192x24, .i1⟩ : BufTy).Contents (Elt F))
  :: StableHlo.nullary main_c_4 (constantI S_ 32 1000000#32)
  :: StableHlo.unary main_c_4 main_v10 (broadcastInDim S8192x24 ![] bcast_S_S8192x24 : (⟨S_, .i32⟩ : BufTy).Contents (Elt F) → (⟨S8192x24, .i32⟩ : BufTy).Contents (Elt F))
  :: StableHlo.binary main_arg0 main_v10 main_v11 (addi : (⟨S8192x24, .i32⟩ : BufTy).Contents (Elt F) → (⟨S8192x24, .i32⟩ : BufTy).Contents (Elt F) → (⟨S8192x24, .i32⟩ : BufTy).Contents (Elt F))
  :: StableHlo.ternary main_v9 main_v11 main_arg0 main_v12 (select : (⟨S8192x24, .i1⟩ : BufTy).Contents (Elt F) → (⟨S8192x24, .i32⟩ : BufTy).Contents (Elt F) → (⟨S8192x24, .i32⟩ : BufTy).Contents (Elt F) → (⟨S8192x24, .i32⟩ : BufTy).Contents (Elt F))
  :: StableHlo.unary main_v12 main_v13 (broadcastInDim S8192x24x1 ![0, 1] bcast_S8192x24_S8192x24x1_0_1 : (⟨S8192x24, .i32⟩ : BufTy).Contents (Elt F) → (⟨S8192x24x1, .i32⟩ : BufTy).Contents (Elt F))
  :: StableHlo.binary main_arg2 main_v13 main_v14 ((fun x i => Host.gather gather_S1000000x16_S8192x24x1_S8192x24x16_2_0_n_n_0_2_116 x i) : (⟨S1000000x16, .f32⟩ : BufTy).Contents (Elt F) → (⟨S8192x24x1, .i32⟩ : BufTy).Contents (Elt F) → (⟨S8192x24x16, .f32⟩ : BufTy).Contents (Elt F))
  -- the first field of each pair (wrapped by 24, never negative here) and its embedding: 8192 × 276 × 16
  :: StableHlo.nullary main_c_5 (constantI S_ 32 0#32)
  :: StableHlo.unary main_c_5 main_v15 (broadcastInDim S276 ![] bcast_S_S276 : (⟨S_, .i32⟩ : BufTy).Contents (Elt F) → (⟨S276, .i32⟩ : BufTy).Contents (Elt F))
  :: StableHlo.binary main_c main_v15 main_v16 (cmpi .slt : (⟨S276, .i32⟩ : BufTy).Contents (Elt F) → (⟨S276, .i32⟩ : BufTy).Contents (Elt F) → (⟨S276, .i1⟩ : BufTy).Contents (Elt F))
  :: StableHlo.nullary main_c_6 (constantI S_ 32 24#32)
  :: StableHlo.unary main_c_6 main_v17 (broadcastInDim S276 ![] bcast_S_S276 : (⟨S_, .i32⟩ : BufTy).Contents (Elt F) → (⟨S276, .i32⟩ : BufTy).Contents (Elt F))
  :: StableHlo.binary main_c main_v17 main_v18 (addi : (⟨S276, .i32⟩ : BufTy).Contents (Elt F) → (⟨S276, .i32⟩ : BufTy).Contents (Elt F) → (⟨S276, .i32⟩ : BufTy).Contents (Elt F))
  :: StableHlo.ternary main_v16 main_v18 main_c main_v19 (select : (⟨S276, .i1⟩ : BufTy).Contents (Elt F) → (⟨S276, .i32⟩ : BufTy).Contents (Elt F) → (⟨S276, .i32⟩ : BufTy).Contents (Elt F) → (⟨S276, .i32⟩ : BufTy).Contents (Elt F))
  :: StableHlo.unary main_v19 main_v20 (broadcastInDim S276x1 ![0] bcast_S276_S276x1_0 : (⟨S276, .i32⟩ : BufTy).Contents (Elt F) → (⟨S276x1, .i32⟩ : BufTy).Contents (Elt F))
  :: StableHlo.binary main_v14 main_v20 main_v21 ((fun x i => Host.gather gather_S8192x24x16_S276x1_S8192x276x16_02_1_n_n_1_1_8192116 x i) : (⟨S8192x24x16, .f32⟩ : BufTy).Contents (Elt F) → (⟨S276x1, .i32⟩ : BufTy).Contents (Elt F) → (⟨S8192x276x16, .f32⟩ : BufTy).Contents (Elt F))
  -- the second field of each pair and its embedding
  :: StableHlo.nullary main_c_7 (constantI S_ 32 0#32)
  :: StableHlo.unary main_c_7 main_v22 (broadcastInDim S276 ![] bcast_S_S276 : (⟨S_, .i32⟩ : BufTy).Contents (Elt F) → (⟨S276, .i32⟩ : BufTy).Contents (Elt F))
  :: StableHlo.binary main_c_0 main_v22 main_v23 (cmpi .slt : (⟨S276, .i32⟩ : BufTy).Contents (Elt F) → (⟨S276, .i32⟩ : BufTy).Contents (Elt F) → (⟨S276, .i1⟩ : BufTy).Contents (Elt F))
  :: StableHlo.nullary main_c_8 (constantI S_ 32 24#32)
  :: StableHlo.unary main_c_8 main_v24 (broadcastInDim S276 ![] bcast_S_S276 : (⟨S_, .i32⟩ : BufTy).Contents (Elt F) → (⟨S276, .i32⟩ : BufTy).Contents (Elt F))
  :: StableHlo.binary main_c_0 main_v24 main_v25 (addi : (⟨S276, .i32⟩ : BufTy).Contents (Elt F) → (⟨S276, .i32⟩ : BufTy).Contents (Elt F) → (⟨S276, .i32⟩ : BufTy).Contents (Elt F))
  :: StableHlo.ternary main_v23 main_v25 main_c_0 main_v26 (select : (⟨S276, .i1⟩ : BufTy).Contents (Elt F) → (⟨S276, .i32⟩ : BufTy).Contents (Elt F) → (⟨S276, .i32⟩ : BufTy).Contents (Elt F) → (⟨S276, .i32⟩ : BufTy).Contents (Elt F))
  :: StableHlo.unary main_v26 main_v27 (broadcastInDim S276x1 ![0] bcast_S276_S276x1_0 : (⟨S276, .i32⟩ : BufTy).Contents (Elt F) → (⟨S276x1, .i32⟩ : BufTy).Contents (Elt F))
  :: StableHlo.binary main_v14 main_v27 main_v28 ((fun x i => Host.gather gather_S8192x24x16_S276x1_S8192x276x16_02_1_n_n_1_1_8192116 x i) : (⟨S8192x24x16, .f32⟩ : BufTy).Contents (Elt F) → (⟨S276x1, .i32⟩ : BufTy).Contents (Elt F) → (⟨S8192x276x16, .f32⟩ : BufTy).Contents (Elt F))
  -- the two embeddings side by side (32 numbers), the pair axis brought to the front: 276 × 8192 × 32
  :: StableHlo.binary main_v21 main_v28 main_v29 ((fun a b => concatenate S8192x276x32 2 [⟨S8192x276x16, a⟩, ⟨S8192x276x16, b⟩] concatenates_S8192x276x16_S8192x276x16_S8192x276x32_d2) : (⟨S8192x276x16, .f32⟩ : BufTy).Contents (Elt F) → (⟨S8192x276x16, .f32⟩ : BufTy).Contents (Elt F) → (⟨S8192x276x32, .f32⟩ : BufTy).Contents (Elt F))
  :: StableHlo.unary main_v29 main_v30 ((transpose S276x8192x32 [1, 0, 2] · transposes_S8192x276x32_S276x8192x32_1_0_2) : (⟨S8192x276x32, .f32⟩ : BufTy).Contents (Elt F) → (⟨S276x8192x32, .f32⟩ : BufTy).Contents (Elt F))
  -- each pair's own first layer: its 32 × 64 matrix applied, its 64 biases added
  :: StableHlo.binary main_v30 main_arg4 main_v31 ((fun l r => Host.dotGeneral dot_S276x8192x32_S276x32x64_S276x8192x64_2_1_1_2_0_0 none l r) : (⟨S276x8192x32, .f32⟩ : BufTy).Contents (Elt F) → (⟨S276x32x64, .f32⟩ : BufTy).Contents (Elt F) → (⟨S276x8192x64, .f32⟩ : BufTy).Contents (Elt F))
  :: StableHlo.unary main_arg5 main_v32 (broadcastInDim S276x1x64 ![0, 2] bcast_S276x64_S276x1x64_0_2 : (⟨S276x64, .f32⟩ : BufTy).Contents (Elt F) → (⟨S276x1x64, .f32⟩ : BufTy).Contents (Elt F))
  :: StableHlo.unary main_v32 main_v33 (broadcastInDim S276x8192x64 ![0, 1, 2] bcast_S276x1x64_S276x8192x64_0_1_2 : (⟨S276x1x64, .f32⟩ : BufTy).Contents (Elt F) → (⟨S276x8192x64, .f32⟩ : BufTy).Contents (Elt F))
  :: StableHlo.binary main_v31 main_v33 main_v34 (addf : (⟨S276x8192x64, .f32⟩ : BufTy).Contents (Elt F) → (⟨S276x8192x64, .f32⟩ : BufTy).Contents (Elt F) → (⟨S276x8192x64, .f32⟩ : BufTy).Contents (Elt F))
  -- the rectifier `max x 0`, the called function's three operations over the call's own buffers
  :: StableHlo.TRef.nullary main_call0.cst (constant S_ .f32 0x00000000#32)
  :: StableHlo.TRef.unary main_call0.cst main_call0.v0 (broadcastInDim S276x8192x64 ![] bcast_S_S276x8192x64)
  :: StableHlo.TRef.binary (.of main_v34) main_call0.v0 main_call0.v1 maximumf
  -- each pair's own second layer: its 64 × 1 matrix applied, its bias added
  :: StableHlo.binary main_v35 main_arg6 main_v36 ((fun l r => Host.dotGeneral dot_S276x8192x64_S276x64x1_S276x8192x1_2_1_1_2_0_0 none l r) : (⟨S276x8192x64, .f32⟩ : BufTy).Contents (Elt F) → (⟨S276x64x1, .f32⟩ : BufTy).Contents (Elt F) → (⟨S276x8192x1, .f32⟩ : BufTy).Contents (Elt F))
  :: StableHlo.unary main_arg7 main_v37 (broadcastInDim S276x1x1 ![0, 2] bcast_S276x1_S276x1x1_0_2 : (⟨S276x1, .f32⟩ : BufTy).Contents (Elt F) → (⟨S276x1x1, .f32⟩ : BufTy).Contents (Elt F))
  :: StableHlo.unary main_v37 main_v38 (broadcastInDim S276x8192x1 ![0, 1, 2] bcast_S276x1x1_S276x8192x1_0_1_2 : (⟨S276x1x1, .f32⟩ : BufTy).Contents (Elt F) → (⟨S276x8192x1, .f32⟩ : BufTy).Contents (Elt F))
  :: StableHlo.binary main_v36 main_v38 main_v39 (addf : (⟨S276x8192x1, .f32⟩ : BufTy).Contents (Elt F) → (⟨S276x8192x1, .f32⟩ : BufTy).Contents (Elt F) → (⟨S276x8192x1, .f32⟩ : BufTy).Contents (Elt F))
  -- the pairs' outputs summed over the 276 pairs, and the linear term added
  :: StableHlo.nullary main_cst_9 (constant S_ .f32 0x00000000#32)
  :: StableHlo.binary main_v39 main_cst_9 main_v40 ((fun x v => Host.reduceAdd x v reducesTo_S276x8192x1_S8192_d0_2 h_S_) : (⟨S276x8192x1, .f32⟩ : BufTy).Contents (Elt F) → (⟨S_, .f32⟩ : BufTy).Contents (Elt F) → (⟨S8192, .f32⟩ : BufTy).Contents (Elt F))
  :: StableHlo.binary main_v7 main_v40 main_v41 (addf : (⟨S8192, .f32⟩ : BufTy).Contents (Elt F) → (⟨S8192, .f32⟩ : BufTy).Contents (Elt F) → (⟨S8192, .f32⟩ : BufTy).Contents (Elt F))
  -- the one global bias added to every sample
  :: StableHlo.reshape main_arg3 main_v42 rfl shapeCasts_S1_S_
  :: StableHlo.unary main_v42 main_v43 (broadcastInDim S8192 ![] bcast_S_S8192 : (⟨S_, .f32⟩ : BufTy).Contents (Elt F) → (⟨S8192, .f32⟩ : BufTy).Contents (Elt F))
  :: StableHlo.binary main_v41 main_v43 main_v44 (addf : (⟨S8192, .f32⟩ : BufTy).Contents (Elt F) → (⟨S8192, .f32⟩ : BufTy).Contents (Elt F) → (⟨S8192, .f32⟩ : BufTy).Contents (Elt F))
  -- the logistic function `1 / (1 + exp (-x))`
  :: StableHlo.unary main_v44 main_v45 (Host.negf : (⟨S8192, .f32⟩ : BufTy).Contents (Elt F) → (⟨S8192, .f32⟩ : BufTy).Contents (Elt F))
  :: StableHlo.unary main_v45 main_v46 (Host.exp : (⟨S8192, .f32⟩ : BufTy).Contents (Elt F) → (⟨S8192, .f32⟩ : BufTy).Contents (Elt F))
  :: StableHlo.nullary main_cst_10 (constant S_ .f32 0x3F800000#32)
  :: StableHlo.unary main_cst_10 main_v47 (broadcastInDim S8192 ![] bcast_S_S8192 : (⟨S_, .f32⟩ : BufTy).Contents (Elt F) → (⟨S8192, .f32⟩ : BufTy).Contents (Elt F))
  :: StableHlo.binary main_v47 main_v46 main_v48 (addf : (⟨S8192, .f32⟩ : BufTy).Contents (Elt F) → (⟨S8192, .f32⟩ : BufTy).Contents (Elt F) → (⟨S8192, .f32⟩ : BufTy).Contents (Elt F))
  :: StableHlo.nullary main_cst_11 (constant S_ .f32 0x3F800000#32)
  :: StableHlo.unary main_cst_11 main_v49 (broadcastInDim S8192 ![] bcast_S_S8192 : (⟨S_, .f32⟩ : BufTy).Contents (Elt F) → (⟨S8192, .f32⟩ : BufTy).Contents (Elt F))
  :: StableHlo.binary main_v49 main_v48 main_v50 (Host.divf : (⟨S8192, .f32⟩ : BufTy).Contents (Elt F) → (⟨S8192, .f32⟩ : BufTy).Contents (Elt F) → (⟨S8192, .f32⟩ : BufTy).Contents (Elt F))
  :: [] )

set_option maxRecDepth 4096 in
/-- The program is its operations run in order: unfolding the two windows of the main function and the
    called function's body at its call, both sides are the same chain of steps. -/
theorem main_eq (c : Dev nD) : main (F := F) c = seq ops := rfl

/-- No buffer of the signature is scoped to a region, -/
theorem scopedRefs_eq : (Finset.univ.filter fun b : Ref sig .tc => b.isScoped) = ∅ := by decide
/-- and there is no semaphore at all: the whole machine state is the tensor buffers. -/
theorem scopedSems_eq : (Finset.univ.filter fun sm : SemLoc sig => sm.isScoped .tc) = ∅ := by decide

/-- Every operation touches buffers of the one processor that runs the program, and no others. -/
theorem ops_sub : (ops : List (HloOp τ sig (Elt F))).Forall fun op => op.bufs ⊆ tcRefs τ sig :=
  ⟨nullary_bufs_sub .., nullary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., binary_bufs_sub .., unary_bufs_sub ..,
    binary_bufs_sub .., unary_bufs_sub .., unary_bufs_sub .., binary_bufs_sub .., nullary_bufs_sub .., unary_bufs_sub ..,
    binary_bufs_sub .., binary_bufs_sub .., unary_bufs_sub .., unary_bufs_sub .., binary_bufs_sub .., nullary_bufs_sub ..,
    binary_bufs_sub .., binary_bufs_sub .., reshape_bufs_sub .., unary_bufs_sub .., binary_bufs_sub .., unary_bufs_sub ..,
    unary_bufs_sub .., nullary_bufs_sub .., unary_bufs_sub .., binary_bufs_sub .., nullary_bufs_sub .., unary_bufs_sub ..,
    binary_bufs_sub ..⟩

/-! ## The fold of the operations, read at one buffer

`after ops V` is what the buffers hold once the operations have run in order from contents `V`. Reading
it at one buffer is a computation with two rules: at the buffer an operation writes, the operation's
effect is its function applied to the contents of the buffers it reads; at any other buffer it is what
was there before. Which of two buffers is which is decided by comparing their places in the signature. -/

set_option maxHeartbeats 8000000 in
/-- At the result buffer the fold unwinds, operation by operation from the last to the first, to the
    composed term `refTerm` of the argument buffers' contents: every intermediate buffer is replaced by
    the function that wrote it applied to ITS operands, until only argument buffers are left. The term so
    obtained and `refTerm` are the same term written in named pieces. -/
theorem result_eq (V : Valuation τ sig (Elt Ideal)) :
    after ops V (main_v50 : DevRef τ sig)
      = Cert.ReferenceIdeal.RefTerm.refTerm (V (main_arg0 : DevRef τ sig)) (V (main_arg1 : DevRef τ sig)) (V (main_arg2 : DevRef τ sig)) (V (main_arg3 : DevRef τ sig))
          (V (main_arg4 : DevRef τ sig)) (V (main_arg5 : DevRef τ sig)) (V (main_arg6 : DevRef τ sig)) (V (main_arg7 : DevRef τ sig)) := by
  after_results_simp
  rfl

/-- No operation writes argument 0: it holds at the end what it held at the start. -/
theorem arg0_eq (V : Valuation τ sig (Elt Ideal)) :
    after ops V (main_arg0 : DevRef τ sig) = V (main_arg0 : DevRef τ sig) := by
  after_results_simp

/-- No operation writes argument 1: it holds at the end what it held at the start. -/
theorem arg1_eq (V : Valuation τ sig (Elt Ideal)) :
    after ops V (main_arg1 : DevRef τ sig) = V (main_arg1 : DevRef τ sig) := by
  after_results_simp

/-- No operation writes argument 2: it holds at the end what it held at the start. -/
theorem arg2_eq (V : Valuation τ sig (Elt Ideal)) :
    after ops V (main_arg2 : DevRef τ sig) = V (main_arg2 : DevRef τ sig) := by
  after_results_simp

/-- No operation writes argument 3: it holds at the end what it held at the start. -/
theorem arg3_eq (V : Valuation τ sig (Elt Ideal)) :
    after ops V (main_arg3 : DevRef τ sig) = V (main_arg3 : DevRef τ sig) := by
  after_results_simp

/-- No operation writes argument 4: it holds at the end what it held at the start. -/
theorem arg4_eq (V : Valuation τ sig (Elt Ideal)) :
    after ops V (main_arg4 : DevRef τ sig) = V (main_arg4 : DevRef τ sig) := by
  after_results_simp

/-- No operation writes argument 5: it holds at the end what it held at the start. -/
theorem arg5_eq (V : Valuation τ sig (Elt Ideal)) :
    after ops V (main_arg5 : DevRef τ sig) = V (main_arg5 : DevRef τ sig) := by
  after_results_simp

/-- No operation writes argument 6: it holds at the end what it held at the start. -/
theorem arg6_eq (V : Valuation τ sig (Elt Ideal)) :
    after ops V (main_arg6 : DevRef τ sig) = V (main_arg6 : DevRef τ sig) := by
  after_results_simp

/-- No operation writes argument 7: it holds at the end what it held at the start. -/
theorem arg7_eq (V : Valuation τ sig (Elt Ideal)) :
    after ops V (main_arg7 : DevRef τ sig) = V (main_arg7 : DevRef τ sig) := by
  after_results_simp

/-- From any memory whose counters are zero, every fair execution of the reference terminates, and in
    every final state the result buffer holds the operations' composed term `refTerm` of the eight
    argument buffers' initial contents, while each argument buffer still holds what it held at the start.

    The library's theorem for a straight line of operations says that each buffer ends at the fold of the
    operations' effects over the initial contents; the lemmas above read that fold at the result buffer
    and at the eight argument buffers. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v50)
          = Cert.ReferenceIdeal.RefTerm.refTerm (m ((c.tc : Thread nD τ).loc main_arg0)) (m ((c.tc : Thread nD τ).loc main_arg1)) (m ((c.tc : Thread nD τ).loc main_arg2)) (m ((c.tc : Thread nD τ).loc main_arg3))
              (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v50).trans (result_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c)),
      (h c main_arg6).trans (arg6_eq (launchContents m c)),
      (h c main_arg7).trans (arg7_eq (launchContents m c))⟩)
    (run_seq scopedRefs_eq scopedSems_eq defs main (fun _ => ops) main_eq (fun _ => ops_sub) m ρ)

end Cert.ReferenceIdeal.RefRun

end
-- ==== Proof.RefLayers.lean ====
/-
  The reference's layer operations, read entry by entry at the extended reals.

  The reference treats the 276 field pairs as a stack: a stack of 276 matrices of 8192 × 32 inputs is multiplied,
  matrix by matrix, by a stack of 276 weight matrices of 32 × 64, a bias row per pair is added to every batch row, and
  after the second product (with a stack of 64 × 1 columns) the 276 × 8192 × 1 results are summed over the pair axis
  and the unit axis. Each lemma below says what one of these operations holds at one index:

    * the stacked products at (p, b, h) are the sums over the contracted coordinate of pair p's row b times pair p's
      column h;
    * a bias of shape 276 × 64 (or 276 × 1), given a unit batch axis and then copied along the 8192 batch rows, holds
      at (p, b, h) the bias at (p, h);
    * the transpose that brings the pair axis in front holds at (p, b, k) the operand at (b, p, k);
    * the sum over the pair axis and the unit axis, started from zero, holds at b the sum over the 276 pairs p of the
      operand at (p, b, 0).
-/
import proofs.«167772_j31679678775363_2_alg».proof.Proof.Gen.ReferenceIdeal
import Idealize.ShloMosaic.PureOps.Ideal.Laws
import Idealize.ShloMosaic.Lib.ValueIdx
import Idealize.ShloMosaic.Lib.IdealHost
import Idealize.ShloMosaic.Lib.StackMember
import Idealize.ShloMosaic.Lib.Pipeline.Value

noncomputable section

namespace Cert.ReferenceIdeal.Layers

open Idealize.ShloMosaic Idealize.ShloMosaic.ValueIdx Cert.ReferenceIdeal Cert.ReferenceIdeal.Facts₀ Cert.ReferenceIdeal.Facts

/-! ## The two stacked products -/

/-- The first layer's product: the stack of 276 input matrices (8192 × 32) times the stack of 276 weight matrices
(32 × 64), matrix by matrix, holds at (p, b, h) the sum over k < 32 of L (p, b, k) · R (p, k, h). The dimension
numbers are those of a product of stacks (batch axis 0 on both sides, the left operand's axis 2 contracted against
the right operand's axis 1), which the library reads at an index for any extents. -/
theorem dot1_apply (L : FVec Ideal S276x8192x32 .f32) (R : FVec Ideal S276x32x64 .f32) (p : Fin 276) (b : Fin 8192) (h : Fin 64) :
    Host.dotGeneral (F := Ideal) dot_S276x8192x32_S276x32x64_S276x8192x64_2_1_1_2_0_0 none L R (ix3 p b h) = ∑ k : Fin 32, L (ix3 p b k) * R (ix3 p k h) :=
  StackMember.dotGeneral_stack_apply dot_S276x8192x32_S276x32x64_S276x8192x64_2_1_1_2_0_0_wf none L R p b h

/-- The second layer's product: the stack of 276 hidden matrices (8192 × 64) times the stack of 276 weight columns
(64 × 1) holds at (p, b, u) the sum over h < 64 of H (p, b, h) · W (p, h, u). -/
theorem dot2_apply (H : FVec Ideal S276x8192x64 .f32) (W : FVec Ideal S276x64x1 .f32) (p : Fin 276) (b : Fin 8192) (u : Fin 1) :
    Host.dotGeneral (F := Ideal) dot_S276x8192x64_S276x64x1_S276x8192x1_2_1_1_2_0_0 none H W (ix3 p b u) = ∑ h : Fin 64, H (ix3 p b h) * W (ix3 p h u) :=
  StackMember.dotGeneral_stack_apply dot_S276x8192x64_S276x64x1_S276x8192x1_2_1_1_2_0_0_wf none H W p b u

/-! ## The biases, copied along the batch rows -/

/-- The first bias, of shape 276 × 64, is first given a unit axis in the middle (276 × 1 × 64) and then copied along
it to 276 × 8192 × 64. At (p, b, h) the outer copy reads the middle shape at (p, 0, h), its unit axis at 0, and that
reads the bias at (p, h): the batch row b plays no part. -/
theorem bias1_apply (B1 : FVec Ideal S276x64 .f32) (p : Fin 276) (b : Fin 8192) (h : Fin 64) :
    broadcastInDim S276x8192x64 ![0, 1, 2] bcast_S276x1x64_S276x8192x64_0_1_2 (broadcastInDim S276x1x64 ![0, 2] bcast_S276x64_S276x1x64_0_2 B1) (ix3 p b h) = B1 (ix2 p h) := by
  -- the outer copy: axes 0 and 2 keep their coordinates, the unit axis 1 reads 0
  refine (broadcastInDim_apply ![0, 1, 2] bcast_S276x1x64_S276x8192x64_0_1_2 _ (ix3 p b h) (ix3 p (0 : Fin 1) h) fun a => ?_).trans ?_
  · match a with
    | ⟨0, _⟩ => rfl
    | ⟨1, _⟩ => rfl
    | ⟨2, _⟩ => rfl
  -- the inner one: the bias's axis 0 is the result's axis 0, its axis 1 the result's axis 2
  · refine broadcastInDim_apply ![0, 2] bcast_S276x64_S276x1x64_0_2 B1 (ix3 p (0 : Fin 1) h) (ix2 p h) fun a => ?_
    match a with
    | ⟨0, _⟩ => rfl
    | ⟨1, _⟩ => rfl

/-- The second bias, of shape 276 × 1, likewise through 276 × 1 × 1 to 276 × 8192 × 1: at (p, b, u) it is the bias
at (p, u). The last axis has one coordinate only, so u is 0. -/
theorem bias2_apply (B2 : FVec Ideal S276x1 .f32) (p : Fin 276) (b : Fin 8192) (u : Fin 1) :
    broadcastInDim S276x8192x1 ![0, 1, 2] bcast_S276x1x1_S276x8192x1_0_1_2 (broadcastInDim S276x1x1 ![0, 2] bcast_S276x1_S276x1x1_0_2 B2) (ix3 p b u) = B2 (ix2 p u) := by
  obtain rfl : u = 0 := Subsingleton.elim u 0
  refine (broadcastInDim_apply ![0, 1, 2] bcast_S276x1x1_S276x8192x1_0_1_2 _ (ix3 p b (0 : Fin 1)) (ix3 p (0 : Fin 1) (0 : Fin 1)) fun a => ?_).trans ?_
  · match a with
    | ⟨0, _⟩ => rfl
    | ⟨1, _⟩ => rfl
    | ⟨2, _⟩ => rfl
  · refine broadcastInDim_apply ![0, 2] bcast_S276x1_S276x1x1_0_2 B2 (ix3 p (0 : Fin 1) (0 : Fin 1)) (ix2 p (0 : Fin 1)) fun a => ?_
    match a with
    | ⟨0, _⟩ => rfl
    | ⟨1, _⟩ => rfl

/-! ## The transpose that brings the pair axis in front -/

/-- The transpose with permutation [1, 0, 2] of an 8192 × 276 × 32 array holds at (p, b, k) the operand at
(b, p, k): result axis 0 is the operand's axis 1, result axis 1 its axis 0, the last axis stays. -/
theorem transpose_apply (P : FVec Ideal S8192x276x32 .f32) (p : Fin 276) (b : Fin 8192) (k : Fin 32) :
    transpose S276x8192x32 [1, 0, 2] P transposes_S8192x276x32_S276x8192x32_1_0_2 (ix3 p b k) = P (ix3 b p k) := by
  refine Idealize.ShloMosaic.transpose_apply [1, 0, 2] P transposes_S8192x276x32_S276x8192x32_1_0_2 (ix3 p b k) (ix3 b p k) fun a => ?_
  match a with
  | ⟨0, _⟩ => rfl
  | ⟨1, _⟩ => rfl
  | ⟨2, _⟩ => rfl

/-! ## The sum over the pair axis and the unit axis -/

/-- Dropping axes 0 and 2 of (p, b, u) leaves b. -/
theorem drop_ix3 (p : Fin 276) (b : Fin 8192) (u : Fin 1) :
    reducesTo_S276x8192x1_S8192_d0_2.drop (ix3 p b u) = ix1 b := by
  funext a
  match a with
  | ⟨0, _⟩ => rfl

/-- An index of the 276 × 8192 × 1 array that drops to b is (its pair coordinate, b, 0): its batch coordinate is the
one kept, and the last axis has one coordinate only. -/
theorem eq_ix3_of_drop (i : S276x8192x1.Idx) (b : Fin 8192) (h : reducesTo_S276x8192x1_S8192_d0_2.drop i = ix1 b) :
    i = ix3 (i 0) b (0 : Fin 1) := by
  funext a
  match a with
  | ⟨0, _⟩ => rfl
  | ⟨1, _⟩ =>
    -- the kept axis is axis 1, so the dropped index's one coordinate is `i 1`
    have h0 : reducesTo_S276x8192x1_S8192_d0_2.drop i 0 = b := congrFun h 0
    exact Fin.ext (congrArg Fin.val h0)
  | ⟨2, _⟩ =>
    have h2 : (i 2).val < 1 := (i 2).isLt
    exact Fin.ext (show (i 2).val = 0 by omega)

/-- The indices that drop to b, listed by their pair coordinate: p ↦ (p, b, 0), one for each pair. -/
def pairEmb (b : Fin 8192) : Fin 276 ↪ S276x8192x1.Idx :=
  ⟨fun p => ix3 p b (0 : Fin 1), fun p p' h => by have := congrFun h 0; exact this⟩

/-- So the set of indices the reduction sums at b is the image of the 276 pairs under p ↦ (p, b, 0). -/
theorem filter_drop (b : Fin 8192) :
    Finset.univ.filter (fun i : S276x8192x1.Idx => reducesTo_S276x8192x1_S8192_d0_2.drop i = ix1 b) = Finset.univ.map (pairEmb b) := by
  ext i
  simp only [Finset.mem_filter, Finset.mem_univ, true_and, Finset.mem_map, pairEmb, Function.Embedding.coeFn_mk]
  exact ⟨fun h => ⟨i 0, (eq_ix3_of_drop i b h).symm⟩, fun ⟨p, hp⟩ => hp ▸ drop_ix3 p b 0⟩

/-- The reduction over axes 0 and 2 of a 276 × 8192 × 1 array, started from the constant zero, holds at b the sum over
the 276 pairs p of the array at (p, b, 0): the host's sum is the initial value plus the sum over the indices that drop
to b; the initial value is the pattern of +0.0, the extended real 0; and those indices are the (p, b, 0). -/
theorem reduce02_apply (O : FVec Ideal S276x8192x1 .f32) (b : Fin 8192) :
    Host.reduceAdd (F := Ideal) O (constant (F := Ideal) S_ .f32 0x00000000#32) reducesTo_S276x8192x1_S8192_d0_2 h_S_ (ix1 b) = ∑ p : Fin 276, O (ix3 p b (0 : Fin 1)) := by
  show Ideal.hostReduceAdd reducesTo_S276x8192x1_S8192_d0_2 O (Ideal.ofBits .f32 0x00000000#32) (ix1 b) = _
  unfold Ideal.hostReduceAdd
  rw [filter_drop, Finset.sum_map, Ideal.ofBits_zero_f32, zero_add]
  rfl

end Cert.ReferenceIdeal.Layers

end
-- ==== Proof.RefValue.lean ====
/-
  The reference's result is the shared specification.

  The reference's term (RefTerm.lean) and the specification (Terms.lean) are built from the same pieces; this file
  goes through them in order.

  (a) The wrapped field ids, the linear term and the looked-up factor rows are the same operations on both sides,
      so they are equal by unfolding.
  (b) The reference wraps the two lists of 276 field numbers by 24 at run time. Every entry of either list is a
      field number between 0 and 23, so the signed comparison with 0 is false at every entry and the wrap returns
      the list itself; hence the pairs' rows are the same on both sides.
  (c) At pair p, batch row b and hidden unit h the hidden layer is
          max (∑ k < 32, P (b, p, k) · W1 (p, k, h) + B1 (p, h)) 0,
      the output layer at (p, b) is  ∑ h < 64, hidden (p, b, h) · W2 (p, h, 0) + B2 (p, 0),  and its sum over the
      pairs splits as  ∑ p, (A p + B2 (p, 0)) = ∑ p, A p + ∑ p, B2 (p, 0):  all pairs' contributions plus the output
      biases' total.
  (d) So the reference's logit at row b is  lin b + (pairSum b + biasSum),  the specification's, and the last
      steps (scalar bias, logistic function) are the same operations.
-/
import proofs.«167772_j31679678775363_2_alg».proof.Proof.RefTerm
import proofs.«167772_j31679678775363_2_alg».proof.Proof.Terms
import proofs.«167772_j31679678775363_2_alg».proof.Proof.RefLayers
import Idealize.ShloMosaic.PureOps.Ideal.Laws
import Idealize.ShloMosaic.Lib.ValueIdx
import Idealize.ShloMosaic.Lib.Pipeline.Value
import Idealize.ShloMosaic.Lib.ValueLayout

noncomputable section

namespace Cert.ReferenceIdeal.RefValue

open Idealize.ShloMosaic Idealize.ShloMosaic.ValueIdx Cert.ReferenceIdeal Cert.ReferenceIdeal.Facts₀ Cert.ReferenceIdeal.Facts

/-! ## (a) The pieces that are the same operations -/

/-- The wrapped field ids are the same term on both sides. -/
theorem rowIdx_eq (inputs : IVec S8192x24 32) : RefTerm.rowIdx inputs = Cert.Mlp.rowIdx inputs := rfl

/-- The linear term is the same term on both sides. -/
theorem lin_eq (inputs : IVec S8192x24 32) (w : FVec Ideal S1000000x1 .f32) :
    RefTerm.lin inputs w = Cert.Mlp.lin inputs w := rfl

/-- The looked-up factor rows are the same term on both sides. -/
theorem emb_eq (inputs : IVec S8192x24 32) (v : FVec Ideal S1000000x16 .f32) :
    RefTerm.emb inputs v = Cert.Mlp.emb inputs v := rfl

/-! ## (b) Wrapping the field numbers changes nothing -/

/-- A list none of whose entries is negative is returned by the wrap as it is: the comparison selects the
    unwrapped entry everywhere. -/
theorem wrap_eq_self (c : IVec S276 32) (h : ∀ i, IntOp.cmpi .slt (c i) 0#32 = 0#1) : RefTerm.wrap c = c :=
  funext fun i => by
    show Scalar.select (IntOp.cmpi .slt (c i) 0#32) (IntOp.addi (c i) 24#32) (c i) = c i
    rw [h i]
    exact select_zero _ _

/-- No first field number is negative (all 276 are between 0 and 22). -/
theorem lit0_nonneg : ∀ n : Fin 276, IntOp.cmpi .slt (lit0 n) 0#32 = 0#1 := by decide

/-- No second field number is negative (all 276 are between 1 and 23). -/
theorem lit1_nonneg : ∀ n : Fin 276, IntOp.cmpi .slt (lit1 n) 0#32 = 0#1 := by decide

/-- The two programs list the same first field numbers. -/
theorem lit0_eq : ∀ n : Fin 276, Cert.ReferenceIdeal.lit0 n = Cert.KernelIdeal.lit0 n := by decide

/-- The two programs list the same second field numbers. -/
theorem lit1_eq : ∀ n : Fin 276, Cert.ReferenceIdeal.lit1 n = Cert.KernelIdeal.lit1 n := by decide

/-- The first fields' list is the specification's. -/
theorem firsts_eq : RefTerm.firsts = Cert.Mlp.firsts := funext fun i => lit0_eq (S276.rowMajor i)

/-- The second fields' list is the specification's. -/
theorem seconds_eq : RefTerm.seconds = Cert.Mlp.seconds := funext fun i => lit1_eq (S276.rowMajor i)

/-- The first fields' rows: the wrap drops out, and the gather is the specification's. -/
theorem pick_firsts (xv : FVec Ideal S8192x24x16 .f32) :
    RefTerm.pick RefTerm.firsts xv = Cert.Mlp.pick Cert.Mlp.firsts xv := by
  unfold RefTerm.pick
  rw [wrap_eq_self RefTerm.firsts fun i => lit0_nonneg (S276.rowMajor i), firsts_eq]
  rfl

/-- The second fields' rows likewise. -/
theorem pick_seconds (xv : FVec Ideal S8192x24x16 .f32) :
    RefTerm.pick RefTerm.seconds xv = Cert.Mlp.pick Cert.Mlp.seconds xv := by
  unfold RefTerm.pick
  rw [wrap_eq_self RefTerm.seconds fun i => lit1_nonneg (S276.rowMajor i), seconds_eq]
  rfl

/-- The pairs' rows are the specification's. -/
theorem prods_eq (inputs : IVec S8192x24 32) (v : FVec Ideal S1000000x16 .f32) :
    RefTerm.prods inputs v = Cert.Mlp.prods inputs v := by
  unfold RefTerm.prods
  rw [pick_firsts, pick_seconds, emb_eq]
  rfl

/-! ## (c) The two layers and the sum over the pairs, entry by entry -/

/-- The hidden layer at pair `p`, batch row `b`, hidden unit `h`: the pair's row against column `h` of its
    weights, plus its bias, cut at zero. (The rows are read through the transpose, the bias through its two
    broadcasts, and the zero of the relu is the constant's value.) -/
theorem hidden_apply (P : FVec Ideal S8192x276x32 .f32) (W1 : FVec Ideal S276x32x64 .f32) (B1 : FVec Ideal S276x64 .f32)
    (p : Fin 276) (b : Fin 8192) (h : Fin 64) :
    RefTerm.hidden P W1 B1 (ix3 p b h) = max (∑ k : Fin 32, P (ix3 b p k) * W1 (ix3 p k h) + B1 (ix2 p h)) 0 := by
  unfold RefTerm.hidden
  rw [maximumf_apply, addf_apply, Layers.dot1_apply, Layers.bias1_apply]
  have hz : broadcastInDim S276x8192x64 ![] bcast_S_S276x8192x64 (constant (F := Ideal) S_ .f32 0x00000000#32) (ix3 p b h) = 0 :=
    Ideal.ofBits_zero_f32
  rw [hz]
  congr 2
  exact Finset.sum_congr rfl fun k _ => by rw [Layers.transpose_apply]

/-- The output layer at pair `p` and batch row `b`: the hidden layer against the pair's output weights, plus the
    pair's output bias. -/
theorem outs_apply (H : FVec Ideal S276x8192x64 .f32) (W2 : FVec Ideal S276x64x1 .f32) (B2 : FVec Ideal S276x1 .f32)
    (p : Fin 276) (b : Fin 8192) :
    RefTerm.outs H W2 B2 (ix3 p b (0 : Fin 1)) = ∑ h : Fin 64, H (ix3 p b h) * W2 (ix3 p h (0 : Fin 1)) + B2 (ix2 p (0 : Fin 1)) := by
  unfold RefTerm.outs
  rw [addf_apply, Layers.dot2_apply, Layers.bias2_apply]

/-- One pair's output on a batch row is its contribution `pairOut` plus its output bias. -/
theorem outs_hidden_apply (P : FVec Ideal S8192x276x32 .f32) (W1 : FVec Ideal S276x32x64 .f32) (B1 : FVec Ideal S276x64 .f32)
    (W2 : FVec Ideal S276x64x1 .f32) (B2 : FVec Ideal S276x1 .f32) (p : Fin 276) (b : Fin 8192) :
    RefTerm.outs (RefTerm.hidden P W1 B1) W2 B2 (ix3 p b (0 : Fin 1))
      = Cert.Mlp.pairOut P W1 B1 W2 b p + B2 (ix2 p (0 : Fin 1)) := by
  rw [outs_apply]
  unfold Cert.Mlp.pairOut
  congr 1
  exact Finset.sum_congr rfl fun h _ => by rw [hidden_apply]

/-- The sum over the pairs, at batch row `b`: all pairs' contributions plus the output biases' total, since
    `∑ p, (A p + B p) = ∑ p, A p + ∑ p, B p`. -/
theorem pairTotal_apply (P : FVec Ideal S8192x276x32 .f32) (W1 : FVec Ideal S276x32x64 .f32) (B1 : FVec Ideal S276x64 .f32)
    (W2 : FVec Ideal S276x64x1 .f32) (B2 : FVec Ideal S276x1 .f32) (b : Fin 8192) :
    RefTerm.pairTotal (RefTerm.outs (RefTerm.hidden P W1 B1) W2 B2) (ix1 b)
      = Cert.Mlp.pairSum P W1 B1 W2 b + Cert.Mlp.biasSum B2 := by
  unfold RefTerm.pairTotal
  rw [Layers.reduce02_apply]
  unfold Cert.Mlp.pairSum Cert.Mlp.biasSum
  rw [← Finset.sum_add_distrib]
  exact Finset.sum_congr rfl fun p _ => outs_hidden_apply P W1 B1 W2 B2 p b

/-! ## (d) The result -/

/-- The reference's logits before the scalar bias are the specification's: at row `b`, the linear term plus
    (all pairs' contributions plus the output biases' total). -/
theorem logits_eq (inputs : IVec S8192x24 32) (w : FVec Ideal S1000000x1 .f32) (v : FVec Ideal S1000000x16 .f32)
    (W1 : FVec Ideal S276x32x64 .f32) (B1 : FVec Ideal S276x64 .f32) (W2 : FVec Ideal S276x64x1 .f32)
    (B2 : FVec Ideal S276x1 .f32) :
    addf (RefTerm.lin inputs w) (RefTerm.pairTotal (RefTerm.outs (RefTerm.hidden (RefTerm.prods inputs v) W1 B1) W2 B2))
      = Cert.Mlp.logits (Cert.Mlp.lin inputs w) (Cert.Mlp.prods inputs v) W1 B1 W2 B2 := by
  funext j
  obtain ⟨b, rfl⟩ : ∃ b : Fin 8192, j = ix1 b := ⟨j 0, eq_ix1 j⟩
  rw [addf_apply, pairTotal_apply, lin_eq, prods_eq]
  rfl

/-- The reference's result is the specification: the logits agree, and the scalar bias and the logistic function
    are applied by the same operations. -/
theorem refTerm_eq_result (inputs : IVec S8192x24 32) (w : FVec Ideal S1000000x1 .f32) (v : FVec Ideal S1000000x16 .f32)
    (bias : FVec Ideal S1 .f32) (W1 : FVec Ideal S276x32x64 .f32) (B1 : FVec Ideal S276x64 .f32)
    (W2 : FVec Ideal S276x64x1 .f32) (B2 : FVec Ideal S276x1 .f32) :
    RefTerm.refTerm inputs w v bias W1 B1 W2 B2 = Cert.Mlp.result inputs w v bias W1 B1 W2 B2 := by
  unfold Cert.Mlp.result
  rw [← logits_eq]
  rfl

end Cert.ReferenceIdeal.RefValue

end
-- ==== Proof.lean ====
/-
  The certificate of the grouped pairwise-MLP kernel against its per-pair reference.

  Both programs compute, for each of 8192 batch rows, the logistic function of

      lin b + ∑ over the 276 field pairs p of ( ∑ h < 64, relu (∑ k < 32, prods b p k · W1 p k h + b1 p h) · W2 p h )
            + ∑ p, b2 p + bias

  (Proof/Terms.lean states it as `result`). The reference does it pair by pair with two batched products and one sum
  over the pairs; the kernel takes the pairs in 23 groups of 12, multiplies a group's 384 inputs by a block-diagonal
  384 × 768 matrix, and accumulates the groups' contributions over the grid. On the extended reals the two are equal
  by regrouping finite sums and `x · 0 = 0`; no inequality and no finiteness of the inputs is used.

  * the three frame claims: the two kernel programs' frames are the generated ones; the reference's is its run
    (Proof/RefRun.lean) with the result dropped;
  * the idealization rewrote no operation, so `preserves` is `True`;
  * `algebraic`: the kernel program's run ends at `result` of its arguments (Proof/KernelRun.lean), the reference's at
    its own composed term (Proof/RefRun.lean), which is `result` of its arguments too (Proof/RefValue.lean), and the
    arguments agree.
-/
import proofs.«167772_j31679678775363_2_alg».proof.Defs
import proofs.«167772_j31679678775363_2_alg».proof.Proof.Gen.Kernel
import proofs.«167772_j31679678775363_2_alg».proof.Proof.Gen.Kernel.Skeleton
import proofs.«167772_j31679678775363_2_alg».proof.Proof.Gen.Kernel.Launch
import proofs.«167772_j31679678775363_2_alg».proof.Proof.Gen.Kernel.Points
import proofs.«167772_j31679678775363_2_alg».proof.Proof.Gen.Kernel.Frame
import proofs.«167772_j31679678775363_2_alg».proof.Proof.Gen.KernelIdeal
import proofs.«167772_j31679678775363_2_alg».proof.Proof.Gen.KernelIdeal.Skeleton
import proofs.«167772_j31679678775363_2_alg».proof.Proof.Gen.KernelIdeal.Launch
import proofs.«167772_j31679678775363_2_alg».proof.Proof.Gen.KernelIdeal.Points
import proofs.«167772_j31679678775363_2_alg».proof.Proof.Gen.KernelIdeal.Frame
import proofs.«167772_j31679678775363_2_alg».proof.Proof.Gen.ReferenceIdeal
import proofs.«167772_j31679678775363_2_alg».proof.Proof.Gen.Pre_finite_inputs
import proofs.«167772_j31679678775363_2_alg».proof.Proof.KernelRun
import proofs.«167772_j31679678775363_2_alg».proof.Proof.RefRun
import proofs.«167772_j31679678775363_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefRun.run m ρ)

theorem preserves : Cert.preserves_Kernel_KernelIdeal := trivial

/-- Both runs end at the specification `result` of their own launch arguments, and the arguments agree. -/
theorem algebraic : Cert.algebraic_KernelIdeal_ReferenceIdeal := by
  intro m ρ m' ρ' _ hagree
  refine ⟨_, Cert.KernelIdeal.Value.run m ρ, ?_⟩
  refine (θ_run Cert.ReferenceIdeal.defs _ _).mono (fun _ h c => ⟨(h c).1.trans ?_, (h c).2⟩)
    (Cert.ReferenceIdeal.RefRun.run m' ρ')
  obtain ⟨a0, a1, a2, a3, a4, a5, a6, a7⟩ := hagree c
  rw [Cert.ReferenceIdeal.RefValue.refTerm_eq_result, a0, a1, a2, a3, a4, a5, a6, a7]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
